-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v173)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v173) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v188) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S384x128 : Shape := ⟨2, ![384, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S128x1 .f32) (main_arg14 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x1 .f32 := Host.absf main_arg13
  let main_cst_20 : FVec F S_ .f32 := constant S_ .f32 0x7F800000#32
  let main_v55 : FVec F S128x1 .f32 := broadcastInDim S128x1 ![] bcast_S_S128x1 main_cst_20
  let main_v56 : IVec S128x1 1 := cmpf .olt main_v54 main_v55
  let main_c_21 : IVec S_ 1 := constantI S_ 1 1#1
  let main_v57 : IVec S_ 1 := (fun x v => Host.reduce IntOp.andi x v reducesTo_S128x1_S_d0_1 h_S_) main_v56 main_c_21
  let main_v58 : IVec S_ 1 := andi main_v53 main_v57
  let main_v59 : FVec F S1 .f32 := Host.absf main_arg14
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg9 : FVec F S384x128 .f32) (main_arg10 : FVec F S128 .f32) (main_arg11 : FVec F S384x128 .f32) (main_arg12 : FVec F S128 .f32) (main_arg13 : FVec F S128x1 .f32) (main_arg14 : FVec F S1 .f32) (main_v33 : IVec S_ 1) : IVec S_ 1 :=
  let main_v34 : FVec F S384x128 .f32 := Host.absf main_arg9
  let main_cst_12 : FVec F S_ .f32 := constant S_ .f32 0x7F800000#32
  let main_v35 : FVec F S384x128 .f32 := broadcastInDim S384x128 ![] bcast_S_S384x128 main_cst_12
  let main_v36 : IVec S384x128 1 := cmpf .olt main_v34 main_v35
  let main_c_13 : IVec S_ 1 := constantI S_ 1 1#1
  let main_v37 : IVec S_ 1 := (fun x v => Host.reduce IntOp.andi x v reducesTo_S384x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S384x128 .f32 := Host.absf main_arg11
  let main_cst_16 : FVec F S_ .f32 := constant S_ .f32 0x7F800000#32
  let main_v45 : FVec F S384x128 .f32 := broadcastInDim S384x128 ![] bcast_S_S384x128 main_cst_16
  let main_v46 : IVec S384x128 1 := cmpf .olt main_v44 main_v45
  let main_c_17 : IVec S_ 1 := constantI S_ 1 1#1
  let main_v47 : IVec S_ 1 := (fun x v => Host.reduce IntOp.andi x v reducesTo_S384x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_v48 main_v49 main_v50

def fn_part1 {F : FTy → Type} [FloatOps F] (main_arg6 : FVec F S128 .f32) (main_arg7 : FVec F S384x128 .f32) (main_arg8 : FVec F S128 .f32) (main_arg9 : FVec F S384x128 .f32) (main_arg10 : FVec F S128 .f32) (main_arg11 : FVec F S384x128 .f32) (main_arg12 : FVec F S128 .f32) (main_arg13 : FVec F S128x1 .f32) (main_arg14 : FVec F S1 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S384x128 .f32 := Host.absf main_arg7
  let main_cst_8 : FVec F S_ .f32 := constant S_ .f32 0x7F800000#32
  let main_v25 : FVec F S384x128 .f32 := broadcastInDim S384x128 ![] bcast_S_S384x128 main_cst_8
  let main_v26 : IVec S384x128 1 := cmpf .olt main_v24 main_v25
  let main_c_9 : IVec S_ 1 := constantI S_ 1 1#1
  let main_v27 : IVec S_ 1 := (fun x v => Host.reduce IntOp.andi x v reducesTo_S384x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S50000x128 .f32) (main_arg1 : IVec S800000 32) (main_arg2 : IVec S800000 32) (main_arg3 : FVec F S384x128 .f32) (main_arg4 : FVec F S128 .f32) (main_arg5 : FVec F S384x128 .f32) (main_arg6 : FVec F S128 .f32) (main_arg7 : FVec F S384x128 .f32) (main_arg8 : FVec F S128 .f32) (main_arg9 : FVec F S384x128 .f32) (main_arg10 : FVec F S128 .f32) (main_arg11 : FVec F S384x128 .f32) (main_arg12 : FVec F S128 .f32) (main_arg13 : FVec F S128x1 .f32) (main_arg14 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S384x128 .f32 := Host.absf main_arg3
  let main_cst_0 : FVec F S_ .f32 := constant S_ .f32 0x7F800000#32
  let main_v5 : FVec F S384x128 .f32 := broadcastInDim S384x128 ![] bcast_S_S384x128 main_cst_0
  let main_v6 : IVec S384x128 1 := cmpf .olt main_v4 main_v5
  let main_c_1 : IVec S_ 1 := constantI S_ 1 1#1
  let main_v7 : IVec S_ 1 := (fun x v => Host.reduce IntOp.andi x v reducesTo_S384x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S384x128 .f32 := Host.absf main_arg5
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg6 main_arg7 main_arg8 main_arg9 main_arg10 main_arg11 main_arg12 main_arg13 main_arg14 main_v13 main_v16
-- ==== Kernel.lean ====
abbrev S50000x128 : Shape := ⟨2, ![50000, 128]⟩
abbrev S800000 : Shape := ⟨1, ![800000]⟩
abbrev S384x128 : Shape := ⟨2, ![384, 128]⟩
abbrev S128 : Shape := ⟨1, ![128]⟩
abbrev S128x1 : Shape := ⟨2, ![128, 1]⟩
abbrev S1 : Shape := ⟨1, ![1]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S50000x384 : Shape := ⟨2, ![50000, 384]⟩
abbrev S1x128 : Shape := ⟨2, ![1, 128]⟩
abbrev S2000x384 : Shape := ⟨2, ![2000, 384]⟩
abbrev S2000x128 : Shape := ⟨2, ![2000, 128]⟩
abbrev S1x1 : Shape := ⟨2, ![1, 1]⟩

abbrev nBuf : Space → Nat
  | .hbm => 243
  | .vmem => 30
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S384x128, .f32⟩
  | 4 => ⟨S128, .f32⟩
  | 5 => ⟨S384x128, .f32⟩
  | 6 => ⟨S128, .f32⟩
  | 7 => ⟨S384x128, .f32⟩
  | 8 => ⟨S128, .f32⟩
  | 9 => ⟨S384x128, .f32⟩
  | 10 => ⟨S128, .f32⟩
  | 11 => ⟨S384x128, .f32⟩
  | 12 => ⟨S128, .f32⟩
  | 13 => ⟨S128x1, .f32⟩
  | 14 => ⟨S1, .f32⟩
  | 15 => ⟨S50000x128, .i1⟩
  | 16 => ⟨S_, .f32⟩
  | 17 => ⟨S50000x128, .f32⟩
  | 18 => ⟨S50000x128, .f32⟩
  | 19 => ⟨S_, .f32⟩
  | 20 => ⟨S50000x128, .f32⟩
  | 21 => ⟨S50000x128, .i1⟩
  | 22 => ⟨S_, .f32⟩
  | 23 => ⟨S50000x128, .f32⟩
  | 24 => ⟨S50000x128, .f32⟩
  | 25 => ⟨S_, .f32⟩
  | 26 => ⟨S50000x128, .f32⟩
  | 27 => ⟨S50000x128, .i1⟩
  | 28 => ⟨S_, .f32⟩
  | 29 => ⟨S50000x128, .f32⟩
  | 30 => ⟨S50000x128, .f32⟩
  | 31 => ⟨S_, .f32⟩
  | 32 => ⟨S800000, .f32⟩
  | 33 => ⟨S_, .f32⟩
  | 34 => ⟨S50000, .f32⟩
  | 35 => ⟨S800000x1, .i32⟩
  | 36 => ⟨S50000, .f32⟩
  | 37 => ⟨S_, .f32⟩
  | 38 => ⟨S50000, .f32⟩
  | 39 => ⟨S50000, .i1⟩
  | 40 => ⟨S_, .f32⟩
  | 41 => ⟨S50000, .f32⟩
  | 42 => ⟨S50000, .f32⟩
  | 43 => ⟨S50000, .f32⟩
  | 44 => ⟨S_, .f32⟩
  | 45 => ⟨S_, .f32⟩
  | 46 => ⟨S50000, .f32⟩
  | 47 => ⟨S50000, .f32⟩
  | 48 => ⟨S50000x1, .f32⟩
  | 49 => ⟨S50000x128, .f32⟩
  | 50 => ⟨S50000x128, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x128, .f32⟩
  | 60 => ⟨S_, .f32⟩
  | 61 => ⟨S50000x128, .f32⟩
  | 62 => ⟨S800000x1, .i32⟩
  | 63 => ⟨S50000x128, .f32⟩
  | 64 => ⟨S50000x128, .f32⟩
  | 65 => ⟨S50000x128, .f32⟩
  | 66 => ⟨S50000x128, .f32⟩
  | 67 => ⟨S50000x128, .f32⟩
  | 68 => ⟨S_, .i32⟩
  | 69 => ⟨S800000, .i32⟩
  | 70 => ⟨S800000, .i1⟩
  | 71 => ⟨S_, .i32⟩
  | 72 => ⟨S800000, .i32⟩
  | 73 => ⟨S800000, .i32⟩
  | 74 => ⟨S800000, .i32⟩
  | 75 => ⟨S800000x1, .i32⟩
  | 76 => ⟨S800000x128, .f32⟩
  | 77 => ⟨S_, .f32⟩
  | 78 => ⟨S50000x128, .f32⟩
  | 79 => ⟨S800000x1, .i32⟩
  | 80 => ⟨S50000x128, .f32⟩
  | 81 => ⟨S50000x128, .f32⟩
  | 82 => ⟨S50000x128, .f32⟩
  | 83 => ⟨S50000x384, .f32⟩
  | 84 => ⟨S1x128, .f32⟩
  | 85 => ⟨S50000x128, .f32⟩
  | 86 => ⟨S50000x128, .f32⟩
  | 87 => ⟨S50000x128, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x128, .f32⟩
  | 97 => ⟨S_, .f32⟩
  | 98 => ⟨S50000x128, .f32⟩
  | 99 => ⟨S800000x1, .i32⟩
  | 100 => ⟨S50000x128, .f32⟩
  | 101 => ⟨S50000x128, .f32⟩
  | 102 => ⟨S50000x128, .f32⟩
  | 103 => ⟨S50000x128, .f32⟩
  | 104 => ⟨S50000x128, .f32⟩
  | 105 => ⟨S_, .i32⟩
  | 106 => ⟨S800000, .i32⟩
  | 107 => ⟨S800000, .i1⟩
  | 108 => ⟨S_, .i32⟩
  | 109 => ⟨S800000, .i32⟩
  | 110 => ⟨S800000, .i32⟩
  | 111 => ⟨S800000, .i32⟩
  | 112 => ⟨S800000x1, .i32⟩
  | 113 => ⟨S800000x128, .f32⟩
  | 114 => ⟨S_, .f32⟩
  | 115 => ⟨S50000x128, .f32⟩
  | 116 => ⟨S800000x1, .i32⟩
  | 117 => ⟨S50000x128, .f32⟩
  | 118 => ⟨S50000x128, .f32⟩
  | 119 => ⟨S50000x128, .f32⟩
  | 120 => ⟨S50000x384, .f32⟩
  | 121 => ⟨S1x128, .f32⟩
  | 122 => ⟨S50000x128, .f32⟩
  | 123 => ⟨S50000x128, .f32⟩
  | 124 => ⟨S50000x128, .f32⟩
  | 125 => ⟨S_, .i32⟩
  | 126 => ⟨S800000, .i32⟩
  | 127 => ⟨S800000, .i1⟩
  | _ => ⟨S50000x128, .f32⟩

abbrev hbmTy0_1 (i : Nat) : BufTy := match i % 128 with
  | 0 => ⟨S_, .i32⟩
  | 1 => ⟨S800000, .i32⟩
  | 2 => ⟨S800000, .i32⟩
  | 3 => ⟨S800000, .i32⟩
  | 4 => ⟨S800000x1, .i32⟩
  | 5 => ⟨S800000x128, .f32⟩
  | 6 => ⟨S_, .f32⟩
  | 7 => ⟨S50000x128, .f32⟩
  | 8 => ⟨S800000x1, .i32⟩
  | 9 => ⟨S50000x128, .f32⟩
  | 10 => ⟨S50000x128, .f32⟩
  | 11 => ⟨S50000x128, .f32⟩
  | 12 => ⟨S50000x128, .f32⟩
  | 13 => ⟨S50000x128, .f32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S800000x128, .f32⟩
  | 23 => ⟨S_, .f32⟩
  | 24 => ⟨S50000x128, .f32⟩
  | 25 => ⟨S800000x1, .i32⟩
  | 26 => ⟨S50000x128, .f32⟩
  | 27 => ⟨S50000x128, .f32⟩
  | 28 => ⟨S50000x128, .f32⟩
  | 29 => ⟨S50000x384, .f32⟩
  | 30 => ⟨S1x128, .f32⟩
  | 31 => ⟨S50000x128, .f32⟩
  | 32 => ⟨S50000x128, .f32⟩
  | 33 => ⟨S50000x128, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000x128, .f32⟩
  | 43 => ⟨S_, .f32⟩
  | 44 => ⟨S50000x128, .f32⟩
  | 45 => ⟨S800000x1, .i32⟩
  | 46 => ⟨S50000x128, .f32⟩
  | 47 => ⟨S50000x128, .f32⟩
  | 48 => ⟨S50000x128, .f32⟩
  | 49 => ⟨S50000x128, .f32⟩
  | 50 => ⟨S50000x128, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x128, .f32⟩
  | 60 => ⟨S_, .f32⟩
  | 61 => ⟨S50000x128, .f32⟩
  | 62 => ⟨S800000x1, .i32⟩
  | 63 => ⟨S50000x128, .f32⟩
  | 64 => ⟨S50000x128, .f32⟩
  | 65 => ⟨S50000x128, .f32⟩
  | 66 => ⟨S50000x384, .f32⟩
  | 67 => ⟨S1x128, .f32⟩
  | 68 => ⟨S50000x128, .f32⟩
  | 69 => ⟨S50000x128, .f32⟩
  | 70 => ⟨S50000x128, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000x128, .f32⟩
  | 80 => ⟨S_, .f32⟩
  | 81 => ⟨S50000x128, .f32⟩
  | 82 => ⟨S800000x1, .i32⟩
  | 83 => ⟨S50000x128, .f32⟩
  | 84 => ⟨S50000x128, .f32⟩
  | 85 => ⟨S50000x128, .f32⟩
  | 86 => ⟨S50000x128, .f32⟩
  | 87 => ⟨S50000x128, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x128, .f32⟩
  | 97 => ⟨S_, .f32⟩
  | 98 => ⟨S50000x128, .f32⟩
  | 99 => ⟨S800000x1, .i32⟩
  | 100 => ⟨S50000x128, .f32⟩
  | 101 => ⟨S50000x128, .f32⟩
  | 102 => ⟨S50000x128, .f32⟩
  | 103 => ⟨S50000x384, .f32⟩
  | 104 => ⟨S1x128, .f32⟩
  | 105 => ⟨S50000x128, .f32⟩
  | 106 => ⟨S_, .f32⟩
  | 107 => ⟨S128, .f32⟩
  | 108 => ⟨S1x128, .f32⟩
  | 109 => ⟨S_, .f32⟩
  | 110 => ⟨S1x128, .f32⟩
  | 111 => ⟨S1x128, .f32⟩
  | 112 => ⟨S1x1, .f32⟩
  | 113 => ⟨S1x1, .f32⟩
  | 114 => ⟨S1x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x384, .f32⟩
  | .local _ .vmem, ⟨1, _⟩ => ⟨S2000x384, .f32⟩
  | .local _ .vmem, ⟨2, _⟩ => ⟨S384x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x384, .f32⟩
  | .local _ .vmem, ⟨7, _⟩ => ⟨S2000x384, .f32⟩
  | .local _ .vmem, ⟨8, _⟩ => ⟨S384x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S2000x384, .f32⟩
  | .local _ .vmem, ⟨13, _⟩ => ⟨S2000x384, .f32⟩
  | .local _ .vmem, ⟨14, _⟩ => ⟨S384x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x384, .f32⟩
  | .local _ .vmem, ⟨19, _⟩ => ⟨S2000x384, .f32⟩
  | .local _ .vmem, ⟨20, _⟩ => ⟨S384x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | .local _ .vmem, ⟨24, _⟩ => ⟨S2000x384, .f32⟩
  | .local _ .vmem, ⟨25, _⟩ => ⟨S2000x384, .f32⟩
  | .local _ .vmem, ⟨26, _⟩ => ⟨S384x128, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_v0 : Ref sig .tc := ⟨.hbm, 15, rfl⟩
abbrev main_call0_cst : Ref sig .tc := ⟨.hbm, 16, rfl⟩
abbrev main_call0_call0_v0 : Ref sig .tc := ⟨.hbm, 17, rfl⟩
abbrev main_call0_v1 : Ref sig .tc := ⟨.hbm, 18, rfl⟩
abbrev main_call0_cst_0 : Ref sig .tc := ⟨.hbm, 19, rfl⟩
abbrev main_call0_v2 : Ref sig .tc := ⟨.hbm, 20, rfl⟩
abbrev main_call0_v3 : Ref sig .tc := ⟨.hbm, 21, rfl⟩
abbrev main_call0_cst_1 : Ref sig .tc := ⟨.hbm, 22, rfl⟩
abbrev main_call0_call1_v0 : Ref sig .tc := ⟨.hbm, 23, rfl⟩
abbrev main_call0_v4 : Ref sig .tc := ⟨.hbm, 24, rfl⟩
abbrev main_call0_cst_2 : Ref sig .tc := ⟨.hbm, 25, rfl⟩
abbrev main_call0_v5 : Ref sig .tc := ⟨.hbm, 26, rfl⟩
abbrev main_call0_v6 : Ref sig .tc := ⟨.hbm, 27, rfl⟩
abbrev main_call0_cst_3 : Ref sig .tc := ⟨.hbm, 28, rfl⟩
abbrev main_call0_call2_v0 : Ref sig .tc := ⟨.hbm, 29, rfl⟩
abbrev main_v0 : Ref sig .tc := ⟨.hbm, 30, rfl⟩
abbrev main_cst : Ref sig .tc := ⟨.hbm, 31, rfl⟩
abbrev main_v1 : Ref sig .tc := ⟨.hbm, 32, rfl⟩
abbrev main_cst_0 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_cst_1 : Ref sig .tc := ⟨.hbm, 37, rfl⟩
abbrev main_v5 : Ref sig .tc := ⟨.hbm, 38, rfl⟩
abbrev main_v6 : Ref sig .tc := ⟨.hbm, 39, rfl⟩
abbrev main_cst_2 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_cst_3 : Ref sig .tc := ⟨.hbm, 44, rfl⟩
abbrev main_call1_v0 : Ref sig .tc := ⟨.hbm, 45, rfl⟩
abbrev main_call1_v1 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_c : Ref sig .tc := ⟨.hbm, 51, rfl⟩
abbrev main_v14 : Ref sig .tc := ⟨.hbm, 52, rfl⟩
abbrev main_v15 : Ref sig .tc := ⟨.hbm, 53, rfl⟩
abbrev main_c_4 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_cst_5 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_c_6 : Ref sig .tc := ⟨.hbm, 68, rfl⟩
abbrev main_v28 : Ref sig .tc := ⟨.hbm, 69, rfl⟩
abbrev main_v29 : Ref sig .tc := ⟨.hbm, 70, rfl⟩
abbrev main_c_7 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_cst_8 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_c_9 : Ref sig .tc := ⟨.hbm, 88, rfl⟩
abbrev main_v45 : Ref sig .tc := ⟨.hbm, 89, rfl⟩
abbrev main_v46 : Ref sig .tc := ⟨.hbm, 90, rfl⟩
abbrev main_c_10 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_cst_11 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_c_12 : Ref sig .tc := ⟨.hbm, 105, rfl⟩
abbrev main_v59 : Ref sig .tc := ⟨.hbm, 106, rfl⟩
abbrev main_v60 : Ref sig .tc := ⟨.hbm, 107, rfl⟩
abbrev main_c_13 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_cst_14 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_c_15 : Ref sig .tc := ⟨.hbm, 125, rfl⟩
abbrev main_v76 : Ref sig .tc := ⟨.hbm, 126, rfl⟩
abbrev main_v77 : Ref sig .tc := ⟨.hbm, 127, rfl⟩
abbrev main_c_16 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_cst_17 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_c_18 : Ref sig .tc := ⟨.hbm, 142, rfl⟩
abbrev main_v90 : Ref sig .tc := ⟨.hbm, 143, rfl⟩
abbrev main_v91 : Ref sig .tc := ⟨.hbm, 144, rfl⟩
abbrev main_c_19 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_cst_20 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_c_21 : Ref sig .tc := ⟨.hbm, 162, rfl⟩
abbrev main_v107 : Ref sig .tc := ⟨.hbm, 163, rfl⟩
abbrev main_v108 : Ref sig .tc := ⟨.hbm, 164, rfl⟩
abbrev main_c_22 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_cst_23 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_c_24 : Ref sig .tc := ⟨.hbm, 179, rfl⟩
abbrev main_v121 : Ref sig .tc := ⟨.hbm, 180, rfl⟩
abbrev main_v122 : Ref sig .tc := ⟨.hbm, 181, rfl⟩
abbrev main_c_25 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_cst_26 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_c_27 : Ref sig .tc := ⟨.hbm, 199, rfl⟩
abbrev main_v138 : Ref sig .tc := ⟨.hbm, 200, rfl⟩
abbrev main_v139 : Ref sig .tc := ⟨.hbm, 201, rfl⟩
abbrev main_c_28 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_cst_29 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_c_30 : Ref sig .tc := ⟨.hbm, 216, rfl⟩
abbrev main_v152 : Ref sig .tc := ⟨.hbm, 217, rfl⟩
abbrev main_v153 : Ref sig .tc := ⟨.hbm, 218, rfl⟩
abbrev main_c_31 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩
abbrev main_v157 : Ref sig .tc := ⟨.hbm, 223, rfl⟩
abbrev main_v158 : Ref sig .tc := ⟨.hbm, 224, rfl⟩
abbrev main_cst_32 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_v162 : Ref sig .tc := ⟨.hbm, 229, rfl⟩
abbrev main_v163 : Ref sig .tc := ⟨.hbm, 230, rfl⟩
abbrev main_v164 : Ref sig .tc := ⟨.hbm, 231, rfl⟩
abbrev main_v165 : Ref sig .tc := ⟨.hbm, 232, rfl⟩
abbrev main_v166 : Ref sig .tc := ⟨.hbm, 233, rfl⟩
abbrev main_cst_33 : Ref sig .tc := ⟨.hbm, 234, rfl⟩
abbrev main_v167 : Ref sig .tc := ⟨.hbm, 235, rfl⟩
abbrev main_v168 : Ref sig .tc := ⟨.hbm, 236, rfl⟩
abbrev main_cst_34 : Ref sig .tc := ⟨.hbm, 237, rfl⟩
abbrev main_v169 : Ref sig .tc := ⟨.hbm, 238, rfl⟩
abbrev main_v170 : Ref sig .tc := ⟨.hbm, 239, rfl⟩
abbrev main_v171 : Ref sig .tc := ⟨.hbm, 240, rfl⟩
abbrev main_v172 : Ref sig .tc := ⟨.hbm, 241, rfl⟩
abbrev main_v173 : Ref sig .tc := ⟨.hbm, 242, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S384x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x384 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S384x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x384 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S384x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x384 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S384x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  bcast_S_S50000x128 : S_.BroadcastsInDim S50000x128 (![] : Fin 0 → Fin S50000x128.rank)
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x128_S50000x384_d1 : Shape.Concatenates [S50000x128, S50000x128, S50000x128] S50000x384 1
  shapeCasts_S128_S1x128 : S128.ShapeCasts S1x128
  inb_S2000x384_S2000x384_0_0 : ∀ a, (![0, 0] : Fin 2 → Nat) a + S2000x384.size a ≤ S2000x384.size a
  h_S2000x384 : 0 < S2000x384.numel
  shapeCasts_S2000x384_S2000x384 : S2000x384.ShapeCasts S2000x384
  bitsLt_bf16_f32 : FTy.bits .bf16 < FTy.bits .f32
  inb_S384x128_S384x128_0_0 : ∀ a, (![0, 0] : Fin 2 → Nat) a + S384x128.size a ≤ S384x128.size a
  h_S384x128 : 0 < S384x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  reducesTo_S50000x128_S128_d0 : S50000x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  bcast_S1_S1x1_1 : S1.BroadcastsInDim S1x1 (![1] : Fin 1 → Fin S1x1.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x384_S384x128_S2000x128_1_0_0_1_n_n_wf : DotDims.WF S2000x384 S384x128 S2000x128 [1] [0] [0] [1] [] []
  dot_S1x128_S128x1_S1x1_1_0_0_1_n_n_wf : DotDims.WF S1x128 S128x1 S1x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x384.size a ≤ S50000x384.size a
  hwx0_0 : ∀ i : grid0.Coords, EltTy.bits .f32 = 32 ∨ (Rect.block (s := S50000x384) S2000x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x128.size a ≤ S384x128.size a
  hwx0_1 : ∀ i : grid0.Coords, EltTy.bits .f32 = 32 ∨ (Rect.block (s := S384x128) S384x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x384.size a ≤ S50000x384.size a
  hwx1_0 : ∀ i : grid1.Coords, EltTy.bits .f32 = 32 ∨ (Rect.block (s := S50000x384) S2000x384.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S384x128.size a ≤ S384x128.size a
  hwx1_1 : ∀ i : grid1.Coords, EltTy.bits .f32 = 32 ∨ (Rect.block (s := S384x128) S384x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x384.size a ≤ S50000x384.size a
  hwx2_0 : ∀ i : grid2.Coords, EltTy.bits .f32 = 32 ∨ (Rect.block (s := S50000x384) S2000x384.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S384x128.size a ≤ S384x128.size a
  hwx2_1 : ∀ i : grid2.Coords, EltTy.bits .f32 = 32 ∨ (Rect.block (s := S384x128) S384x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x384.size a ≤ S50000x384.size a
  hwx3_0 : ∀ i : grid3.Coords, EltTy.bits .f32 = 32 ∨ (Rect.block (s := S50000x384) S2000x384.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S384x128.size a ≤ S384x128.size a
  hwx3_1 : ∀ i : grid3.Coords, EltTy.bits .f32 = 32 ∨ (Rect.block (s := S384x128) S384x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S50000x128.size a
  hwx3_3 : ∀ i : grid3.Coords, EltTy.bits .f32 = 32 ∨ (Rect.block (s := S50000x128) S2000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x384.size a ≤ S50000x384.size a
  hwx4_0 : ∀ i : grid4.Coords, EltTy.bits .f32 = 32 ∨ (Rect.block (s := S50000x384) S2000x384.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S384x128.size a ≤ S384x128.size a
  hwx4_1 : ∀ i : grid4.Coords, EltTy.bits .f32 = 32 ∨ (Rect.block (s := S384x128) S384x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S50000x128.size a
  hwx4_3 : ∀ i : grid4.Coords, EltTy.bits .f32 = 32 ∨ (Rect.block (s := S50000x128) S2000x128.size (cc4_transform_3 i) (hinb4_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x384_S384x128_S2000x128_1_0_0_1_n_n : DotDims S2000x384 S384x128 S2000x128 where
  lhsContracting := [1]
  rhsContracting := [0]
  lhsNonContracting := [0]
  rhsNonContracting := [1]
  lhsBatch := []
  rhsBatch := []
  wf := dot_S2000x384_S384x128_S2000x128_1_0_0_1_n_n_wf
def dot_S1x128_S128x1_S1x1_1_0_0_1_n_n : DotDims S1x128 S128x1 S1x1 where
  lhsContracting := [1]
  rhsContracting := [0]
  lhsNonContracting := [0]
  rhsNonContracting := [1]
  lhsBatch := []
  rhsBatch := []
  wf := dot_S1x128_S128x1_S1x1_1_0_0_1_n_n_wf

abbrev win0_0 : Pipeline.Window sig grid0 :=
  Pipeline.Window.ofSpec (Memref.whole main_v40) S2000x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S384x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v41) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v42) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v71) S2000x384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S384x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v72) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v73) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v102) S2000x384.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S384x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v103) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v104) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v133) S2000x384.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S384x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v134) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v135) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v164) S2000x384.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg11) S384x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v165) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v166) S2000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S800000 : Shape := ⟨1, ![800000]⟩
abbrev S384x128 : Shape := ⟨2, ![384, 128]⟩
abbrev S128 : Shape := ⟨1, ![128]⟩
abbrev S128x1 : Shape := ⟨2, ![128, 1]⟩
abbrev S1 : Shape := ⟨1, ![1]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S50000x384 : Shape := ⟨2, ![50000, 384]⟩
abbrev S1x128 : Shape := ⟨2, ![1, 128]⟩
abbrev S1x1 : Shape := ⟨2, ![1, 1]⟩

abbrev nBuf : Space → Nat
  | .hbm => 268
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S384x128, .f32⟩
  | 4 => ⟨S128, .f32⟩
  | 5 => ⟨S384x128, .f32⟩
  | 6 => ⟨S128, .f32⟩
  | 7 => ⟨S384x128, .f32⟩
  | 8 => ⟨S128, .f32⟩
  | 9 => ⟨S384x128, .f32⟩
  | 10 => ⟨S128, .f32⟩
  | 11 => ⟨S384x128, .f32⟩
  | 12 => ⟨S128, .f32⟩
  | 13 => ⟨S128x1, .f32⟩
  | 14 => ⟨S1, .f32⟩
  | 15 => ⟨S50000x128, .i1⟩
  | 16 => ⟨S_, .f32⟩
  | 17 => ⟨S50000x128, .f32⟩
  | 18 => ⟨S50000x128, .f32⟩
  | 19 => ⟨S_, .f32⟩
  | 20 => ⟨S50000x128, .f32⟩
  | 21 => ⟨S50000x128, .i1⟩
  | 22 => ⟨S_, .f32⟩
  | 23 => ⟨S50000x128, .f32⟩
  | 24 => ⟨S50000x128, .f32⟩
  | 25 => ⟨S_, .f32⟩
  | 26 => ⟨S50000x128, .f32⟩
  | 27 => ⟨S50000x128, .i1⟩
  | 28 => ⟨S_, .f32⟩
  | 29 => ⟨S50000x128, .f32⟩
  | 30 => ⟨S50000x128, .f32⟩
  | 31 => ⟨S_, .f32⟩
  | 32 => ⟨S800000, .f32⟩
  | 33 => ⟨S_, .f32⟩
  | 34 => ⟨S50000, .f32⟩
  | 35 => ⟨S800000x1, .i32⟩
  | 36 => ⟨S50000, .f32⟩
  | 37 => ⟨S_, .f32⟩
  | 38 => ⟨S50000, .f32⟩
  | 39 => ⟨S50000, .i1⟩
  | 40 => ⟨S_, .f32⟩
  | 41 => ⟨S50000, .f32⟩
  | 42 => ⟨S50000, .f32⟩
  | 43 => ⟨S50000, .f32⟩
  | 44 => ⟨S_, .f32⟩
  | 45 => ⟨S_, .f32⟩
  | 46 => ⟨S50000, .f32⟩
  | 47 => ⟨S50000, .f32⟩
  | 48 => ⟨S50000x1, .f32⟩
  | 49 => ⟨S50000x128, .f32⟩
  | 50 => ⟨S50000x128, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x128, .f32⟩
  | 60 => ⟨S_, .f32⟩
  | 61 => ⟨S50000x128, .f32⟩
  | 62 => ⟨S800000x1, .i32⟩
  | 63 => ⟨S50000x128, .f32⟩
  | 64 => ⟨S50000x128, .f32⟩
  | 65 => ⟨S50000x128, .f32⟩
  | 66 => ⟨S50000x128, .f32⟩
  | 67 => ⟨S50000x128, .f32⟩
  | 68 => ⟨S_, .i32⟩
  | 69 => ⟨S800000, .i32⟩
  | 70 => ⟨S800000, .i1⟩
  | 71 => ⟨S_, .i32⟩
  | 72 => ⟨S800000, .i32⟩
  | 73 => ⟨S800000, .i32⟩
  | 74 => ⟨S800000, .i32⟩
  | 75 => ⟨S800000x1, .i32⟩
  | 76 => ⟨S800000x128, .f32⟩
  | 77 => ⟨S_, .f32⟩
  | 78 => ⟨S50000x128, .f32⟩
  | 79 => ⟨S800000x1, .i32⟩
  | 80 => ⟨S50000x128, .f32⟩
  | 81 => ⟨S50000x128, .f32⟩
  | 82 => ⟨S50000x128, .f32⟩
  | 83 => ⟨S50000x384, .f32⟩
  | 84 => ⟨S50000x128, .f32⟩
  | 85 => ⟨S1x128, .f32⟩
  | 86 => ⟨S50000x128, .f32⟩
  | 87 => ⟨S50000x128, .f32⟩
  | 88 => ⟨S_, .f32⟩
  | 89 => ⟨S50000x128, .f32⟩
  | 90 => ⟨S50000x128, .f32⟩
  | 91 => ⟨S50000x128, .f32⟩
  | 92 => ⟨S50000x128, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S800000x128, .f32⟩
  | 102 => ⟨S_, .f32⟩
  | 103 => ⟨S50000x128, .f32⟩
  | 104 => ⟨S800000x1, .i32⟩
  | 105 => ⟨S50000x128, .f32⟩
  | 106 => ⟨S50000x128, .f32⟩
  | 107 => ⟨S50000x128, .f32⟩
  | 108 => ⟨S50000x128, .f32⟩
  | 109 => ⟨S50000x128, .f32⟩
  | 110 => ⟨S_, .i32⟩
  | 111 => ⟨S800000, .i32⟩
  | 112 => ⟨S800000, .i1⟩
  | 113 => ⟨S_, .i32⟩
  | 114 => ⟨S800000, .i32⟩
  | 115 => ⟨S800000, .i32⟩
  | 116 => ⟨S800000, .i32⟩
  | 117 => ⟨S800000x1, .i32⟩
  | 118 => ⟨S800000x128, .f32⟩
  | 119 => ⟨S_, .f32⟩
  | 120 => ⟨S50000x128, .f32⟩
  | 121 => ⟨S800000x1, .i32⟩
  | 122 => ⟨S50000x128, .f32⟩
  | 123 => ⟨S50000x128, .f32⟩
  | 124 => ⟨S50000x128, .f32⟩
  | 125 => ⟨S50000x384, .f32⟩
  | 126 => ⟨S50000x128, .f32⟩
  | 127 => ⟨S1x128, .f32⟩
  | _ => ⟨S50000x128, .f32⟩

abbrev hbmTy0_1 (i : Nat) : BufTy := match i % 128 with
  | 0 => ⟨S50000x128, .f32⟩
  | 1 => ⟨S50000x128, .f32⟩
  | 2 => ⟨S_, .f32⟩
  | 3 => ⟨S50000x128, .f32⟩
  | 4 => ⟨S50000x128, .f32⟩
  | 5 => ⟨S50000x128, .f32⟩
  | 6 => ⟨S50000x128, .f32⟩
  | 7 => ⟨S_, .i32⟩
  | 8 => ⟨S800000, .i32⟩
  | 9 => ⟨S800000, .i1⟩
  | 10 => ⟨S_, .i32⟩
  | 11 => ⟨S800000, .i32⟩
  | 12 => ⟨S800000, .i32⟩
  | 13 => ⟨S800000, .i32⟩
  | 14 => ⟨S800000x1, .i32⟩
  | 15 => ⟨S800000x128, .f32⟩
  | 16 => ⟨S_, .f32⟩
  | 17 => ⟨S50000x128, .f32⟩
  | 18 => ⟨S800000x1, .i32⟩
  | 19 => ⟨S50000x128, .f32⟩
  | 20 => ⟨S50000x128, .f32⟩
  | 21 => ⟨S50000x128, .f32⟩
  | 22 => ⟨S50000x128, .f32⟩
  | 23 => ⟨S50000x128, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x128, .f32⟩
  | 33 => ⟨S_, .f32⟩
  | 34 => ⟨S50000x128, .f32⟩
  | 35 => ⟨S800000x1, .i32⟩
  | 36 => ⟨S50000x128, .f32⟩
  | 37 => ⟨S50000x128, .f32⟩
  | 38 => ⟨S50000x128, .f32⟩
  | 39 => ⟨S50000x384, .f32⟩
  | 40 => ⟨S50000x128, .f32⟩
  | 41 => ⟨S1x128, .f32⟩
  | 42 => ⟨S50000x128, .f32⟩
  | 43 => ⟨S50000x128, .f32⟩
  | 44 => ⟨S_, .f32⟩
  | 45 => ⟨S50000x128, .f32⟩
  | 46 => ⟨S50000x128, .f32⟩
  | 47 => ⟨S50000x128, .f32⟩
  | 48 => ⟨S50000x128, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x128, .f32⟩
  | 58 => ⟨S_, .f32⟩
  | 59 => ⟨S50000x128, .f32⟩
  | 60 => ⟨S800000x1, .i32⟩
  | 61 => ⟨S50000x128, .f32⟩
  | 62 => ⟨S50000x128, .f32⟩
  | 63 => ⟨S50000x128, .f32⟩
  | 64 => ⟨S50000x128, .f32⟩
  | 65 => ⟨S50000x128, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S800000x128, .f32⟩
  | 75 => ⟨S_, .f32⟩
  | 76 => ⟨S50000x128, .f32⟩
  | 77 => ⟨S800000x1, .i32⟩
  | 78 => ⟨S50000x128, .f32⟩
  | 79 => ⟨S50000x128, .f32⟩
  | 80 => ⟨S50000x128, .f32⟩
  | 81 => ⟨S50000x384, .f32⟩
  | 82 => ⟨S50000x128, .f32⟩
  | 83 => ⟨S1x128, .f32⟩
  | 84 => ⟨S50000x128, .f32⟩
  | 85 => ⟨S50000x128, .f32⟩
  | 86 => ⟨S_, .f32⟩
  | 87 => ⟨S50000x128, .f32⟩
  | 88 => ⟨S50000x128, .f32⟩
  | 89 => ⟨S50000x128, .f32⟩
  | 90 => ⟨S50000x128, .f32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000x128, .f32⟩
  | 100 => ⟨S_, .f32⟩
  | 101 => ⟨S50000x128, .f32⟩
  | 102 => ⟨S800000x1, .i32⟩
  | 103 => ⟨S50000x128, .f32⟩
  | 104 => ⟨S50000x128, .f32⟩
  | 105 => ⟨S50000x128, .f32⟩
  | 106 => ⟨S50000x128, .f32⟩
  | 107 => ⟨S50000x128, .f32⟩
  | 108 => ⟨S_, .i32⟩
  | 109 => ⟨S800000, .i32⟩
  | 110 => ⟨S800000, .i1⟩
  | 111 => ⟨S_, .i32⟩
  | 112 => ⟨S800000, .i32⟩
  | 113 => ⟨S800000, .i32⟩
  | 114 => ⟨S800000, .i32⟩
  | 115 => ⟨S800000x1, .i32⟩
  | 116 => ⟨S800000x128, .f32⟩
  | 117 => ⟨S_, .f32⟩
  | 118 => ⟨S50000x128, .f32⟩
  | 119 => ⟨S800000x1, .i32⟩
  | 120 => ⟨S50000x128, .f32⟩
  | 121 => ⟨S50000x128, .f32⟩
  | 122 => ⟨S50000x128, .f32⟩
  | 123 => ⟨S50000x384, .f32⟩
  | 124 => ⟨S50000x128, .f32⟩
  | 125 => ⟨S1x128, .f32⟩
  | 126 => ⟨S50000x128, .f32⟩
  | 127 => ⟨S50000x128, .f32⟩
  | _ => ⟨S50000x128, .f32⟩

abbrev hbmTy0_2 (i : Nat) : BufTy := match i % 128 with
  | 0 => ⟨S_, .f32⟩
  | 1 => ⟨S50000x128, .f32⟩
  | 2 => ⟨S50000x128, .f32⟩
  | 3 => ⟨S_, .f32⟩
  | 4 => ⟨S128, .f32⟩
  | 5 => ⟨S1x128, .f32⟩
  | 6 => ⟨S_, .f32⟩
  | 7 => ⟨S1x128, .f32⟩
  | 8 => ⟨S1x128, .f32⟩
  | 9 => ⟨S1x1, .f32⟩
  | 10 => ⟨S1x1, .f32⟩
  | 11 => ⟨S1x1, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_v0 : Ref sig .tc := ⟨.hbm, 15, rfl⟩
abbrev main_call0_cst : Ref sig .tc := ⟨.hbm, 16, rfl⟩
abbrev main_call0_call0_v0 : Ref sig .tc := ⟨.hbm, 17, rfl⟩
abbrev main_call0_v1 : Ref sig .tc := ⟨.hbm, 18, rfl⟩
abbrev main_call0_cst_0 : Ref sig .tc := ⟨.hbm, 19, rfl⟩
abbrev main_call0_v2 : Ref sig .tc := ⟨.hbm, 20, rfl⟩
abbrev main_call0_v3 : Ref sig .tc := ⟨.hbm, 21, rfl⟩
abbrev main_call0_cst_1 : Ref sig .tc := ⟨.hbm, 22, rfl⟩
abbrev main_call0_call1_v0 : Ref sig .tc := ⟨.hbm, 23, rfl⟩
abbrev main_call0_v4 : Ref sig .tc := ⟨.hbm, 24, rfl⟩
abbrev main_call0_cst_2 : Ref sig .tc := ⟨.hbm, 25, rfl⟩
abbrev main_call0_v5 : Ref sig .tc := ⟨.hbm, 26, rfl⟩
abbrev main_call0_v6 : Ref sig .tc := ⟨.hbm, 27, rfl⟩
abbrev main_call0_cst_3 : Ref sig .tc := ⟨.hbm, 28, rfl⟩
abbrev main_call0_call2_v0 : Ref sig .tc := ⟨.hbm, 29, rfl⟩
abbrev main_v0 : Ref sig .tc := ⟨.hbm, 30, rfl⟩
abbrev main_cst : Ref sig .tc := ⟨.hbm, 31, rfl⟩
abbrev main_v1 : Ref sig .tc := ⟨.hbm, 32, rfl⟩
abbrev main_cst_0 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_cst_1 : Ref sig .tc := ⟨.hbm, 37, rfl⟩
abbrev main_v5 : Ref sig .tc := ⟨.hbm, 38, rfl⟩
abbrev main_v6 : Ref sig .tc := ⟨.hbm, 39, rfl⟩
abbrev main_cst_2 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_cst_3 : Ref sig .tc := ⟨.hbm, 44, rfl⟩
abbrev main_call1_v0 : Ref sig .tc := ⟨.hbm, 45, rfl⟩
abbrev main_call1_v1 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_c : Ref sig .tc := ⟨.hbm, 51, rfl⟩
abbrev main_v14 : Ref sig .tc := ⟨.hbm, 52, rfl⟩
abbrev main_v15 : Ref sig .tc := ⟨.hbm, 53, rfl⟩
abbrev main_c_4 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_cst_5 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_c_6 : Ref sig .tc := ⟨.hbm, 68, rfl⟩
abbrev main_v28 : Ref sig .tc := ⟨.hbm, 69, rfl⟩
abbrev main_v29 : Ref sig .tc := ⟨.hbm, 70, rfl⟩
abbrev main_c_7 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_cst_8 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_call2_cst : Ref sig .tc := ⟨.hbm, 88, rfl⟩
abbrev main_call2_v0 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_c_9 : Ref sig .tc := ⟨.hbm, 93, rfl⟩
abbrev main_v48 : Ref sig .tc := ⟨.hbm, 94, rfl⟩
abbrev main_v49 : Ref sig .tc := ⟨.hbm, 95, rfl⟩
abbrev main_c_10 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_cst_11 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_c_12 : Ref sig .tc := ⟨.hbm, 110, rfl⟩
abbrev main_v62 : Ref sig .tc := ⟨.hbm, 111, rfl⟩
abbrev main_v63 : Ref sig .tc := ⟨.hbm, 112, rfl⟩
abbrev main_c_13 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_cst_14 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_call3_cst : Ref sig .tc := ⟨.hbm, 130, rfl⟩
abbrev main_call3_v0 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_c_15 : Ref sig .tc := ⟨.hbm, 135, rfl⟩
abbrev main_v82 : Ref sig .tc := ⟨.hbm, 136, rfl⟩
abbrev main_v83 : Ref sig .tc := ⟨.hbm, 137, rfl⟩
abbrev main_c_16 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_cst_17 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_c_18 : Ref sig .tc := ⟨.hbm, 152, rfl⟩
abbrev main_v96 : Ref sig .tc := ⟨.hbm, 153, rfl⟩
abbrev main_v97 : Ref sig .tc := ⟨.hbm, 154, rfl⟩
abbrev main_c_19 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_cst_20 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_call4_cst : Ref sig .tc := ⟨.hbm, 172, rfl⟩
abbrev main_call4_v0 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_c_21 : Ref sig .tc := ⟨.hbm, 177, rfl⟩
abbrev main_v116 : Ref sig .tc := ⟨.hbm, 178, rfl⟩
abbrev main_v117 : Ref sig .tc := ⟨.hbm, 179, rfl⟩
abbrev main_c_22 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_cst_23 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_v127 : Ref sig .tc := ⟨.hbm, 191, rfl⟩
abbrev main_v128 : Ref sig .tc := ⟨.hbm, 192, rfl⟩
abbrev main_v129 : Ref sig .tc := ⟨.hbm, 193, rfl⟩
abbrev main_c_24 : Ref sig .tc := ⟨.hbm, 194, rfl⟩
abbrev main_v130 : Ref sig .tc := ⟨.hbm, 195, rfl⟩
abbrev main_v131 : Ref sig .tc := ⟨.hbm, 196, rfl⟩
abbrev main_c_25 : Ref sig .tc := ⟨.hbm, 197, rfl⟩
abbrev main_v132 : Ref sig .tc := ⟨.hbm, 198, rfl⟩
abbrev main_v133 : Ref sig .tc := ⟨.hbm, 199, rfl⟩
abbrev main_v134 : Ref sig .tc := ⟨.hbm, 200, rfl⟩
abbrev main_v135 : Ref sig .tc := ⟨.hbm, 201, rfl⟩
abbrev main_v136 : Ref sig .tc := ⟨.hbm, 202, rfl⟩
abbrev main_cst_26 : Ref sig .tc := ⟨.hbm, 203, rfl⟩
abbrev main_v137 : Ref sig .tc := ⟨.hbm, 204, rfl⟩
abbrev main_v138 : Ref sig .tc := ⟨.hbm, 205, rfl⟩
abbrev main_v139 : Ref sig .tc := ⟨.hbm, 206, rfl⟩
abbrev main_v140 : Ref sig .tc := ⟨.hbm, 207, rfl⟩
abbrev main_v141 : Ref sig .tc := ⟨.hbm, 208, rfl⟩
abbrev main_v142 : Ref sig .tc := ⟨.hbm, 209, rfl⟩
abbrev main_v143 : Ref sig .tc := ⟨.hbm, 210, rfl⟩
abbrev main_v144 : Ref sig .tc := ⟨.hbm, 211, rfl⟩
abbrev main_v145 : Ref sig .tc := ⟨.hbm, 212, rfl⟩
abbrev main_v146 : Ref sig .tc := ⟨.hbm, 213, rfl⟩
abbrev main_call5_cst : Ref sig .tc := ⟨.hbm, 214, rfl⟩
abbrev main_call5_v0 : Ref sig .tc := ⟨.hbm, 215, rfl⟩
abbrev main_v147 : Ref sig .tc := ⟨.hbm, 216, rfl⟩
abbrev main_v148 : Ref sig .tc := ⟨.hbm, 217, rfl⟩
abbrev main_v149 : Ref sig .tc := ⟨.hbm, 218, rfl⟩
abbrev main_c_27 : Ref sig .tc := ⟨.hbm, 219, rfl⟩
abbrev main_v150 : Ref sig .tc := ⟨.hbm, 220, rfl⟩
abbrev main_v151 : Ref sig .tc := ⟨.hbm, 221, rfl⟩
abbrev main_c_28 : Ref sig .tc := ⟨.hbm, 222, rfl⟩
abbrev main_v152 : Ref sig .tc := ⟨.hbm, 223, rfl⟩
abbrev main_v153 : Ref sig .tc := ⟨.hbm, 224, rfl⟩
abbrev main_v154 : Ref sig .tc := ⟨.hbm, 225, rfl⟩
abbrev main_v155 : Ref sig .tc := ⟨.hbm, 226, rfl⟩
abbrev main_v156 : Ref sig .tc := ⟨.hbm, 227, rfl⟩
abbrev main_cst_29 : Ref sig .tc := ⟨.hbm, 228, rfl⟩
abbrev main_v157 : Ref sig .tc := ⟨.hbm, 229, rfl⟩
abbrev main_v158 : Ref sig .tc := ⟨.hbm, 230, rfl⟩
abbrev main_v159 : Ref sig .tc := ⟨.hbm, 231, rfl⟩
abbrev main_v160 : Ref sig .tc := ⟨.hbm, 232, rfl⟩
abbrev main_v161 : Ref sig .tc := ⟨.hbm, 233, rfl⟩
abbrev main_v162 : Ref sig .tc := ⟨.hbm, 234, rfl⟩
abbrev main_v163 : Ref sig .tc := ⟨.hbm, 235, rfl⟩
abbrev main_c_30 : Ref sig .tc := ⟨.hbm, 236, rfl⟩
abbrev main_v164 : Ref sig .tc := ⟨.hbm, 237, rfl⟩
abbrev main_v165 : Ref sig .tc := ⟨.hbm, 238, rfl⟩
abbrev main_c_31 : Ref sig .tc := ⟨.hbm, 239, rfl⟩
abbrev main_v166 : Ref sig .tc := ⟨.hbm, 240, rfl⟩
abbrev main_v167 : Ref sig .tc := ⟨.hbm, 241, rfl⟩
abbrev main_v168 : Ref sig .tc := ⟨.hbm, 242, rfl⟩
abbrev main_v169 : Ref sig .tc := ⟨.hbm, 243, rfl⟩
abbrev main_v170 : Ref sig .tc := ⟨.hbm, 244, rfl⟩
abbrev main_cst_32 : Ref sig .tc := ⟨.hbm, 245, rfl⟩
abbrev main_v171 : Ref sig .tc := ⟨.hbm, 246, rfl⟩
abbrev main_v172 : Ref sig .tc := ⟨.hbm, 247, rfl⟩
abbrev main_v173 : Ref sig .tc := ⟨.hbm, 248, rfl⟩
abbrev main_v174 : Ref sig .tc := ⟨.hbm, 249, rfl⟩
abbrev main_v175 : Ref sig .tc := ⟨.hbm, 250, rfl⟩
abbrev main_v176 : Ref sig .tc := ⟨.hbm, 251, rfl⟩
abbrev main_v177 : Ref sig .tc := ⟨.hbm, 252, rfl⟩
abbrev main_v178 : Ref sig .tc := ⟨.hbm, 253, rfl⟩
abbrev main_v179 : Ref sig .tc := ⟨.hbm, 254, rfl⟩
abbrev main_v180 : Ref sig .tc := ⟨.hbm, 255, rfl⟩
abbrev main_call6_cst : Ref sig .tc := ⟨.hbm, 256, rfl⟩
abbrev main_call6_v0 : Ref sig .tc := ⟨.hbm, 257, rfl⟩
abbrev main_v181 : Ref sig .tc := ⟨.hbm, 258, rfl⟩
abbrev main_cst_33 : Ref sig .tc := ⟨.hbm, 259, rfl⟩
abbrev main_v182 : Ref sig .tc := ⟨.hbm, 260, rfl⟩
abbrev main_v183 : Ref sig .tc := ⟨.hbm, 261, rfl⟩
abbrev main_cst_34 : Ref sig .tc := ⟨.hbm, 262, rfl⟩
abbrev main_v184 : Ref sig .tc := ⟨.hbm, 263, rfl⟩
abbrev main_v185 : Ref sig .tc := ⟨.hbm, 264, rfl⟩
abbrev main_v186 : Ref sig .tc := ⟨.hbm, 265, rfl⟩
abbrev main_v187 : Ref sig .tc := ⟨.hbm, 266, rfl⟩
abbrev main_v188 : Ref sig .tc := ⟨.hbm, 267, rfl⟩

abbrev nD : Nat := 1
abbrev τ : Topo := Topo.v7x

variable {F : FTy → Type} [FloatOps F]

class Facts₀ : Prop where
  bcast_S_S50000x128 : S_.BroadcastsInDim S50000x128 (![] : Fin 0 → Fin S50000x128.rank)
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x128_S50000x384_d1 : Shape.Concatenates [S50000x128, S50000x128, S50000x128] S50000x384 1
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S1x128 : S_.BroadcastsInDim S1x128 (![] : Fin 0 → Fin S1x128.rank)
  bcast_S1_S1x1_1 : S1.BroadcastsInDim S1x1 (![1] : Fin 1 → Fin S1x1.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x384_S384x128_S50000x128_1_0_0_1_n_n_wf : DotDims.WF S50000x384 S384x128 S50000x128 [1] [0] [0] [1] [] []
  dot_S1x128_S128x1_S1x1_1_0_0_1_n_n_wf : DotDims.WF S1x128 S128x1 S1x1 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x384_S384x128_S50000x128_1_0_0_1_n_n : DotDims S50000x384 S384x128 S50000x128 where
  lhsContracting := [1]
  rhsContracting := [0]
  lhsNonContracting := [0]
  rhsNonContracting := [1]
  lhsBatch := []
  rhsBatch := []
  wf := dot_S50000x384_S384x128_S50000x128_1_0_0_1_n_n_wf
def dot_S1x128_S128x1_S1x1_1_0_0_1_n_n : DotDims S1x128 S128x1 S1x1 where
  lhsContracting := [1]
  rhsContracting := [0]
  lhsNonContracting := [0]
  rhsNonContracting := [1]
  lhsBatch := []
  rhsBatch := []
  wf := dot_S1x128_S128x1_S1x1_1_0_0_1_n_n_wf

class Facts : Prop extends Facts₀ where

variable [Facts]
-- ==== Proof.KB.Reg0.lean ====
/-
  Region 0 of @main, the dense layer's kernel, at the contents `V` the region is entered with.

  At grid point t the body reads block t of the concatenated features (2000 rows of 384), the whole weight matrix and
  the whole bias row, and stores into block t of the result the rectified affine image of those rows; the result's
  staging buffer is loaded once before the store, but the store covers the whole block, so what it holds afterwards
  depends on the three inputs alone. Here: each window's block at a point, what the body leaves in the result's
  buffer, the body's triple, the per-point proof data of the pipeline and the body obligation at every point.
-/
import proofs.«151709_j57303453663856_1_alg».proof.Proof.Gen.Kernel.Launch
import proofs.«151709_j57303453663856_1_alg».proof.Proof.Gen.Kernel.Skeleton
import proofs.«151709_j57303453663856_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether the point fetches it or not (an unfetched
    point's block index has not moved), for any proof data over `V`'s arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, whether the point fetches it or not (an unfetched
    point's block index has not moved), for any proof data over `V`'s arrays whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, whether the point fetches it or not (an unfetched
    point's block index has not moved), for any proof data over `V`'s arrays whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each the whole of its buffer -/

abbrev r0_0 : Rect S2000x384 := Rect.unit (s := S2000x384) ![0, 0] S2000x384.size inb_S2000x384_S2000x384_0_0
abbrev r0_1 : Rect S384x128 := Rect.unit (s := S384x128) ![0, 0] S384x128.size inb_S384x128_S384x128_0_0
abbrev r0_2 : Rect S1x128 := Rect.unit (s := S1x128) ![0, 0] S1x128.size inb_S1x128_S1x128_0_0
abbrev r0_3 : Rect S2000x128 := Rect.unit (s := S2000x128) ![0, 0] S2000x128.size inb_S2000x128_S2000x128_0_0

/-! ## What the body leaves in the result's buffer -/

/-- The result's staging buffer after the body: its one store, of the rectified affine image of the three loads. -/
def out0_3 (x0 : Vec F S2000x384 .f32) (x1 : Vec F S384x128 .f32) (x2 : Vec F S1x128 .f32) : Vec F S2000x128 .f32 :=
  View.canon [⟨r0_3, k0_pay1 (View.ld x0 r0_0) (View.ld x1 r0_1) (View.ld x2 r0_2)⟩]

/-- The one store covers the buffer. -/
theorem cover0_3 (p0 : Vec F S2000x128 .f32) (y : S2000x128.Idx) :
    ∃ pc ∈ ([⟨r0_3, p0⟩] : List (View.Piece (Elt F) S2000x128 .f32)), y ∈ pc.1.set :=
  View.cover_of_tiled [⟨r0_3, p0⟩] S2000x128.size (by rfl) y

/-! ## The body's triple -/

set_option maxHeartbeats 1000000 in
/-- The body on whole staging memrefs, the inputs' at contents `x0 x1 x2` and the result's at anything, runs to the
    continuation holding the inputs' as they were and the result's at `out0_3` of them. -/
theorem sound_kernel0 (c : Dev nD) (E : Set ℕ) (i : grid0.Coords) (arg1 : Memref sig .tc .vmem S2000x384 .f32) (harg1 : arg1.IsWhole)
    (arg2 : Memref sig .tc .vmem S384x128 .f32) (harg2 : arg2.IsWhole) (arg3 : Memref sig .tc .vmem S1x128 .f32) (harg3 : arg3.IsWhole)
    (arg4 : Memref sig .tc .vmem S2000x128 .f32) (harg4 : arg4.IsWhole)
    (x0 : Vec F S2000x384 .f32) (x1 : Vec F S384x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0_tagconv_linear_kernel i arg1 harg1 arg2 harg2 arg3 harg3 arg4 harg4) K := by
  simp only [cc0_tagconv_linear_kernel_eq_skeleton]; unfold cc0_tagconv_linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them; after the body at point `t` each
    input's buffer at its block and the result's at `out0_3` of the input blocks; the scoped rest and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Reg1.lean ====
/-
  Region 1 of @main, the dense layer's kernel, at the contents `V` the region is entered with.

  At grid point t the body reads block t of the concatenated features (2000 rows of 384), the whole weight matrix and
  the whole bias row, and stores into block t of the result the rectified affine image of those rows; the result's
  staging buffer is loaded once before the store, but the store covers the whole block, so what it holds afterwards
  depends on the three inputs alone. Here: each window's block at a point, what the body leaves in the result's
  buffer, the body's triple, the per-point proof data of the pipeline and the body obligation at every point.
-/
import proofs.«151709_j57303453663856_1_alg».proof.Proof.Gen.Kernel.Launch
import proofs.«151709_j57303453663856_1_alg».proof.Proof.Gen.Kernel.Skeleton
import proofs.«151709_j57303453663856_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether the point fetches it or not (an unfetched
    point's block index has not moved), for any proof data over `V`'s arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, whether the point fetches it or not (an unfetched
    point's block index has not moved), for any proof data over `V`'s arrays whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, whether the point fetches it or not (an unfetched
    point's block index has not moved), for any proof data over `V`'s arrays whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each the whole of its buffer -/

abbrev r1_0 : Rect S2000x384 := Rect.unit (s := S2000x384) ![0, 0] S2000x384.size inb_S2000x384_S2000x384_0_0
abbrev r1_1 : Rect S384x128 := Rect.unit (s := S384x128) ![0, 0] S384x128.size inb_S384x128_S384x128_0_0
abbrev r1_2 : Rect S1x128 := Rect.unit (s := S1x128) ![0, 0] S1x128.size inb_S1x128_S1x128_0_0
abbrev r1_3 : Rect S2000x128 := Rect.unit (s := S2000x128) ![0, 0] S2000x128.size inb_S2000x128_S2000x128_0_0

/-! ## What the body leaves in the result's buffer -/

/-- The result's staging buffer after the body: its one store, of the rectified affine image of the three loads. -/
def out1_3 (x0 : Vec F S2000x384 .f32) (x1 : Vec F S384x128 .f32) (x2 : Vec F S1x128 .f32) : Vec F S2000x128 .f32 :=
  View.canon [⟨r1_3, k1_pay1 (View.ld x0 r1_0) (View.ld x1 r1_1) (View.ld x2 r1_2)⟩]

/-- The one store covers the buffer. -/
theorem cover1_3 (p0 : Vec F S2000x128 .f32) (y : S2000x128.Idx) :
    ∃ pc ∈ ([⟨r1_3, p0⟩] : List (View.Piece (Elt F) S2000x128 .f32)), y ∈ pc.1.set :=
  View.cover_of_tiled [⟨r1_3, p0⟩] S2000x128.size (by rfl) y

/-! ## The body's triple -/

set_option maxHeartbeats 1000000 in
/-- The body on whole staging memrefs, the inputs' at contents `x0 x1 x2` and the result's at anything, runs to the
    continuation holding the inputs' as they were and the result's at `out1_3` of them. -/
theorem sound_kernel1 (c : Dev nD) (E : Set ℕ) (i : grid1.Coords) (arg1 : Memref sig .tc .vmem S2000x384 .f32) (harg1 : arg1.IsWhole)
    (arg2 : Memref sig .tc .vmem S384x128 .f32) (harg2 : arg2.IsWhole) (arg3 : Memref sig .tc .vmem S1x128 .f32) (harg3 : arg3.IsWhole)
    (arg4 : Memref sig .tc .vmem S2000x128 .f32) (harg4 : arg4.IsWhole)
    (x0 : Vec F S2000x384 .f32) (x1 : Vec F S384x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1_tagconv_linear_kernel i arg1 harg1 arg2 harg2 arg3 harg3 arg4 harg4) K := by
  simp only [cc1_tagconv_linear_kernel_eq_skeleton]; unfold cc1_tagconv_linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them; after the body at point `t` each
    input's buffer at its block and the result's at `out1_3` of the input blocks; the scoped rest and the generator
    register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Reg2.lean ====
/-
  Region 2 of @main, the dense layer's kernel, at the contents `V` the region is entered with.

  At grid point t the body reads block t of the concatenated features (2000 rows of 384), the whole weight matrix and
  the whole bias row, and stores into block t of the result the rectified affine image of those rows; the result's
  staging buffer is loaded once before the store, but the store covers the whole block, so what it holds afterwards
  depends on the three inputs alone. Here: each window's block at a point, what the body leaves in the result's
  buffer, the body's triple, the per-point proof data of the pipeline and the body obligation at every point.
-/
import proofs.«151709_j57303453663856_1_alg».proof.Proof.Gen.Kernel.Launch
import proofs.«151709_j57303453663856_1_alg».proof.Proof.Gen.Kernel.Skeleton
import proofs.«151709_j57303453663856_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whether the point fetches it or not (an unfetched
    point's block index has not moved), for any proof data over `V`'s arrays whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, whether the point fetches it or not (an unfetched
    point's block index has not moved), for any proof data over `V`'s arrays whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, whether the point fetches it or not (an unfetched
    point's block index has not moved), for any proof data over `V`'s arrays whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each the whole of its buffer -/

abbrev r2_0 : Rect S2000x384 := Rect.unit (s := S2000x384) ![0, 0] S2000x384.size inb_S2000x384_S2000x384_0_0
abbrev r2_1 : Rect S384x128 := Rect.unit (s := S384x128) ![0, 0] S384x128.size inb_S384x128_S384x128_0_0
abbrev r2_2 : Rect S1x128 := Rect.unit (s := S1x128) ![0, 0] S1x128.size inb_S1x128_S1x128_0_0
abbrev r2_3 : Rect S2000x128 := Rect.unit (s := S2000x128) ![0, 0] S2000x128.size inb_S2000x128_S2000x128_0_0

/-! ## What the body leaves in the result's buffer -/

/-- The result's staging buffer after the body: its one store, of the rectified affine image of the three loads. -/
def out2_3 (x0 : Vec F S2000x384 .f32) (x1 : Vec F S384x128 .f32) (x2 : Vec F S1x128 .f32) : Vec F S2000x128 .f32 :=
  View.canon [⟨r2_3, k2_pay1 (View.ld x0 r2_0) (View.ld x1 r2_1) (View.ld x2 r2_2)⟩]

/-- The one store covers the buffer. -/
theorem cover2_3 (p0 : Vec F S2000x128 .f32) (y : S2000x128.Idx) :
    ∃ pc ∈ ([⟨r2_3, p0⟩] : List (View.Piece (Elt F) S2000x128 .f32)), y ∈ pc.1.set :=
  View.cover_of_tiled [⟨r2_3, p0⟩] S2000x128.size (by rfl) y

/-! ## The body's triple -/

set_option maxHeartbeats 1000000 in
/-- The body on whole staging memrefs, the inputs' at contents `x0 x1 x2` and the result's at anything, runs to the
    continuation holding the inputs' as they were and the result's at `out2_3` of them. -/
theorem sound_kernel2 (c : Dev nD) (E : Set ℕ) (i : grid2.Coords) (arg1 : Memref sig .tc .vmem S2000x384 .f32) (harg1 : arg1.IsWhole)
    (arg2 : Memref sig .tc .vmem S384x128 .f32) (harg2 : arg2.IsWhole) (arg3 : Memref sig .tc .vmem S1x128 .f32) (harg3 : arg3.IsWhole)
    (arg4 : Memref sig .tc .vmem S2000x128 .f32) (harg4 : arg4.IsWhole)
    (x0 : Vec F S2000x384 .f32) (x1 : Vec F S384x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2_tagconv_linear_kernel i arg1 harg1 arg2 harg2 arg3 harg3 arg4 harg4) K := by
  simp only [cc2_tagconv_linear_kernel_eq_skeleton]; unfold cc2_tagconv_linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them; after the body at point `t` each
    input's buffer at its block and the result's at `out2_3` of the input blocks; the scoped rest and the generator
    register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.Reg3.lean ====
/-
  Region 3 of @main, the dense layer's kernel, at the contents `V` the region is entered with.

  At grid point t the body reads block t of the concatenated features (2000 rows of 384), the whole weight matrix and
  the whole bias row, and stores into block t of the result the rectified affine image of those rows; the result's
  staging buffer is loaded once before the store, but the store covers the whole block, so what it holds afterwards
  depends on the three inputs alone. Here: each window's block at a point, what the body leaves in the result's
  buffer, the body's triple, the per-point proof data of the pipeline and the body obligation at every point.
-/
import proofs.«151709_j57303453663856_1_alg».proof.Proof.Gen.Kernel.Launch
import proofs.«151709_j57303453663856_1_alg».proof.Proof.Gen.Kernel.Skeleton
import proofs.«151709_j57303453663856_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, whether the point fetches it or not (an unfetched
    point's block index has not moved), for any proof data over `V`'s arrays whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, whether the point fetches it or not (an unfetched
    point's block index has not moved), for any proof data over `V`'s arrays whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, whether the point fetches it or not (an unfetched
    point's block index has not moved), for any proof data over `V`'s arrays whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each the whole of its buffer -/

abbrev r3_0 : Rect S2000x384 := Rect.unit (s := S2000x384) ![0, 0] S2000x384.size inb_S2000x384_S2000x384_0_0
abbrev r3_1 : Rect S384x128 := Rect.unit (s := S384x128) ![0, 0] S384x128.size inb_S384x128_S384x128_0_0
abbrev r3_2 : Rect S1x128 := Rect.unit (s := S1x128) ![0, 0] S1x128.size inb_S1x128_S1x128_0_0
abbrev r3_3 : Rect S2000x128 := Rect.unit (s := S2000x128) ![0, 0] S2000x128.size inb_S2000x128_S2000x128_0_0

/-! ## What the body leaves in the result's buffer -/

/-- The result's staging buffer after the body: its one store, of the rectified affine image of the three loads. -/
def out3_3 (x0 : Vec F S2000x384 .f32) (x1 : Vec F S384x128 .f32) (x2 : Vec F S1x128 .f32) : Vec F S2000x128 .f32 :=
  View.canon [⟨r3_3, k3_pay1 (View.ld x0 r3_0) (View.ld x1 r3_1) (View.ld x2 r3_2)⟩]

/-- The one store covers the buffer. -/
theorem cover3_3 (p0 : Vec F S2000x128 .f32) (y : S2000x128.Idx) :
    ∃ pc ∈ ([⟨r3_3, p0⟩] : List (View.Piece (Elt F) S2000x128 .f32)), y ∈ pc.1.set :=
  View.cover_of_tiled [⟨r3_3, p0⟩] S2000x128.size (by rfl) y

/-! ## The body's triple -/

set_option maxHeartbeats 1000000 in
/-- The body on whole staging memrefs, the inputs' at contents `x0 x1 x2` and the result's at anything, runs to the
    continuation holding the inputs' as they were and the result's at `out3_3` of them. -/
theorem sound_kernel3 (c : Dev nD) (E : Set ℕ) (i : grid3.Coords) (arg1 : Memref sig .tc .vmem S2000x384 .f32) (harg1 : arg1.IsWhole)
    (arg2 : Memref sig .tc .vmem S384x128 .f32) (harg2 : arg2.IsWhole) (arg3 : Memref sig .tc .vmem S1x128 .f32) (harg3 : arg3.IsWhole)
    (arg4 : Memref sig .tc .vmem S2000x128 .f32) (harg4 : arg4.IsWhole)
    (x0 : Vec F S2000x384 .f32) (x1 : Vec F S384x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3_tagconv_linear_kernel i arg1 harg1 arg2 harg2 arg3 harg3 arg4 harg4) K := by
  simp only [cc3_tagconv_linear_kernel_eq_skeleton]; unfold cc3_tagconv_linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of pipeline 3 on core `c`: the arrays as the region finds them; after the body at point `t` each
    input's buffer at its block and the result's at `out3_3` of the input blocks; the scoped rest and the generator
    register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so the triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KB.Reg4.lean ====
/-
  Region 4 of @main, the dense layer's kernel, at the contents `V` the region is entered with.

  At grid point t the body reads block t of the concatenated features (2000 rows of 384), the whole weight matrix and
  the whole bias row, and stores into block t of the result the rectified affine image of those rows; the result's
  staging buffer is loaded once before the store, but the store covers the whole block, so what it holds afterwards
  depends on the three inputs alone. Here: each window's block at a point, what the body leaves in the result's
  buffer, the body's triple, the per-point proof data of the pipeline and the body obligation at every point.
-/
import proofs.«151709_j57303453663856_1_alg».proof.Proof.Gen.Kernel.Launch
import proofs.«151709_j57303453663856_1_alg».proof.Proof.Gen.Kernel.Skeleton
import proofs.«151709_j57303453663856_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, whether the point fetches it or not (an unfetched
    point's block index has not moved), for any proof data over `V`'s arrays whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every point, whether the point fetches it or not (an unfetched
    point's block index has not moved), for any proof data over `V`'s arrays whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds its block at every point, whether the point fetches it or not (an unfetched
    point's block index has not moved), for any proof data over `V`'s arrays whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each the whole of its buffer -/

abbrev r4_0 : Rect S2000x384 := Rect.unit (s := S2000x384) ![0, 0] S2000x384.size inb_S2000x384_S2000x384_0_0
abbrev r4_1 : Rect S384x128 := Rect.unit (s := S384x128) ![0, 0] S384x128.size inb_S384x128_S384x128_0_0
abbrev r4_2 : Rect S1x128 := Rect.unit (s := S1x128) ![0, 0] S1x128.size inb_S1x128_S1x128_0_0
abbrev r4_3 : Rect S2000x128 := Rect.unit (s := S2000x128) ![0, 0] S2000x128.size inb_S2000x128_S2000x128_0_0

/-! ## What the body leaves in the result's buffer -/

/-- The result's staging buffer after the body: its one store, of the rectified affine image of the three loads. -/
def out4_3 (x0 : Vec F S2000x384 .f32) (x1 : Vec F S384x128 .f32) (x2 : Vec F S1x128 .f32) : Vec F S2000x128 .f32 :=
  View.canon [⟨r4_3, k4_pay1 (View.ld x0 r4_0) (View.ld x1 r4_1) (View.ld x2 r4_2)⟩]

/-- The one store covers the buffer. -/
theorem cover4_3 (p0 : Vec F S2000x128 .f32) (y : S2000x128.Idx) :
    ∃ pc ∈ ([⟨r4_3, p0⟩] : List (View.Piece (Elt F) S2000x128 .f32)), y ∈ pc.1.set :=
  View.cover_of_tiled [⟨r4_3, p0⟩] S2000x128.size (by rfl) y

/-! ## The body's triple -/

set_option maxHeartbeats 1000000 in
/-- The body on whole staging memrefs, the inputs' at contents `x0 x1 x2` and the result's at anything, runs to the
    continuation holding the inputs' as they were and the result's at `out4_3` of them. -/
theorem sound_kernel4 (c : Dev nD) (E : Set ℕ) (i : grid4.Coords) (arg1 : Memref sig .tc .vmem S2000x384 .f32) (harg1 : arg1.IsWhole)
    (arg2 : Memref sig .tc .vmem S384x128 .f32) (harg2 : arg2.IsWhole) (arg3 : Memref sig .tc .vmem S1x128 .f32) (harg3 : arg3.IsWhole)
    (arg4 : Memref sig .tc .vmem S2000x128 .f32) (harg4 : arg4.IsWhole)
    (x0 : Vec F S2000x384 .f32) (x1 : Vec F S384x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4_tagconv_linear_kernel i arg1 harg1 arg2 harg2 arg3 harg3 arg4 harg4) K := by
  simp only [cc4_tagconv_linear_kernel_eq_skeleton]; unfold cc4_tagconv_linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The pipeline's proof data -/

/-- The proof data of pipeline 4 on core `c`: the arrays as the region finds them; after the body at point `t` each
    input's buffer at its block and the result's at `out4_3` of the input blocks; the scoped rest and the generator
    register untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so the triple applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.KB.Run.lean ====
/-
  The run of @main: fourteen segments — four stretches of host operations, then five times a dense-layer region and
  the host stretch after it — from the launch to the return.

  `W0 … W14` are the contents of the core's buffers at the segment boundaries, a fold from the launch memory: a host
  stretch applies its operations; a region leaves its result array at what its 25 write-backs fold to and every other
  buffer as entered. Each region is a segment over the thread state "every unscoped buffer at the boundary's
  contents, the generator register at some state, nothing owed". The one run theorem ends with every unscoped buffer
  at `W14`; the frame follows because no segment writes an argument.
-/
import proofs.«151709_j57303453663856_1_alg».proof.Proof.KB.Reg0
import proofs.«151709_j57303453663856_1_alg».proof.Proof.KB.Reg1
import proofs.«151709_j57303453663856_1_alg».proof.Proof.KB.Reg2
import proofs.«151709_j57303453663856_1_alg».proof.Proof.KB.Reg3
import proofs.«151709_j57303453663856_1_alg».proof.Proof.KB.Reg4
import proofs.«151709_j57303453663856_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- Core `c`'s buffers at launch. -/
abbrev W0 : Dev nD → Valuation τ sig (Elt F) := fun c b => m ((c : Dev nD), b)
/-- After `hostOps0`. -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- After `hostOps0_1`. -/
abbrev W2 : Dev nD → Valuation τ sig (Elt F) := fun c => StableHlo.after hostOps0_1 (W1 m c)
/-- The same read at the TensorCore's references. -/
abbrev V2 : (c : Dev nD) → (b : Ref sig .tc) → Buf (Elt F) ((c : Thread nD τ).loc b) := fun c b => W2 m c b
/-- After `hostOps0_2`. -/
abbrev W3 : Dev nD → Valuation τ sig (Elt F) := fun c => StableHlo.after hostOps0_2 (W2 m c)
/-- The same read at the TensorCore's references. -/
abbrev V3 : (c : Dev nD) → (b : Ref sig .tc) → Buf (Elt F) ((c : Thread nD τ).loc b) := fun c b => W3 m c b
/-- After `hostOps0_3`. -/
abbrev W4 : Dev nD → Valuation τ sig (Elt F) := fun c => StableHlo.after hostOps0_3 (W3 m c)
/-- The same read at the TensorCore's references. -/
abbrev V4 : (c : Dev nD) → (b : Ref sig .tc) → Buf (Elt F) ((c : Thread nD τ).loc b) := fun c b => W4 m c b
/-- At region 0's exit: its arrays at what the pipeline leaves (the inputs as entered, the result's write-backs
    folded), every other buffer as entered. -/
def W5 (c : Dev nD) : Valuation τ sig (Elt F) :=
  Pipeline.withArrays spec0 c (W4 m c) fun w => (dat0 (V4 m) c).arrAt w cfg0.N
theorem W5_arr (c : Dev nD) (w : Fin cfg0.W) :
    W5 m c (Proc.devRef .tc (Pipeline.arrRef spec0 w)) = (dat0 (V4 m) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m c (Proc.devRef .tc b) = W4 m c (Proc.devRef .tc b) := by
  unfold W5; exact Pipeline.withArrays_of_ne spec0 c _ _ b hb
abbrev V5 : (c : Dev nD) → (b : Ref sig .tc) → Buf (Elt F) ((c : Thread nD τ).loc b) := fun c b => W5 m c b
theorem hF0 (c : Dev nD) (w : Fin cfg0.W) : (dat0 (V4 m) c).arrAt w cfg0.N = V5 m c (Pipeline.arrRef spec0 w) :=
  (W5_arr m c w).symm
theorem hrest0 (c : Dev nD) : ∀ b, b ∉ Finset.univ.image (Pipeline.arrRef spec0) → V5 m c b = V4 m c b :=
  fun b hb => W5_of_ne m c b fun w e => hb (Finset.mem_image.mpr ⟨w, Finset.mem_univ _, e⟩)
/-- A region changes its result array only: an input array ends as entered, any other buffer is not the region's. -/
theorem W5_keep (c : Dev nD) (b : Ref sig .tc) (hb : b ≠ main_v42) :
    W5 m c (Proc.devRef .tc b) = W4 m c (Proc.devRef .tc b) := by
  by_cases h : ∃ w, Pipeline.arrRef spec0 w = b
  · obtain ⟨w, rfl⟩ := h
    rw [W5_arr]
    have hw : (cfg0.win w).isOut = false := by
      match w with
      | ⟨0, _⟩ => rfl
      | ⟨1, _⟩ => rfl
      | ⟨2, _⟩ => rfl
      | ⟨3, _⟩ => exact absurd rfl hb
    exact ((dat0 (V4 m) c).arrAt_in w hw _).trans (A_eq0 (V4 m) c w)
  · exact W5_of_ne m c b fun w e => h ⟨w, e⟩
/-- After `hostOps1`. -/
abbrev W6 : Dev nD → Valuation τ sig (Elt F) := fun c => StableHlo.after hostOps1 (W5 m c)
/-- The same read at the TensorCore's references. -/
abbrev V6 : (c : Dev nD) → (b : Ref sig .tc) → Buf (Elt F) ((c : Thread nD τ).loc b) := fun c b => W6 m c b
/-- At region 1's exit: its arrays at what the pipeline leaves (the inputs as entered, the result's write-backs
    folded), every other buffer as entered. -/
def W7 (c : Dev nD) : Valuation τ sig (Elt F) :=
  Pipeline.withArrays spec1 c (W6 m c) fun w => (dat1 (V6 m) c).arrAt w cfg1.N
theorem W7_arr (c : Dev nD) (w : Fin cfg1.W) :
    W7 m c (Proc.devRef .tc (Pipeline.arrRef spec1 w)) = (dat1 (V6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
abbrev V7 : (c : Dev nD) → (b : Ref sig .tc) → Buf (Elt F) ((c : Thread nD τ).loc b) := fun c b => W7 m c b
theorem hF1 (c : Dev nD) (w : Fin cfg1.W) : (dat1 (V6 m) c).arrAt w cfg1.N = V7 m c (Pipeline.arrRef spec1 w) :=
  (W7_arr m c w).symm
theorem hrest1 (c : Dev nD) : ∀ b, b ∉ Finset.univ.image (Pipeline.arrRef spec1) → V7 m c b = V6 m c b :=
  fun b hb => W7_of_ne m c b fun w e => hb (Finset.mem_image.mpr ⟨w, Finset.mem_univ _, e⟩)
/-- A region changes its result array only: an input array ends as entered, any other buffer is not the region's. -/
theorem W7_keep (c : Dev nD) (b : Ref sig .tc) (hb : b ≠ main_v73) :
    W7 m c (Proc.devRef .tc b) = W6 m c (Proc.devRef .tc b) := by
  by_cases h : ∃ w, Pipeline.arrRef spec1 w = b
  · obtain ⟨w, rfl⟩ := h
    rw [W7_arr]
    have hw : (cfg1.win w).isOut = false := by
      match w with
      | ⟨0, _⟩ => rfl
      | ⟨1, _⟩ => rfl
      | ⟨2, _⟩ => rfl
      | ⟨3, _⟩ => exact absurd rfl hb
    exact ((dat1 (V6 m) c).arrAt_in w hw _).trans (A_eq1 (V6 m) c w)
  · exact W7_of_ne m c b fun w e => h ⟨w, e⟩
/-- After `hostOps2`. -/
abbrev W8 : Dev nD → Valuation τ sig (Elt F) := fun c => StableHlo.after hostOps2 (W7 m c)
/-- The same read at the TensorCore's references. -/
abbrev V8 : (c : Dev nD) → (b : Ref sig .tc) → Buf (Elt F) ((c : Thread nD τ).loc b) := fun c b => W8 m c b
/-- At region 2's exit: its arrays at what the pipeline leaves (the inputs as entered, the result's write-backs
    folded), every other buffer as entered. -/
def W9 (c : Dev nD) : Valuation τ sig (Elt F) :=
  Pipeline.withArrays spec2 c (W8 m c) fun w => (dat2 (V8 m) c).arrAt w cfg2.N
theorem W9_arr (c : Dev nD) (w : Fin cfg2.W) :
    W9 m c (Proc.devRef .tc (Pipeline.arrRef spec2 w)) = (dat2 (V8 m) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m c (Proc.devRef .tc b) = W8 m c (Proc.devRef .tc b) := by
  unfold W9; exact Pipeline.withArrays_of_ne spec2 c _ _ b hb
abbrev V9 : (c : Dev nD) → (b : Ref sig .tc) → Buf (Elt F) ((c : Thread nD τ).loc b) := fun c b => W9 m c b
theorem hF2 (c : Dev nD) (w : Fin cfg2.W) : (dat2 (V8 m) c).arrAt w cfg2.N = V9 m c (Pipeline.arrRef spec2 w) :=
  (W9_arr m c w).symm
theorem hrest2 (c : Dev nD) : ∀ b, b ∉ Finset.univ.image (Pipeline.arrRef spec2) → V9 m c b = V8 m c b :=
  fun b hb => W9_of_ne m c b fun w e => hb (Finset.mem_image.mpr ⟨w, Finset.mem_univ _, e⟩)
/-- A region changes its result array only: an input array ends as entered, any other buffer is not the region's. -/
theorem W9_keep (c : Dev nD) (b : Ref sig .tc) (hb : b ≠ main_v104) :
    W9 m c (Proc.devRef .tc b) = W8 m c (Proc.devRef .tc b) := by
  by_cases h : ∃ w, Pipeline.arrRef spec2 w = b
  · obtain ⟨w, rfl⟩ := h
    rw [W9_arr]
    have hw : (cfg2.win w).isOut = false := by
      match w with
      | ⟨0, _⟩ => rfl
      | ⟨1, _⟩ => rfl
      | ⟨2, _⟩ => rfl
      | ⟨3, _⟩ => exact absurd rfl hb
    exact ((dat2 (V8 m) c).arrAt_in w hw _).trans (A_eq2 (V8 m) c w)
  · exact W9_of_ne m c b fun w e => h ⟨w, e⟩
/-- After `hostOps3`. -/
abbrev W10 : Dev nD → Valuation τ sig (Elt F) := fun c => StableHlo.after hostOps3 (W9 m c)
/-- The same read at the TensorCore's references. -/
abbrev V10 : (c : Dev nD) → (b : Ref sig .tc) → Buf (Elt F) ((c : Thread nD τ).loc b) := fun c b => W10 m c b
/-- At region 3's exit: its arrays at what the pipeline leaves (the inputs as entered, the result's write-backs
    folded), every other buffer as entered. -/
def W11 (c : Dev nD) : Valuation τ sig (Elt F) :=
  Pipeline.withArrays spec3 c (W10 m c) fun w => (dat3 (V10 m) c).arrAt w cfg3.N
theorem W11_arr (c : Dev nD) (w : Fin cfg3.W) :
    W11 m c (Proc.devRef .tc (Pipeline.arrRef spec3 w)) = (dat3 (V10 m) c).arrAt w cfg3.N := by
  unfold W11; exact Pipeline.withArrays_arr spec3 launch3.win.arr_inj c _ _ w
theorem W11_of_ne (c : Dev nD) (b : Ref sig .tc) (hb : ∀ w, Pipeline.arrRef spec3 w ≠ b) :
    W11 m c (Proc.devRef .tc b) = W10 m c (Proc.devRef .tc b) := by
  unfold W11; exact Pipeline.withArrays_of_ne spec3 c _ _ b hb
abbrev V11 : (c : Dev nD) → (b : Ref sig .tc) → Buf (Elt F) ((c : Thread nD τ).loc b) := fun c b => W11 m c b
theorem hF3 (c : Dev nD) (w : Fin cfg3.W) : (dat3 (V10 m) c).arrAt w cfg3.N = V11 m c (Pipeline.arrRef spec3 w) :=
  (W11_arr m c w).symm
theorem hrest3 (c : Dev nD) : ∀ b, b ∉ Finset.univ.image (Pipeline.arrRef spec3) → V11 m c b = V10 m c b :=
  fun b hb => W11_of_ne m c b fun w e => hb (Finset.mem_image.mpr ⟨w, Finset.mem_univ _, e⟩)
/-- A region changes its result array only: an input array ends as entered, any other buffer is not the region's. -/
theorem W11_keep (c : Dev nD) (b : Ref sig .tc) (hb : b ≠ main_v135) :
    W11 m c (Proc.devRef .tc b) = W10 m c (Proc.devRef .tc b) := by
  by_cases h : ∃ w, Pipeline.arrRef spec3 w = b
  · obtain ⟨w, rfl⟩ := h
    rw [W11_arr]
    have hw : (cfg3.win w).isOut = false := by
      match w with
      | ⟨0, _⟩ => rfl
      | ⟨1, _⟩ => rfl
      | ⟨2, _⟩ => rfl
      | ⟨3, _⟩ => exact absurd rfl hb
    exact ((dat3 (V10 m) c).arrAt_in w hw _).trans (A_eq3 (V10 m) c w)
  · exact W11_of_ne m c b fun w e => h ⟨w, e⟩
/-- After `hostOps4`. -/
abbrev W12 : Dev nD → Valuation τ sig (Elt F) := fun c => StableHlo.after hostOps4 (W11 m c)
/-- The same read at the TensorCore's references. -/
abbrev V12 : (c : Dev nD) → (b : Ref sig .tc) → Buf (Elt F) ((c : Thread nD τ).loc b) := fun c b => W12 m c b
/-- At region 4's exit: its arrays at what the pipeline leaves (the inputs as entered, the result's write-backs
    folded), every other buffer as entered. -/
def W13 (c : Dev nD) : Valuation τ sig (Elt F) :=
  Pipeline.withArrays spec4 c (W12 m c) fun w => (dat4 (V12 m) c).arrAt w cfg4.N
theorem W13_arr (c : Dev nD) (w : Fin cfg4.W) :
    W13 m c (Proc.devRef .tc (Pipeline.arrRef spec4 w)) = (dat4 (V12 m) c).arrAt w cfg4.N := by
  unfold W13; exact Pipeline.withArrays_arr spec4 launch4.win.arr_inj c _ _ w
theorem W13_of_ne (c : Dev nD) (b : Ref sig .tc) (hb : ∀ w, Pipeline.arrRef spec4 w ≠ b) :
    W13 m c (Proc.devRef .tc b) = W12 m c (Proc.devRef .tc b) := by
  unfold W13; exact Pipeline.withArrays_of_ne spec4 c _ _ b hb
abbrev V13 : (c : Dev nD) → (b : Ref sig .tc) → Buf (Elt F) ((c : Thread nD τ).loc b) := fun c b => W13 m c b
theorem hF4 (c : Dev nD) (w : Fin cfg4.W) : (dat4 (V12 m) c).arrAt w cfg4.N = V13 m c (Pipeline.arrRef spec4 w) :=
  (W13_arr m c w).symm
theorem hrest4 (c : Dev nD) : ∀ b, b ∉ Finset.univ.image (Pipeline.arrRef spec4) → V13 m c b = V12 m c b :=
  fun b hb => W13_of_ne m c b fun w e => hb (Finset.mem_image.mpr ⟨w, Finset.mem_univ _, e⟩)
/-- A region changes its result array only: an input array ends as entered, any other buffer is not the region's. -/
theorem W13_keep (c : Dev nD) (b : Ref sig .tc) (hb : b ≠ main_v166) :
    W13 m c (Proc.devRef .tc b) = W12 m c (Proc.devRef .tc b) := by
  by_cases h : ∃ w, Pipeline.arrRef spec4 w = b
  · obtain ⟨w, rfl⟩ := h
    rw [W13_arr]
    have hw : (cfg4.win w).isOut = false := by
      match w with
      | ⟨0, _⟩ => rfl
      | ⟨1, _⟩ => rfl
      | ⟨2, _⟩ => rfl
      | ⟨3, _⟩ => exact absurd rfl hb
    exact ((dat4 (V12 m) c).arrAt_in w hw _).trans (A_eq4 (V12 m) c w)
  · exact W13_of_ne m c b fun w e => h ⟨w, e⟩
/-- After `hostOps5`. -/
abbrev W14 : Dev nD → Valuation τ sig (Elt F) := fun c => StableHlo.after hostOps5 (W13 m c)
/-- The same read at the TensorCore's references. -/
abbrev V14 : (c : Dev nD) → (b : Ref sig .tc) → Buf (Elt F) ((c : Thread nD τ).loc b) := fun c b => W14 m c b

/-! ## The proof data family and the thread state -/

abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V4 m) c
  | ⟨1, _⟩ => fun c => dat1 (V6 m) c
  | ⟨2, _⟩ => fun c => dat2 (V8 m) c
  | ⟨3, _⟩ => fun c => dat3 (V10 m) c
  | ⟨4, _⟩ => fun c => dat4 (V12 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at `W14`, the generator register at some state. -/
abbrev Tₙ (c : Dev nD) : sProp 𝕄 := iprop(StableHlo.held (c : Thread nD τ) (Pipeline.ucRefs τ sig) (W14 m c) ∗ ∃ r, prngReg c r)

/-! ## The regions as segments -/

set_option backward.isDefEq.respectTransparency.types false in
/-- Region 0 over the thread state: entered from every unscoped buffer at `W4`, left at `W5`. Its arrays are split
    out of the unscoped buffers and put back at the exit contents; the generator register goes into the pipeline's
    invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V4 m) c).loose
  hwaits := Pipeline.hwaits_of_owed_zero _ _ _ _ L lv 0 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec0 c (V4 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V4 m c) (V5 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W6`, left at `W7`. Its arrays are split
    out of the unscoped buffers and put back at the exit contents; the generator register goes into the pipeline's
    invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V6 m) c).loose
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (V6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V6 m c) (V7 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W8`, left at `W9`. Its arrays are split
    out of the unscoped buffers and put back at the exit contents; the generator register goes into the pipeline's
    invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V8 m) c).loose
  hwaits := Pipeline.hwaits_of_owed_zero _ _ _ _ L lv 2 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec2 c (V8 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V8 m c) (V9 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W10`, left at `W11`. Its arrays are split
    out of the unscoped buffers and put back at the exit contents; the generator register goes into the pipeline's
    invariant and comes out; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V10 m) c).loose
  hwaits := Pipeline.hwaits_of_owed_zero _ _ _ _ L lv 3 fun _ _ => rfl
  pre c := iprop(StableHlo.held (c : Thread nD τ) (Pipeline.ucRefs τ sig) (W10 m c) ∗ R c)
  post c := iprop(StableHlo.held (c : Thread nD τ) (Pipeline.ucRefs τ sig) (W11 m c) ∗ R c)
  X c := iprop(∃ r, prngReg c r)
  Y c := iprop(∃ r, prngReg c r)
  Z c := Pipeline.unscopedRest (Ix := Unit) (Name := ℕ) (U := UR sig nD τ) (Lvl := ℕ) spec3 c (V10 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V10 m c) (V11 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W12`, left at `W13`. Its arrays are split
    out of the unscoped buffers and put back at the exit contents; the generator register goes into the pipeline's
    invariant and comes out; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V12 m) c).loose
  hwaits := Pipeline.hwaits_of_owed_zero _ _ _ _ L lv 4 fun _ _ => rfl
  pre c := iprop(StableHlo.held (c : Thread nD τ) (Pipeline.ucRefs τ sig) (W12 m c) ∗ R c)
  post c := iprop(StableHlo.held (c : Thread nD τ) (Pipeline.ucRefs τ sig) (W13 m c) ∗ R c)
  X c := iprop(∃ r, prngReg c r)
  Y c := iprop(∃ r, prngReg c r)
  Z c := Pipeline.unscopedRest (Ix := Unit) (Name := ℕ) (U := UR sig nD τ) (Lvl := ℕ) spec4 c (V12 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V12 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V12 m c) (V13 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's fourteen segments in order. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .region (reg0 m),
    .host (hseg hostOps1 hostOps1_sub hostOps1_fresh (W5 m)),
    .region (reg1 m),
    .host (hseg hostOps2 hostOps2_sub hostOps2_fresh (W7 m)),
    .region (reg2 m),
    .host (hseg hostOps3 hostOps3_sub hostOps3_fresh (W9 m)),
    .region (reg3 m),
    .host (hseg hostOps4 hostOps4_sub hostOps4_fresh (W11 m)),
    .region (reg4 m),
    .host (hseg hostOps5 hostOps5_sub hostOps5_fresh (W13 m)) ]

/-- @main is the run of the segments. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    and every final state holds each unscoped buffer at the last boundary's contents `W14`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W14 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m c b)
    (hfin := fun c s' => by
      iintro ⟨⟨Hh, -⟩, HSI⟩
      unfold StableHlo.held
      imodintro
      iapply (pointsTo_read_all (Pipeline.ucRefs τ sig) (fun b => (((c : Thread nD τ)).1, b)) (W14 m c) s')
      isplitl [Hh] <;> iassumption)
    (hQ := fun s h => h)

end Cert.Kernel.Hand

end
-- ==== Proof.KB.Frame.lean ====
/-
  What no segment writes is kept, and the frame.

  A host stretch changes only the buffers its operations write; a region changes only its result array. So a buffer
  that neither writes holds, at any later boundary, what it held at an earlier one — in particular every argument
  holds at the end what it held at launch, which with the run is the frame claim.
-/
import proofs.«151709_j57303453663856_1_alg».proof.Proof.KB.Run

set_option maxRecDepth 16384

noncomputable section

namespace Cert.Kernel.Hand

open Idealize.ShloMosaic Idealize.ShloMosaic.TcCoe
open Idealize.SL Idealize.SL.Sem
open Cert.Kernel Cert.Kernel.Gen

variable {F : FTy → Type} [FloatOps F]
variable (m : (ℓ : Loc nD τ sig) → Buf (Elt F) ℓ) (ρ : Dev nD → PrngReg)

/-! ## One segment at a time -/
theorem step1 (c : Dev nD) (b : Ref sig .tc) (h : b ∉ hostOps0_W) :
    W1 m c (Proc.devRef .tc b) = W0 m c (Proc.devRef .tc b) :=
  StableHlo.after_of_writes_sub hostOps0 _ hostOps0_writes h
theorem step2 (c : Dev nD) (b : Ref sig .tc) (h : b ∉ hostOps0_1_W) :
    W2 m c (Proc.devRef .tc b) = W1 m c (Proc.devRef .tc b) :=
  StableHlo.after_of_writes_sub hostOps0_1 _ hostOps0_1_writes h
theorem step3 (c : Dev nD) (b : Ref sig .tc) (h : b ∉ hostOps0_2_W) :
    W3 m c (Proc.devRef .tc b) = W2 m c (Proc.devRef .tc b) :=
  StableHlo.after_of_writes_sub hostOps0_2 _ hostOps0_2_writes h
theorem step4 (c : Dev nD) (b : Ref sig .tc) (h : b ∉ hostOps0_3_W) :
    W4 m c (Proc.devRef .tc b) = W3 m c (Proc.devRef .tc b) :=
  StableHlo.after_of_writes_sub hostOps0_3 _ hostOps0_3_writes h
theorem step5 (c : Dev nD) (b : Ref sig .tc) (h : b ≠ main_v42) :
    W5 m c (Proc.devRef .tc b) = W4 m c (Proc.devRef .tc b) :=
  W5_keep m c b h
theorem step6 (c : Dev nD) (b : Ref sig .tc) (h : b ∉ hostOps1_W) :
    W6 m c (Proc.devRef .tc b) = W5 m c (Proc.devRef .tc b) :=
  StableHlo.after_of_writes_sub hostOps1 _ hostOps1_writes h
theorem step7 (c : Dev nD) (b : Ref sig .tc) (h : b ≠ main_v73) :
    W7 m c (Proc.devRef .tc b) = W6 m c (Proc.devRef .tc b) :=
  W7_keep m c b h
theorem step8 (c : Dev nD) (b : Ref sig .tc) (h : b ∉ hostOps2_W) :
    W8 m c (Proc.devRef .tc b) = W7 m c (Proc.devRef .tc b) :=
  StableHlo.after_of_writes_sub hostOps2 _ hostOps2_writes h
theorem step9 (c : Dev nD) (b : Ref sig .tc) (h : b ≠ main_v104) :
    W9 m c (Proc.devRef .tc b) = W8 m c (Proc.devRef .tc b) :=
  W9_keep m c b h
theorem step10 (c : Dev nD) (b : Ref sig .tc) (h : b ∉ hostOps3_W) :
    W10 m c (Proc.devRef .tc b) = W9 m c (Proc.devRef .tc b) :=
  StableHlo.after_of_writes_sub hostOps3 _ hostOps3_writes h
theorem step11 (c : Dev nD) (b : Ref sig .tc) (h : b ≠ main_v135) :
    W11 m c (Proc.devRef .tc b) = W10 m c (Proc.devRef .tc b) :=
  W11_keep m c b h
theorem step12 (c : Dev nD) (b : Ref sig .tc) (h : b ∉ hostOps4_W) :
    W12 m c (Proc.devRef .tc b) = W11 m c (Proc.devRef .tc b) :=
  StableHlo.after_of_writes_sub hostOps4 _ hostOps4_writes h
theorem step13 (c : Dev nD) (b : Ref sig .tc) (h : b ≠ main_v166) :
    W13 m c (Proc.devRef .tc b) = W12 m c (Proc.devRef .tc b) :=
  W13_keep m c b h
theorem step14 (c : Dev nD) (b : Ref sig .tc) (h : b ∉ hostOps5_W) :
    W14 m c (Proc.devRef .tc b) = W13 m c (Proc.devRef .tc b) :=
  StableHlo.after_of_writes_sub hostOps5 _ hostOps5_writes h

/-! ## The arguments end as launched -/
theorem W14_main_arg0 (c : Dev nD) : W14 m c (Proc.devRef .tc main_arg0) = m ((c : Thread nD τ).loc main_arg0) :=
  ((step14 m c main_arg0 (by decide)).trans ((step13 m c main_arg0 (by decide)).trans ((step12 m c main_arg0 (by decide)).trans ((step11 m c main_arg0 (by decide)).trans ((step10 m c main_arg0 (by decide)).trans ((step9 m c main_arg0 (by decide)).trans ((step8 m c main_arg0 (by decide)).trans ((step7 m c main_arg0 (by decide)).trans ((step6 m c main_arg0 (by decide)).trans ((step5 m c main_arg0 (by decide)).trans ((step4 m c main_arg0 (by decide)).trans ((step3 m c main_arg0 (by decide)).trans ((step2 m c main_arg0 (by decide)).trans (step1 m c main_arg0 (by decide))))))))))))))).trans rfl
theorem W14_main_arg1 (c : Dev nD) : W14 m c (Proc.devRef .tc main_arg1) = m ((c : Thread nD τ).loc main_arg1) :=
  ((step14 m c main_arg1 (by decide)).trans ((step13 m c main_arg1 (by decide)).trans ((step12 m c main_arg1 (by decide)).trans ((step11 m c main_arg1 (by decide)).trans ((step10 m c main_arg1 (by decide)).trans ((step9 m c main_arg1 (by decide)).trans ((step8 m c main_arg1 (by decide)).trans ((step7 m c main_arg1 (by decide)).trans ((step6 m c main_arg1 (by decide)).trans ((step5 m c main_arg1 (by decide)).trans ((step4 m c main_arg1 (by decide)).trans ((step3 m c main_arg1 (by decide)).trans ((step2 m c main_arg1 (by decide)).trans (step1 m c main_arg1 (by decide))))))))))))))).trans rfl
theorem W14_main_arg2 (c : Dev nD) : W14 m c (Proc.devRef .tc main_arg2) = m ((c : Thread nD τ).loc main_arg2) :=
  ((step14 m c main_arg2 (by decide)).trans ((step13 m c main_arg2 (by decide)).trans ((step12 m c main_arg2 (by decide)).trans ((step11 m c main_arg2 (by decide)).trans ((step10 m c main_arg2 (by decide)).trans ((step9 m c main_arg2 (by decide)).trans ((step8 m c main_arg2 (by decide)).trans ((step7 m c main_arg2 (by decide)).trans ((step6 m c main_arg2 (by decide)).trans ((step5 m c main_arg2 (by decide)).trans ((step4 m c main_arg2 (by decide)).trans ((step3 m c main_arg2 (by decide)).trans ((step2 m c main_arg2 (by decide)).trans (step1 m c main_arg2 (by decide))))))))))))))).trans rfl
theorem W14_main_arg3 (c : Dev nD) : W14 m c (Proc.devRef .tc main_arg3) = m ((c : Thread nD τ).loc main_arg3) :=
  ((step14 m c main_arg3 (by decide)).trans ((step13 m c main_arg3 (by decide)).trans ((step12 m c main_arg3 (by decide)).trans ((step11 m c main_arg3 (by decide)).trans ((step10 m c main_arg3 (by decide)).trans ((step9 m c main_arg3 (by decide)).trans ((step8 m c main_arg3 (by decide)).trans ((step7 m c main_arg3 (by decide)).trans ((step6 m c main_arg3 (by decide)).trans ((step5 m c main_arg3 (by decide)).trans ((step4 m c main_arg3 (by decide)).trans ((step3 m c main_arg3 (by decide)).trans ((step2 m c main_arg3 (by decide)).trans (step1 m c main_arg3 (by decide))))))))))))))).trans rfl
theorem W14_main_arg4 (c : Dev nD) : W14 m c (Proc.devRef .tc main_arg4) = m ((c : Thread nD τ).loc main_arg4) :=
  ((step14 m c main_arg4 (by decide)).trans ((step13 m c main_arg4 (by decide)).trans ((step12 m c main_arg4 (by decide)).trans ((step11 m c main_arg4 (by decide)).trans ((step10 m c main_arg4 (by decide)).trans ((step9 m c main_arg4 (by decide)).trans ((step8 m c main_arg4 (by decide)).trans ((step7 m c main_arg4 (by decide)).trans ((step6 m c main_arg4 (by decide)).trans ((step5 m c main_arg4 (by decide)).trans ((step4 m c main_arg4 (by decide)).trans ((step3 m c main_arg4 (by decide)).trans ((step2 m c main_arg4 (by decide)).trans (step1 m c main_arg4 (by decide))))))))))))))).trans rfl
theorem W14_main_arg5 (c : Dev nD) : W14 m c (Proc.devRef .tc main_arg5) = m ((c : Thread nD τ).loc main_arg5) :=
  ((step14 m c main_arg5 (by decide)).trans ((step13 m c main_arg5 (by decide)).trans ((step12 m c main_arg5 (by decide)).trans ((step11 m c main_arg5 (by decide)).trans ((step10 m c main_arg5 (by decide)).trans ((step9 m c main_arg5 (by decide)).trans ((step8 m c main_arg5 (by decide)).trans ((step7 m c main_arg5 (by decide)).trans ((step6 m c main_arg5 (by decide)).trans ((step5 m c main_arg5 (by decide)).trans ((step4 m c main_arg5 (by decide)).trans ((step3 m c main_arg5 (by decide)).trans ((step2 m c main_arg5 (by decide)).trans (step1 m c main_arg5 (by decide))))))))))))))).trans rfl
theorem W14_main_arg6 (c : Dev nD) : W14 m c (Proc.devRef .tc main_arg6) = m ((c : Thread nD τ).loc main_arg6) :=
  ((step14 m c main_arg6 (by decide)).trans ((step13 m c main_arg6 (by decide)).trans ((step12 m c main_arg6 (by decide)).trans ((step11 m c main_arg6 (by decide)).trans ((step10 m c main_arg6 (by decide)).trans ((step9 m c main_arg6 (by decide)).trans ((step8 m c main_arg6 (by decide)).trans ((step7 m c main_arg6 (by decide)).trans ((step6 m c main_arg6 (by decide)).trans ((step5 m c main_arg6 (by decide)).trans ((step4 m c main_arg6 (by decide)).trans ((step3 m c main_arg6 (by decide)).trans ((step2 m c main_arg6 (by decide)).trans (step1 m c main_arg6 (by decide))))))))))))))).trans rfl
theorem W14_main_arg7 (c : Dev nD) : W14 m c (Proc.devRef .tc main_arg7) = m ((c : Thread nD τ).loc main_arg7) :=
  ((step14 m c main_arg7 (by decide)).trans ((step13 m c main_arg7 (by decide)).trans ((step12 m c main_arg7 (by decide)).trans ((step11 m c main_arg7 (by decide)).trans ((step10 m c main_arg7 (by decide)).trans ((step9 m c main_arg7 (by decide)).trans ((step8 m c main_arg7 (by decide)).trans ((step7 m c main_arg7 (by decide)).trans ((step6 m c main_arg7 (by decide)).trans ((step5 m c main_arg7 (by decide)).trans ((step4 m c main_arg7 (by decide)).trans ((step3 m c main_arg7 (by decide)).trans ((step2 m c main_arg7 (by decide)).trans (step1 m c main_arg7 (by decide))))))))))))))).trans rfl
theorem W14_main_arg8 (c : Dev nD) : W14 m c (Proc.devRef .tc main_arg8) = m ((c : Thread nD τ).loc main_arg8) :=
  ((step14 m c main_arg8 (by decide)).trans ((step13 m c main_arg8 (by decide)).trans ((step12 m c main_arg8 (by decide)).trans ((step11 m c main_arg8 (by decide)).trans ((step10 m c main_arg8 (by decide)).trans ((step9 m c main_arg8 (by decide)).trans ((step8 m c main_arg8 (by decide)).trans ((step7 m c main_arg8 (by decide)).trans ((step6 m c main_arg8 (by decide)).trans ((step5 m c main_arg8 (by decide)).trans ((step4 m c main_arg8 (by decide)).trans ((step3 m c main_arg8 (by decide)).trans ((step2 m c main_arg8 (by decide)).trans (step1 m c main_arg8 (by decide))))))))))))))).trans rfl
theorem W14_main_arg9 (c : Dev nD) : W14 m c (Proc.devRef .tc main_arg9) = m ((c : Thread nD τ).loc main_arg9) :=
  ((step14 m c main_arg9 (by decide)).trans ((step13 m c main_arg9 (by decide)).trans ((step12 m c main_arg9 (by decide)).trans ((step11 m c main_arg9 (by decide)).trans ((step10 m c main_arg9 (by decide)).trans ((step9 m c main_arg9 (by decide)).trans ((step8 m c main_arg9 (by decide)).trans ((step7 m c main_arg9 (by decide)).trans ((step6 m c main_arg9 (by decide)).trans ((step5 m c main_arg9 (by decide)).trans ((step4 m c main_arg9 (by decide)).trans ((step3 m c main_arg9 (by decide)).trans ((step2 m c main_arg9 (by decide)).trans (step1 m c main_arg9 (by decide))))))))))))))).trans rfl
theorem W14_main_arg10 (c : Dev nD) : W14 m c (Proc.devRef .tc main_arg10) = m ((c : Thread nD τ).loc main_arg10) :=
  ((step14 m c main_arg10 (by decide)).trans ((step13 m c main_arg10 (by decide)).trans ((step12 m c main_arg10 (by decide)).trans ((step11 m c main_arg10 (by decide)).trans ((step10 m c main_arg10 (by decide)).trans ((step9 m c main_arg10 (by decide)).trans ((step8 m c main_arg10 (by decide)).trans ((step7 m c main_arg10 (by decide)).trans ((step6 m c main_arg10 (by decide)).trans ((step5 m c main_arg10 (by decide)).trans ((step4 m c main_arg10 (by decide)).trans ((step3 m c main_arg10 (by decide)).trans ((step2 m c main_arg10 (by decide)).trans (step1 m c main_arg10 (by decide))))))))))))))).trans rfl
theorem W14_main_arg11 (c : Dev nD) : W14 m c (Proc.devRef .tc main_arg11) = m ((c : Thread nD τ).loc main_arg11) :=
  ((step14 m c main_arg11 (by decide)).trans ((step13 m c main_arg11 (by decide)).trans ((step12 m c main_arg11 (by decide)).trans ((step11 m c main_arg11 (by decide)).trans ((step10 m c main_arg11 (by decide)).trans ((step9 m c main_arg11 (by decide)).trans ((step8 m c main_arg11 (by decide)).trans ((step7 m c main_arg11 (by decide)).trans ((step6 m c main_arg11 (by decide)).trans ((step5 m c main_arg11 (by decide)).trans ((step4 m c main_arg11 (by decide)).trans ((step3 m c main_arg11 (by decide)).trans ((step2 m c main_arg11 (by decide)).trans (step1 m c main_arg11 (by decide))))))))))))))).trans rfl
theorem W14_main_arg12 (c : Dev nD) : W14 m c (Proc.devRef .tc main_arg12) = m ((c : Thread nD τ).loc main_arg12) :=
  ((step14 m c main_arg12 (by decide)).trans ((step13 m c main_arg12 (by decide)).trans ((step12 m c main_arg12 (by decide)).trans ((step11 m c main_arg12 (by decide)).trans ((step10 m c main_arg12 (by decide)).trans ((step9 m c main_arg12 (by decide)).trans ((step8 m c main_arg12 (by decide)).trans ((step7 m c main_arg12 (by decide)).trans ((step6 m c main_arg12 (by decide)).trans ((step5 m c main_arg12 (by decide)).trans ((step4 m c main_arg12 (by decide)).trans ((step3 m c main_arg12 (by decide)).trans ((step2 m c main_arg12 (by decide)).trans (step1 m c main_arg12 (by decide))))))))))))))).trans rfl
theorem W14_main_arg13 (c : Dev nD) : W14 m c (Proc.devRef .tc main_arg13) = m ((c : Thread nD τ).loc main_arg13) :=
  ((step14 m c main_arg13 (by decide)).trans ((step13 m c main_arg13 (by decide)).trans ((step12 m c main_arg13 (by decide)).trans ((step11 m c main_arg13 (by decide)).trans ((step10 m c main_arg13 (by decide)).trans ((step9 m c main_arg13 (by decide)).trans ((step8 m c main_arg13 (by decide)).trans ((step7 m c main_arg13 (by decide)).trans ((step6 m c main_arg13 (by decide)).trans ((step5 m c main_arg13 (by decide)).trans ((step4 m c main_arg13 (by decide)).trans ((step3 m c main_arg13 (by decide)).trans ((step2 m c main_arg13 (by decide)).trans (step1 m c main_arg13 (by decide))))))))))))))).trans rfl
theorem W14_main_arg14 (c : Dev nD) : W14 m c (Proc.devRef .tc main_arg14) = m ((c : Thread nD τ).loc main_arg14) :=
  ((step14 m c main_arg14 (by decide)).trans ((step13 m c main_arg14 (by decide)).trans ((step12 m c main_arg14 (by decide)).trans ((step11 m c main_arg14 (by decide)).trans ((step10 m c main_arg14 (by decide)).trans ((step9 m c main_arg14 (by decide)).trans ((step8 m c main_arg14 (by decide)).trans ((step7 m c main_arg14 (by decide)).trans ((step6 m c main_arg14 (by decide)).trans ((step5 m c main_arg14 (by decide)).trans ((step4 m c main_arg14 (by decide)).trans ((step3 m c main_arg14 (by decide)).trans ((step2 m c main_arg14 (by decide)).trans (step1 m c main_arg14 (by decide))))))))))))))).trans rfl

/-! ## The frame -/

/-- Every weakly fair execution of @main terminates, nothing faulting, with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_arg0 (by decide))).trans (W14_main_arg0 m c),
     (h c _ (mem_uc main_arg1 (by decide))).trans (W14_main_arg1 m c),
     (h c _ (mem_uc main_arg2 (by decide))).trans (W14_main_arg2 m c),
     (h c _ (mem_uc main_arg3 (by decide))).trans (W14_main_arg3 m c),
     (h c _ (mem_uc main_arg4 (by decide))).trans (W14_main_arg4 m c),
     (h c _ (mem_uc main_arg5 (by decide))).trans (W14_main_arg5 m c),
     (h c _ (mem_uc main_arg6 (by decide))).trans (W14_main_arg6 m c),
     (h c _ (mem_uc main_arg7 (by decide))).trans (W14_main_arg7 m c),
     (h c _ (mem_uc main_arg8 (by decide))).trans (W14_main_arg8 m c),
     (h c _ (mem_uc main_arg9 (by decide))).trans (W14_main_arg9 m c),
     (h c _ (mem_uc main_arg10 (by decide))).trans (W14_main_arg10 m c),
     (h c _ (mem_uc main_arg11 (by decide))).trans (W14_main_arg11 m c),
     (h c _ (mem_uc main_arg12 (by decide))).trans (W14_main_arg12 m c),
     (h c _ (mem_uc main_arg13 (by decide))).trans (W14_main_arg13 m c),
     (h c _ (mem_uc main_arg14 (by decide))).trans (W14_main_arg14 m c)⟩)
    (run_all m ρ)

end Cert.Kernel.Hand

end
-- ==== Proof.KI.Reg0.lean ====
/-
  Region 0 of @main, the dense layer's kernel, at the contents `V` the region is entered with.

  At grid point t the body reads block t of the concatenated features (2000 rows of 384), the whole weight matrix and
  the whole bias row, and stores into block t of the result the rectified affine image of those rows; the result's
  staging buffer is loaded once before the store, but the store covers the whole block, so what it holds afterwards
  depends on the three inputs alone. Here: each window's block at a point, what the body leaves in the result's
  buffer, the body's triple, the per-point proof data of the pipeline and the body obligation at every point.
-/
import proofs.«151709_j57303453663856_1_alg».proof.Proof.Gen.KernelIdeal.Launch
import proofs.«151709_j57303453663856_1_alg».proof.Proof.Gen.KernelIdeal.Skeleton
import proofs.«151709_j57303453663856_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether the point fetches it or not (an unfetched
    point's block index has not moved), for any proof data over `V`'s arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, whether the point fetches it or not (an unfetched
    point's block index has not moved), for any proof data over `V`'s arrays whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, whether the point fetches it or not (an unfetched
    point's block index has not moved), for any proof data over `V`'s arrays whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each the whole of its buffer -/

abbrev r0_0 : Rect S2000x384 := Rect.unit (s := S2000x384) ![0, 0] S2000x384.size inb_S2000x384_S2000x384_0_0
abbrev r0_1 : Rect S384x128 := Rect.unit (s := S384x128) ![0, 0] S384x128.size inb_S384x128_S384x128_0_0
abbrev r0_2 : Rect S1x128 := Rect.unit (s := S1x128) ![0, 0] S1x128.size inb_S1x128_S1x128_0_0
abbrev r0_3 : Rect S2000x128 := Rect.unit (s := S2000x128) ![0, 0] S2000x128.size inb_S2000x128_S2000x128_0_0

/-! ## What the body leaves in the result's buffer -/

/-- The result's staging buffer after the body: its one store, of the rectified affine image of the three loads. -/
def out0_3 (x0 : Vec F S2000x384 .f32) (x1 : Vec F S384x128 .f32) (x2 : Vec F S1x128 .f32) : Vec F S2000x128 .f32 :=
  View.canon [⟨r0_3, k0_pay1 (View.ld x0 r0_0) (View.ld x1 r0_1) (View.ld x2 r0_2)⟩]

/-- The one store covers the buffer. -/
theorem cover0_3 (p0 : Vec F S2000x128 .f32) (y : S2000x128.Idx) :
    ∃ pc ∈ ([⟨r0_3, p0⟩] : List (View.Piece (Elt F) S2000x128 .f32)), y ∈ pc.1.set :=
  View.cover_of_tiled [⟨r0_3, p0⟩] S2000x128.size (by rfl) y

/-! ## The body's triple -/

set_option maxHeartbeats 1000000 in
/-- The body on whole staging memrefs, the inputs' at contents `x0 x1 x2` and the result's at anything, runs to the
    continuation holding the inputs' as they were and the result's at `out0_3` of them. -/
theorem sound_kernel0 (c : Dev nD) (E : Set ℕ) (i : grid0.Coords) (arg1 : Memref sig .tc .vmem S2000x384 .f32) (harg1 : arg1.IsWhole)
    (arg2 : Memref sig .tc .vmem S384x128 .f32) (harg2 : arg2.IsWhole) (arg3 : Memref sig .tc .vmem S1x128 .f32) (harg3 : arg3.IsWhole)
    (arg4 : Memref sig .tc .vmem S2000x128 .f32) (harg4 : arg4.IsWhole)
    (x0 : Vec F S2000x384 .f32) (x1 : Vec F S384x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0_tagconv_linear_kernel i arg1 harg1 arg2 harg2 arg3 harg3 arg4 harg4) K := by
  simp only [cc0_tagconv_linear_kernel_eq_skeleton]; unfold cc0_tagconv_linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them; after the body at point `t` each
    input's buffer at its block and the result's at `out0_3` of the input blocks; the scoped rest and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  Region 1 of @main, the dense layer's kernel, at the contents `V` the region is entered with.

  At grid point t the body reads block t of the concatenated features (2000 rows of 384), the whole weight matrix and
  the whole bias row, and stores into block t of the result the rectified affine image of those rows; the result's
  staging buffer is loaded once before the store, but the store covers the whole block, so what it holds afterwards
  depends on the three inputs alone. Here: each window's block at a point, what the body leaves in the result's
  buffer, the body's triple, the per-point proof data of the pipeline and the body obligation at every point.
-/
import proofs.«151709_j57303453663856_1_alg».proof.Proof.Gen.KernelIdeal.Launch
import proofs.«151709_j57303453663856_1_alg».proof.Proof.Gen.KernelIdeal.Skeleton
import proofs.«151709_j57303453663856_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether the point fetches it or not (an unfetched
    point's block index has not moved), for any proof data over `V`'s arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, whether the point fetches it or not (an unfetched
    point's block index has not moved), for any proof data over `V`'s arrays whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, whether the point fetches it or not (an unfetched
    point's block index has not moved), for any proof data over `V`'s arrays whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each the whole of its buffer -/

abbrev r1_0 : Rect S2000x384 := Rect.unit (s := S2000x384) ![0, 0] S2000x384.size inb_S2000x384_S2000x384_0_0
abbrev r1_1 : Rect S384x128 := Rect.unit (s := S384x128) ![0, 0] S384x128.size inb_S384x128_S384x128_0_0
abbrev r1_2 : Rect S1x128 := Rect.unit (s := S1x128) ![0, 0] S1x128.size inb_S1x128_S1x128_0_0
abbrev r1_3 : Rect S2000x128 := Rect.unit (s := S2000x128) ![0, 0] S2000x128.size inb_S2000x128_S2000x128_0_0

/-! ## What the body leaves in the result's buffer -/

/-- The result's staging buffer after the body: its one store, of the rectified affine image of the three loads. -/
def out1_3 (x0 : Vec F S2000x384 .f32) (x1 : Vec F S384x128 .f32) (x2 : Vec F S1x128 .f32) : Vec F S2000x128 .f32 :=
  View.canon [⟨r1_3, k1_pay1 (View.ld x0 r1_0) (View.ld x1 r1_1) (View.ld x2 r1_2)⟩]

/-- The one store covers the buffer. -/
theorem cover1_3 (p0 : Vec F S2000x128 .f32) (y : S2000x128.Idx) :
    ∃ pc ∈ ([⟨r1_3, p0⟩] : List (View.Piece (Elt F) S2000x128 .f32)), y ∈ pc.1.set :=
  View.cover_of_tiled [⟨r1_3, p0⟩] S2000x128.size (by rfl) y

/-! ## The body's triple -/

set_option maxHeartbeats 1000000 in
/-- The body on whole staging memrefs, the inputs' at contents `x0 x1 x2` and the result's at anything, runs to the
    continuation holding the inputs' as they were and the result's at `out1_3` of them. -/
theorem sound_kernel1 (c : Dev nD) (E : Set ℕ) (i : grid1.Coords) (arg1 : Memref sig .tc .vmem S2000x384 .f32) (harg1 : arg1.IsWhole)
    (arg2 : Memref sig .tc .vmem S384x128 .f32) (harg2 : arg2.IsWhole) (arg3 : Memref sig .tc .vmem S1x128 .f32) (harg3 : arg3.IsWhole)
    (arg4 : Memref sig .tc .vmem S2000x128 .f32) (harg4 : arg4.IsWhole)
    (x0 : Vec F S2000x384 .f32) (x1 : Vec F S384x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1_tagconv_linear_kernel i arg1 harg1 arg2 harg2 arg3 harg3 arg4 harg4) K := by
  simp only [cc1_tagconv_linear_kernel_eq_skeleton]; unfold cc1_tagconv_linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them; after the body at point `t` each
    input's buffer at its block and the result's at `out1_3` of the input blocks; the scoped rest and the generator
    register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/-
  Region 2 of @main, the dense layer's kernel, at the contents `V` the region is entered with.

  At grid point t the body reads block t of the concatenated features (2000 rows of 384), the whole weight matrix and
  the whole bias row, and stores into block t of the result the rectified affine image of those rows; the result's
  staging buffer is loaded once before the store, but the store covers the whole block, so what it holds afterwards
  depends on the three inputs alone. Here: each window's block at a point, what the body leaves in the result's
  buffer, the body's triple, the per-point proof data of the pipeline and the body obligation at every point.
-/
import proofs.«151709_j57303453663856_1_alg».proof.Proof.Gen.KernelIdeal.Launch
import proofs.«151709_j57303453663856_1_alg».proof.Proof.Gen.KernelIdeal.Skeleton
import proofs.«151709_j57303453663856_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whether the point fetches it or not (an unfetched
    point's block index has not moved), for any proof data over `V`'s arrays whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, whether the point fetches it or not (an unfetched
    point's block index has not moved), for any proof data over `V`'s arrays whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, whether the point fetches it or not (an unfetched
    point's block index has not moved), for any proof data over `V`'s arrays whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each the whole of its buffer -/

abbrev r2_0 : Rect S2000x384 := Rect.unit (s := S2000x384) ![0, 0] S2000x384.size inb_S2000x384_S2000x384_0_0
abbrev r2_1 : Rect S384x128 := Rect.unit (s := S384x128) ![0, 0] S384x128.size inb_S384x128_S384x128_0_0
abbrev r2_2 : Rect S1x128 := Rect.unit (s := S1x128) ![0, 0] S1x128.size inb_S1x128_S1x128_0_0
abbrev r2_3 : Rect S2000x128 := Rect.unit (s := S2000x128) ![0, 0] S2000x128.size inb_S2000x128_S2000x128_0_0

/-! ## What the body leaves in the result's buffer -/

/-- The result's staging buffer after the body: its one store, of the rectified affine image of the three loads. -/
def out2_3 (x0 : Vec F S2000x384 .f32) (x1 : Vec F S384x128 .f32) (x2 : Vec F S1x128 .f32) : Vec F S2000x128 .f32 :=
  View.canon [⟨r2_3, k2_pay1 (View.ld x0 r2_0) (View.ld x1 r2_1) (View.ld x2 r2_2)⟩]

/-- The one store covers the buffer. -/
theorem cover2_3 (p0 : Vec F S2000x128 .f32) (y : S2000x128.Idx) :
    ∃ pc ∈ ([⟨r2_3, p0⟩] : List (View.Piece (Elt F) S2000x128 .f32)), y ∈ pc.1.set :=
  View.cover_of_tiled [⟨r2_3, p0⟩] S2000x128.size (by rfl) y

/-! ## The body's triple -/

set_option maxHeartbeats 1000000 in
/-- The body on whole staging memrefs, the inputs' at contents `x0 x1 x2` and the result's at anything, runs to the
    continuation holding the inputs' as they were and the result's at `out2_3` of them. -/
theorem sound_kernel2 (c : Dev nD) (E : Set ℕ) (i : grid2.Coords) (arg1 : Memref sig .tc .vmem S2000x384 .f32) (harg1 : arg1.IsWhole)
    (arg2 : Memref sig .tc .vmem S384x128 .f32) (harg2 : arg2.IsWhole) (arg3 : Memref sig .tc .vmem S1x128 .f32) (harg3 : arg3.IsWhole)
    (arg4 : Memref sig .tc .vmem S2000x128 .f32) (harg4 : arg4.IsWhole)
    (x0 : Vec F S2000x384 .f32) (x1 : Vec F S384x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2_tagconv_linear_kernel i arg1 harg1 arg2 harg2 arg3 harg3 arg4 harg4) K := by
  simp only [cc2_tagconv_linear_kernel_eq_skeleton]; unfold cc2_tagconv_linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them; after the body at point `t` each
    input's buffer at its block and the result's at `out2_3` of the input blocks; the scoped rest and the generator
    register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
/-
  Region 3 of @main, the dense layer's kernel, at the contents `V` the region is entered with.

  At grid point t the body reads block t of the concatenated features (2000 rows of 384), the whole weight matrix and
  the whole bias row, and stores into block t of the result the rectified affine image of those rows; the result's
  staging buffer is loaded once before the store, but the store covers the whole block, so what it holds afterwards
  depends on the three inputs alone. Here: each window's block at a point, what the body leaves in the result's
  buffer, the body's triple, the per-point proof data of the pipeline and the body obligation at every point.
-/
import proofs.«151709_j57303453663856_1_alg».proof.Proof.Gen.KernelIdeal.Launch
import proofs.«151709_j57303453663856_1_alg».proof.Proof.Gen.KernelIdeal.Skeleton
import proofs.«151709_j57303453663856_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, whether the point fetches it or not (an unfetched
    point's block index has not moved), for any proof data over `V`'s arrays whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, whether the point fetches it or not (an unfetched
    point's block index has not moved), for any proof data over `V`'s arrays whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, whether the point fetches it or not (an unfetched
    point's block index has not moved), for any proof data over `V`'s arrays whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each the whole of its buffer -/

abbrev r3_0 : Rect S2000x384 := Rect.unit (s := S2000x384) ![0, 0] S2000x384.size inb_S2000x384_S2000x384_0_0
abbrev r3_1 : Rect S384x128 := Rect.unit (s := S384x128) ![0, 0] S384x128.size inb_S384x128_S384x128_0_0
abbrev r3_2 : Rect S1x128 := Rect.unit (s := S1x128) ![0, 0] S1x128.size inb_S1x128_S1x128_0_0
abbrev r3_3 : Rect S2000x128 := Rect.unit (s := S2000x128) ![0, 0] S2000x128.size inb_S2000x128_S2000x128_0_0

/-! ## What the body leaves in the result's buffer -/

/-- The result's staging buffer after the body: its one store, of the rectified affine image of the three loads. -/
def out3_3 (x0 : Vec F S2000x384 .f32) (x1 : Vec F S384x128 .f32) (x2 : Vec F S1x128 .f32) : Vec F S2000x128 .f32 :=
  View.canon [⟨r3_3, k3_pay1 (View.ld x0 r3_0) (View.ld x1 r3_1) (View.ld x2 r3_2)⟩]

/-- The one store covers the buffer. -/
theorem cover3_3 (p0 : Vec F S2000x128 .f32) (y : S2000x128.Idx) :
    ∃ pc ∈ ([⟨r3_3, p0⟩] : List (View.Piece (Elt F) S2000x128 .f32)), y ∈ pc.1.set :=
  View.cover_of_tiled [⟨r3_3, p0⟩] S2000x128.size (by rfl) y

/-! ## The body's triple -/

set_option maxHeartbeats 1000000 in
/-- The body on whole staging memrefs, the inputs' at contents `x0 x1 x2` and the result's at anything, runs to the
    continuation holding the inputs' as they were and the result's at `out3_3` of them. -/
theorem sound_kernel3 (c : Dev nD) (E : Set ℕ) (i : grid3.Coords) (arg1 : Memref sig .tc .vmem S2000x384 .f32) (harg1 : arg1.IsWhole)
    (arg2 : Memref sig .tc .vmem S384x128 .f32) (harg2 : arg2.IsWhole) (arg3 : Memref sig .tc .vmem S1x128 .f32) (harg3 : arg3.IsWhole)
    (arg4 : Memref sig .tc .vmem S2000x128 .f32) (harg4 : arg4.IsWhole)
    (x0 : Vec F S2000x384 .f32) (x1 : Vec F S384x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3_tagconv_linear_kernel i arg1 harg1 arg2 harg2 arg3 harg3 arg4 harg4) K := by
  simp only [cc3_tagconv_linear_kernel_eq_skeleton]; unfold cc3_tagconv_linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of pipeline 3 on core `c`: the arrays as the region finds them; after the body at point `t` each
    input's buffer at its block and the result's at `out3_3` of the input blocks; the scoped rest and the generator
    register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so the triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Reg4.lean ====
/-
  Region 4 of @main, the dense layer's kernel, at the contents `V` the region is entered with.

  At grid point t the body reads block t of the concatenated features (2000 rows of 384), the whole weight matrix and
  the whole bias row, and stores into block t of the result the rectified affine image of those rows; the result's
  staging buffer is loaded once before the store, but the store covers the whole block, so what it holds afterwards
  depends on the three inputs alone. Here: each window's block at a point, what the body leaves in the result's
  buffer, the body's triple, the per-point proof data of the pipeline and the body obligation at every point.
-/
import proofs.«151709_j57303453663856_1_alg».proof.Proof.Gen.KernelIdeal.Launch
import proofs.«151709_j57303453663856_1_alg».proof.Proof.Gen.KernelIdeal.Skeleton
import proofs.«151709_j57303453663856_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, whether the point fetches it or not (an unfetched
    point's block index has not moved), for any proof data over `V`'s arrays whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every point, whether the point fetches it or not (an unfetched
    point's block index has not moved), for any proof data over `V`'s arrays whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds its block at every point, whether the point fetches it or not (an unfetched
    point's block index has not moved), for any proof data over `V`'s arrays whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each the whole of its buffer -/

abbrev r4_0 : Rect S2000x384 := Rect.unit (s := S2000x384) ![0, 0] S2000x384.size inb_S2000x384_S2000x384_0_0
abbrev r4_1 : Rect S384x128 := Rect.unit (s := S384x128) ![0, 0] S384x128.size inb_S384x128_S384x128_0_0
abbrev r4_2 : Rect S1x128 := Rect.unit (s := S1x128) ![0, 0] S1x128.size inb_S1x128_S1x128_0_0
abbrev r4_3 : Rect S2000x128 := Rect.unit (s := S2000x128) ![0, 0] S2000x128.size inb_S2000x128_S2000x128_0_0

/-! ## What the body leaves in the result's buffer -/

/-- The result's staging buffer after the body: its one store, of the rectified affine image of the three loads. -/
def out4_3 (x0 : Vec F S2000x384 .f32) (x1 : Vec F S384x128 .f32) (x2 : Vec F S1x128 .f32) : Vec F S2000x128 .f32 :=
  View.canon [⟨r4_3, k4_pay1 (View.ld x0 r4_0) (View.ld x1 r4_1) (View.ld x2 r4_2)⟩]

/-- The one store covers the buffer. -/
theorem cover4_3 (p0 : Vec F S2000x128 .f32) (y : S2000x128.Idx) :
    ∃ pc ∈ ([⟨r4_3, p0⟩] : List (View.Piece (Elt F) S2000x128 .f32)), y ∈ pc.1.set :=
  View.cover_of_tiled [⟨r4_3, p0⟩] S2000x128.size (by rfl) y

/-! ## The body's triple -/

set_option maxHeartbeats 1000000 in
/-- The body on whole staging memrefs, the inputs' at contents `x0 x1 x2` and the result's at anything, runs to the
    continuation holding the inputs' as they were and the result's at `out4_3` of them. -/
theorem sound_kernel4 (c : Dev nD) (E : Set ℕ) (i : grid4.Coords) (arg1 : Memref sig .tc .vmem S2000x384 .f32) (harg1 : arg1.IsWhole)
    (arg2 : Memref sig .tc .vmem S384x128 .f32) (harg2 : arg2.IsWhole) (arg3 : Memref sig .tc .vmem S1x128 .f32) (harg3 : arg3.IsWhole)
    (arg4 : Memref sig .tc .vmem S2000x128 .f32) (harg4 : arg4.IsWhole)
    (x0 : Vec F S2000x384 .f32) (x1 : Vec F S384x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4_tagconv_linear_kernel i arg1 harg1 arg2 harg2 arg3 harg3 arg4 harg4) K := by
  simp only [cc4_tagconv_linear_kernel_eq_skeleton]; unfold cc4_tagconv_linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The pipeline's proof data -/

/-- The proof data of pipeline 4 on core `c`: the arrays as the region finds them; after the body at point `t` each
    input's buffer at its block and the result's at `out4_3` of the input blocks; the scoped rest and the generator
    register untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so the triple applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Run.lean ====
/-
  The run of @main: fourteen segments — four stretches of host operations, then five times a dense-layer region and
  the host stretch after it — from the launch to the return.

  `W0 … W14` are the contents of the core's buffers at the segment boundaries, a fold from the launch memory: a host
  stretch applies its operations; a region leaves its result array at what its 25 write-backs fold to and every other
  buffer as entered. Each region is a segment over the thread state "every unscoped buffer at the boundary's
  contents, the generator register at some state, nothing owed". The one run theorem ends with every unscoped buffer
  at `W14`; the frame follows because no segment writes an argument.
-/
import proofs.«151709_j57303453663856_1_alg».proof.Proof.KI.Reg0
import proofs.«151709_j57303453663856_1_alg».proof.Proof.KI.Reg1
import proofs.«151709_j57303453663856_1_alg».proof.Proof.KI.Reg2
import proofs.«151709_j57303453663856_1_alg».proof.Proof.KI.Reg3
import proofs.«151709_j57303453663856_1_alg».proof.Proof.KI.Reg4
import proofs.«151709_j57303453663856_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- Core `c`'s buffers at launch. -/
abbrev W0 : Dev nD → Valuation τ sig (Elt F) := fun c b => m ((c : Dev nD), b)
/-- After `hostOps0`. -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- After `hostOps0_1`. -/
abbrev W2 : Dev nD → Valuation τ sig (Elt F) := fun c => StableHlo.after hostOps0_1 (W1 m c)
/-- The same read at the TensorCore's references. -/
abbrev V2 : (c : Dev nD) → (b : Ref sig .tc) → Buf (Elt F) ((c : Thread nD τ).loc b) := fun c b => W2 m c b
/-- After `hostOps0_2`. -/
abbrev W3 : Dev nD → Valuation τ sig (Elt F) := fun c => StableHlo.after hostOps0_2 (W2 m c)
/-- The same read at the TensorCore's references. -/
abbrev V3 : (c : Dev nD) → (b : Ref sig .tc) → Buf (Elt F) ((c : Thread nD τ).loc b) := fun c b => W3 m c b
/-- After `hostOps0_3`. -/
abbrev W4 : Dev nD → Valuation τ sig (Elt F) := fun c => StableHlo.after hostOps0_3 (W3 m c)
/-- The same read at the TensorCore's references. -/
abbrev V4 : (c : Dev nD) → (b : Ref sig .tc) → Buf (Elt F) ((c : Thread nD τ).loc b) := fun c b => W4 m c b
/-- At region 0's exit: its arrays at what the pipeline leaves (the inputs as entered, the result's write-backs
    folded), every other buffer as entered. -/
def W5 (c : Dev nD) : Valuation τ sig (Elt F) :=
  Pipeline.withArrays spec0 c (W4 m c) fun w => (dat0 (V4 m) c).arrAt w cfg0.N
theorem W5_arr (c : Dev nD) (w : Fin cfg0.W) :
    W5 m c (Proc.devRef .tc (Pipeline.arrRef spec0 w)) = (dat0 (V4 m) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m c (Proc.devRef .tc b) = W4 m c (Proc.devRef .tc b) := by
  unfold W5; exact Pipeline.withArrays_of_ne spec0 c _ _ b hb
abbrev V5 : (c : Dev nD) → (b : Ref sig .tc) → Buf (Elt F) ((c : Thread nD τ).loc b) := fun c b => W5 m c b
theorem hF0 (c : Dev nD) (w : Fin cfg0.W) : (dat0 (V4 m) c).arrAt w cfg0.N = V5 m c (Pipeline.arrRef spec0 w) :=
  (W5_arr m c w).symm
theorem hrest0 (c : Dev nD) : ∀ b, b ∉ Finset.univ.image (Pipeline.arrRef spec0) → V5 m c b = V4 m c b :=
  fun b hb => W5_of_ne m c b fun w e => hb (Finset.mem_image.mpr ⟨w, Finset.mem_univ _, e⟩)
/-- A region changes its result array only: an input array ends as entered, any other buffer is not the region's. -/
theorem W5_keep (c : Dev nD) (b : Ref sig .tc) (hb : b ≠ main_v42) :
    W5 m c (Proc.devRef .tc b) = W4 m c (Proc.devRef .tc b) := by
  by_cases h : ∃ w, Pipeline.arrRef spec0 w = b
  · obtain ⟨w, rfl⟩ := h
    rw [W5_arr]
    have hw : (cfg0.win w).isOut = false := by
      match w with
      | ⟨0, _⟩ => rfl
      | ⟨1, _⟩ => rfl
      | ⟨2, _⟩ => rfl
      | ⟨3, _⟩ => exact absurd rfl hb
    exact ((dat0 (V4 m) c).arrAt_in w hw _).trans (A_eq0 (V4 m) c w)
  · exact W5_of_ne m c b fun w e => h ⟨w, e⟩
/-- After `hostOps1`. -/
abbrev W6 : Dev nD → Valuation τ sig (Elt F) := fun c => StableHlo.after hostOps1 (W5 m c)
/-- The same read at the TensorCore's references. -/
abbrev V6 : (c : Dev nD) → (b : Ref sig .tc) → Buf (Elt F) ((c : Thread nD τ).loc b) := fun c b => W6 m c b
/-- At region 1's exit: its arrays at what the pipeline leaves (the inputs as entered, the result's write-backs
    folded), every other buffer as entered. -/
def W7 (c : Dev nD) : Valuation τ sig (Elt F) :=
  Pipeline.withArrays spec1 c (W6 m c) fun w => (dat1 (V6 m) c).arrAt w cfg1.N
theorem W7_arr (c : Dev nD) (w : Fin cfg1.W) :
    W7 m c (Proc.devRef .tc (Pipeline.arrRef spec1 w)) = (dat1 (V6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
abbrev V7 : (c : Dev nD) → (b : Ref sig .tc) → Buf (Elt F) ((c : Thread nD τ).loc b) := fun c b => W7 m c b
theorem hF1 (c : Dev nD) (w : Fin cfg1.W) : (dat1 (V6 m) c).arrAt w cfg1.N = V7 m c (Pipeline.arrRef spec1 w) :=
  (W7_arr m c w).symm
theorem hrest1 (c : Dev nD) : ∀ b, b ∉ Finset.univ.image (Pipeline.arrRef spec1) → V7 m c b = V6 m c b :=
  fun b hb => W7_of_ne m c b fun w e => hb (Finset.mem_image.mpr ⟨w, Finset.mem_univ _, e⟩)
/-- A region changes its result array only: an input array ends as entered, any other buffer is not the region's. -/
theorem W7_keep (c : Dev nD) (b : Ref sig .tc) (hb : b ≠ main_v73) :
    W7 m c (Proc.devRef .tc b) = W6 m c (Proc.devRef .tc b) := by
  by_cases h : ∃ w, Pipeline.arrRef spec1 w = b
  · obtain ⟨w, rfl⟩ := h
    rw [W7_arr]
    have hw : (cfg1.win w).isOut = false := by
      match w with
      | ⟨0, _⟩ => rfl
      | ⟨1, _⟩ => rfl
      | ⟨2, _⟩ => rfl
      | ⟨3, _⟩ => exact absurd rfl hb
    exact ((dat1 (V6 m) c).arrAt_in w hw _).trans (A_eq1 (V6 m) c w)
  · exact W7_of_ne m c b fun w e => h ⟨w, e⟩
/-- After `hostOps2`. -/
abbrev W8 : Dev nD → Valuation τ sig (Elt F) := fun c => StableHlo.after hostOps2 (W7 m c)
/-- The same read at the TensorCore's references. -/
abbrev V8 : (c : Dev nD) → (b : Ref sig .tc) → Buf (Elt F) ((c : Thread nD τ).loc b) := fun c b => W8 m c b
/-- At region 2's exit: its arrays at what the pipeline leaves (the inputs as entered, the result's write-backs
    folded), every other buffer as entered. -/
def W9 (c : Dev nD) : Valuation τ sig (Elt F) :=
  Pipeline.withArrays spec2 c (W8 m c) fun w => (dat2 (V8 m) c).arrAt w cfg2.N
theorem W9_arr (c : Dev nD) (w : Fin cfg2.W) :
    W9 m c (Proc.devRef .tc (Pipeline.arrRef spec2 w)) = (dat2 (V8 m) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m c (Proc.devRef .tc b) = W8 m c (Proc.devRef .tc b) := by
  unfold W9; exact Pipeline.withArrays_of_ne spec2 c _ _ b hb
abbrev V9 : (c : Dev nD) → (b : Ref sig .tc) → Buf (Elt F) ((c : Thread nD τ).loc b) := fun c b => W9 m c b
theorem hF2 (c : Dev nD) (w : Fin cfg2.W) : (dat2 (V8 m) c).arrAt w cfg2.N = V9 m c (Pipeline.arrRef spec2 w) :=
  (W9_arr m c w).symm
theorem hrest2 (c : Dev nD) : ∀ b, b ∉ Finset.univ.image (Pipeline.arrRef spec2) → V9 m c b = V8 m c b :=
  fun b hb => W9_of_ne m c b fun w e => hb (Finset.mem_image.mpr ⟨w, Finset.mem_univ _, e⟩)
/-- A region changes its result array only: an input array ends as entered, any other buffer is not the region's. -/
theorem W9_keep (c : Dev nD) (b : Ref sig .tc) (hb : b ≠ main_v104) :
    W9 m c (Proc.devRef .tc b) = W8 m c (Proc.devRef .tc b) := by
  by_cases h : ∃ w, Pipeline.arrRef spec2 w = b
  · obtain ⟨w, rfl⟩ := h
    rw [W9_arr]
    have hw : (cfg2.win w).isOut = false := by
      match w with
      | ⟨0, _⟩ => rfl
      | ⟨1, _⟩ => rfl
      | ⟨2, _⟩ => rfl
      | ⟨3, _⟩ => exact absurd rfl hb
    exact ((dat2 (V8 m) c).arrAt_in w hw _).trans (A_eq2 (V8 m) c w)
  · exact W9_of_ne m c b fun w e => h ⟨w, e⟩
/-- After `hostOps3`. -/
abbrev W10 : Dev nD → Valuation τ sig (Elt F) := fun c => StableHlo.after hostOps3 (W9 m c)
/-- The same read at the TensorCore's references. -/
abbrev V10 : (c : Dev nD) → (b : Ref sig .tc) → Buf (Elt F) ((c : Thread nD τ).loc b) := fun c b => W10 m c b
/-- At region 3's exit: its arrays at what the pipeline leaves (the inputs as entered, the result's write-backs
    folded), every other buffer as entered. -/
def W11 (c : Dev nD) : Valuation τ sig (Elt F) :=
  Pipeline.withArrays spec3 c (W10 m c) fun w => (dat3 (V10 m) c).arrAt w cfg3.N
theorem W11_arr (c : Dev nD) (w : Fin cfg3.W) :
    W11 m c (Proc.devRef .tc (Pipeline.arrRef spec3 w)) = (dat3 (V10 m) c).arrAt w cfg3.N := by
  unfold W11; exact Pipeline.withArrays_arr spec3 launch3.win.arr_inj c _ _ w
theorem W11_of_ne (c : Dev nD) (b : Ref sig .tc) (hb : ∀ w, Pipeline.arrRef spec3 w ≠ b) :
    W11 m c (Proc.devRef .tc b) = W10 m c (Proc.devRef .tc b) := by
  unfold W11; exact Pipeline.withArrays_of_ne spec3 c _ _ b hb
abbrev V11 : (c : Dev nD) → (b : Ref sig .tc) → Buf (Elt F) ((c : Thread nD τ).loc b) := fun c b => W11 m c b
theorem hF3 (c : Dev nD) (w : Fin cfg3.W) : (dat3 (V10 m) c).arrAt w cfg3.N = V11 m c (Pipeline.arrRef spec3 w) :=
  (W11_arr m c w).symm
theorem hrest3 (c : Dev nD) : ∀ b, b ∉ Finset.univ.image (Pipeline.arrRef spec3) → V11 m c b = V10 m c b :=
  fun b hb => W11_of_ne m c b fun w e => hb (Finset.mem_image.mpr ⟨w, Finset.mem_univ _, e⟩)
/-- A region changes its result array only: an input array ends as entered, any other buffer is not the region's. -/
theorem W11_keep (c : Dev nD) (b : Ref sig .tc) (hb : b ≠ main_v135) :
    W11 m c (Proc.devRef .tc b) = W10 m c (Proc.devRef .tc b) := by
  by_cases h : ∃ w, Pipeline.arrRef spec3 w = b
  · obtain ⟨w, rfl⟩ := h
    rw [W11_arr]
    have hw : (cfg3.win w).isOut = false := by
      match w with
      | ⟨0, _⟩ => rfl
      | ⟨1, _⟩ => rfl
      | ⟨2, _⟩ => rfl
      | ⟨3, _⟩ => exact absurd rfl hb
    exact ((dat3 (V10 m) c).arrAt_in w hw _).trans (A_eq3 (V10 m) c w)
  · exact W11_of_ne m c b fun w e => h ⟨w, e⟩
/-- After `hostOps4`. -/
abbrev W12 : Dev nD → Valuation τ sig (Elt F) := fun c => StableHlo.after hostOps4 (W11 m c)
/-- The same read at the TensorCore's references. -/
abbrev V12 : (c : Dev nD) → (b : Ref sig .tc) → Buf (Elt F) ((c : Thread nD τ).loc b) := fun c b => W12 m c b
/-- At region 4's exit: its arrays at what the pipeline leaves (the inputs as entered, the result's write-backs
    folded), every other buffer as entered. -/
def W13 (c : Dev nD) : Valuation τ sig (Elt F) :=
  Pipeline.withArrays spec4 c (W12 m c) fun w => (dat4 (V12 m) c).arrAt w cfg4.N
theorem W13_arr (c : Dev nD) (w : Fin cfg4.W) :
    W13 m c (Proc.devRef .tc (Pipeline.arrRef spec4 w)) = (dat4 (V12 m) c).arrAt w cfg4.N := by
  unfold W13; exact Pipeline.withArrays_arr spec4 launch4.win.arr_inj c _ _ w
theorem W13_of_ne (c : Dev nD) (b : Ref sig .tc) (hb : ∀ w, Pipeline.arrRef spec4 w ≠ b) :
    W13 m c (Proc.devRef .tc b) = W12 m c (Proc.devRef .tc b) := by
  unfold W13; exact Pipeline.withArrays_of_ne spec4 c _ _ b hb
abbrev V13 : (c : Dev nD) → (b : Ref sig .tc) → Buf (Elt F) ((c : Thread nD τ).loc b) := fun c b => W13 m c b
theorem hF4 (c : Dev nD) (w : Fin cfg4.W) : (dat4 (V12 m) c).arrAt w cfg4.N = V13 m c (Pipeline.arrRef spec4 w) :=
  (W13_arr m c w).symm
theorem hrest4 (c : Dev nD) : ∀ b, b ∉ Finset.univ.image (Pipeline.arrRef spec4) → V13 m c b = V12 m c b :=
  fun b hb => W13_of_ne m c b fun w e => hb (Finset.mem_image.mpr ⟨w, Finset.mem_univ _, e⟩)
/-- A region changes its result array only: an input array ends as entered, any other buffer is not the region's. -/
theorem W13_keep (c : Dev nD) (b : Ref sig .tc) (hb : b ≠ main_v166) :
    W13 m c (Proc.devRef .tc b) = W12 m c (Proc.devRef .tc b) := by
  by_cases h : ∃ w, Pipeline.arrRef spec4 w = b
  · obtain ⟨w, rfl⟩ := h
    rw [W13_arr]
    have hw : (cfg4.win w).isOut = false := by
      match w with
      | ⟨0, _⟩ => rfl
      | ⟨1, _⟩ => rfl
      | ⟨2, _⟩ => rfl
      | ⟨3, _⟩ => exact absurd rfl hb
    exact ((dat4 (V12 m) c).arrAt_in w hw _).trans (A_eq4 (V12 m) c w)
  · exact W13_of_ne m c b fun w e => h ⟨w, e⟩
/-- After `hostOps5`. -/
abbrev W14 : Dev nD → Valuation τ sig (Elt F) := fun c => StableHlo.after hostOps5 (W13 m c)
/-- The same read at the TensorCore's references. -/
abbrev V14 : (c : Dev nD) → (b : Ref sig .tc) → Buf (Elt F) ((c : Thread nD τ).loc b) := fun c b => W14 m c b

/-! ## The proof data family and the thread state -/

abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V4 m) c
  | ⟨1, _⟩ => fun c => dat1 (V6 m) c
  | ⟨2, _⟩ => fun c => dat2 (V8 m) c
  | ⟨3, _⟩ => fun c => dat3 (V10 m) c
  | ⟨4, _⟩ => fun c => dat4 (V12 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at `W14`, the generator register at some state. -/
abbrev Tₙ (c : Dev nD) : sProp 𝕄 := iprop(StableHlo.held (c : Thread nD τ) (Pipeline.ucRefs τ sig) (W14 m c) ∗ ∃ r, prngReg c r)

/-! ## The regions as segments -/

set_option backward.isDefEq.respectTransparency.types false in
/-- Region 0 over the thread state: entered from every unscoped buffer at `W4`, left at `W5`. Its arrays are split
    out of the unscoped buffers and put back at the exit contents; the generator register goes into the pipeline's
    invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V4 m) c).loose
  hwaits := Pipeline.hwaits_of_owed_zero _ _ _ _ L lv 0 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec0 c (V4 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V4 m c) (V5 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W6`, left at `W7`. Its arrays are split
    out of the unscoped buffers and put back at the exit contents; the generator register goes into the pipeline's
    invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V6 m) c).loose
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (V6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V6 m c) (V7 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W8`, left at `W9`. Its arrays are split
    out of the unscoped buffers and put back at the exit contents; the generator register goes into the pipeline's
    invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V8 m) c).loose
  hwaits := Pipeline.hwaits_of_owed_zero _ _ _ _ L lv 2 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec2 c (V8 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V8 m c) (V9 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W10`, left at `W11`. Its arrays are split
    out of the unscoped buffers and put back at the exit contents; the generator register goes into the pipeline's
    invariant and comes out; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V10 m) c).loose
  hwaits := Pipeline.hwaits_of_owed_zero _ _ _ _ L lv 3 fun _ _ => rfl
  pre c := iprop(StableHlo.held (c : Thread nD τ) (Pipeline.ucRefs τ sig) (W10 m c) ∗ R c)
  post c := iprop(StableHlo.held (c : Thread nD τ) (Pipeline.ucRefs τ sig) (W11 m c) ∗ R c)
  X c := iprop(∃ r, prngReg c r)
  Y c := iprop(∃ r, prngReg c r)
  Z c := Pipeline.unscopedRest (Ix := Unit) (Name := ℕ) (U := UR sig nD τ) (Lvl := ℕ) spec3 c (V10 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V10 m c) (V11 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W12`, left at `W13`. Its arrays are split
    out of the unscoped buffers and put back at the exit contents; the generator register goes into the pipeline's
    invariant and comes out; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V12 m) c).loose
  hwaits := Pipeline.hwaits_of_owed_zero _ _ _ _ L lv 4 fun _ _ => rfl
  pre c := iprop(StableHlo.held (c : Thread nD τ) (Pipeline.ucRefs τ sig) (W12 m c) ∗ R c)
  post c := iprop(StableHlo.held (c : Thread nD τ) (Pipeline.ucRefs τ sig) (W13 m c) ∗ R c)
  X c := iprop(∃ r, prngReg c r)
  Y c := iprop(∃ r, prngReg c r)
  Z c := Pipeline.unscopedRest (Ix := Unit) (Name := ℕ) (U := UR sig nD τ) (Lvl := ℕ) spec4 c (V12 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V12 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V12 m c) (V13 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's fourteen segments in order. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .region (reg0 m),
    .host (hseg hostOps1 hostOps1_sub hostOps1_fresh (W5 m)),
    .region (reg1 m),
    .host (hseg hostOps2 hostOps2_sub hostOps2_fresh (W7 m)),
    .region (reg2 m),
    .host (hseg hostOps3 hostOps3_sub hostOps3_fresh (W9 m)),
    .region (reg3 m),
    .host (hseg hostOps4 hostOps4_sub hostOps4_fresh (W11 m)),
    .region (reg4 m),
    .host (hseg hostOps5 hostOps5_sub hostOps5_fresh (W13 m)) ]

/-- @main is the run of the segments. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    and every final state holds each unscoped buffer at the last boundary's contents `W14`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W14 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m c b)
    (hfin := fun c s' => by
      iintro ⟨⟨Hh, -⟩, HSI⟩
      unfold StableHlo.held
      imodintro
      iapply (pointsTo_read_all (Pipeline.ucRefs τ sig) (fun b => (((c : Thread nD τ)).1, b)) (W14 m c) s')
      isplitl [Hh] <;> iassumption)
    (hQ := fun s h => h)

end Cert.KernelIdeal.Hand

end
-- ==== Proof.KI.Frame.lean ====
/-
  What no segment writes is kept, and the frame.

  A host stretch changes only the buffers its operations write; a region changes only its result array. So a buffer
  that neither writes holds, at any later boundary, what it held at an earlier one — in particular every argument
  holds at the end what it held at launch, which with the run is the frame claim.
-/
import proofs.«151709_j57303453663856_1_alg».proof.Proof.KI.Run

set_option maxRecDepth 16384

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ) (ρ : Dev nD → PrngReg)

/-! ## One segment at a time -/
theorem step1 (c : Dev nD) (b : Ref sig .tc) (h : b ∉ hostOps0_W) :
    W1 m c (Proc.devRef .tc b) = W0 m c (Proc.devRef .tc b) :=
  StableHlo.after_of_writes_sub hostOps0 _ hostOps0_writes h
theorem step2 (c : Dev nD) (b : Ref sig .tc) (h : b ∉ hostOps0_1_W) :
    W2 m c (Proc.devRef .tc b) = W1 m c (Proc.devRef .tc b) :=
  StableHlo.after_of_writes_sub hostOps0_1 _ hostOps0_1_writes h
theorem step3 (c : Dev nD) (b : Ref sig .tc) (h : b ∉ hostOps0_2_W) :
    W3 m c (Proc.devRef .tc b) = W2 m c (Proc.devRef .tc b) :=
  StableHlo.after_of_writes_sub hostOps0_2 _ hostOps0_2_writes h
theorem step4 (c : Dev nD) (b : Ref sig .tc) (h : b ∉ hostOps0_3_W) :
    W4 m c (Proc.devRef .tc b) = W3 m c (Proc.devRef .tc b) :=
  StableHlo.after_of_writes_sub hostOps0_3 _ hostOps0_3_writes h
theorem step5 (c : Dev nD) (b : Ref sig .tc) (h : b ≠ main_v42) :
    W5 m c (Proc.devRef .tc b) = W4 m c (Proc.devRef .tc b) :=
  W5_keep m c b h
theorem step6 (c : Dev nD) (b : Ref sig .tc) (h : b ∉ hostOps1_W) :
    W6 m c (Proc.devRef .tc b) = W5 m c (Proc.devRef .tc b) :=
  StableHlo.after_of_writes_sub hostOps1 _ hostOps1_writes h
theorem step7 (c : Dev nD) (b : Ref sig .tc) (h : b ≠ main_v73) :
    W7 m c (Proc.devRef .tc b) = W6 m c (Proc.devRef .tc b) :=
  W7_keep m c b h
theorem step8 (c : Dev nD) (b : Ref sig .tc) (h : b ∉ hostOps2_W) :
    W8 m c (Proc.devRef .tc b) = W7 m c (Proc.devRef .tc b) :=
  StableHlo.after_of_writes_sub hostOps2 _ hostOps2_writes h
theorem step9 (c : Dev nD) (b : Ref sig .tc) (h : b ≠ main_v104) :
    W9 m c (Proc.devRef .tc b) = W8 m c (Proc.devRef .tc b) :=
  W9_keep m c b h
theorem step10 (c : Dev nD) (b : Ref sig .tc) (h : b ∉ hostOps3_W) :
    W10 m c (Proc.devRef .tc b) = W9 m c (Proc.devRef .tc b) :=
  StableHlo.after_of_writes_sub hostOps3 _ hostOps3_writes h
theorem step11 (c : Dev nD) (b : Ref sig .tc) (h : b ≠ main_v135) :
    W11 m c (Proc.devRef .tc b) = W10 m c (Proc.devRef .tc b) :=
  W11_keep m c b h
theorem step12 (c : Dev nD) (b : Ref sig .tc) (h : b ∉ hostOps4_W) :
    W12 m c (Proc.devRef .tc b) = W11 m c (Proc.devRef .tc b) :=
  StableHlo.after_of_writes_sub hostOps4 _ hostOps4_writes h
theorem step13 (c : Dev nD) (b : Ref sig .tc) (h : b ≠ main_v166) :
    W13 m c (Proc.devRef .tc b) = W12 m c (Proc.devRef .tc b) :=
  W13_keep m c b h
theorem step14 (c : Dev nD) (b : Ref sig .tc) (h : b ∉ hostOps5_W) :
    W14 m c (Proc.devRef .tc b) = W13 m c (Proc.devRef .tc b) :=
  StableHlo.after_of_writes_sub hostOps5 _ hostOps5_writes h

/-! ## The arguments end as launched -/
theorem W14_main_arg0 (c : Dev nD) : W14 m c (Proc.devRef .tc main_arg0) = m ((c : Thread nD τ).loc main_arg0) :=
  ((step14 m c main_arg0 (by decide)).trans ((step13 m c main_arg0 (by decide)).trans ((step12 m c main_arg0 (by decide)).trans ((step11 m c main_arg0 (by decide)).trans ((step10 m c main_arg0 (by decide)).trans ((step9 m c main_arg0 (by decide)).trans ((step8 m c main_arg0 (by decide)).trans ((step7 m c main_arg0 (by decide)).trans ((step6 m c main_arg0 (by decide)).trans ((step5 m c main_arg0 (by decide)).trans ((step4 m c main_arg0 (by decide)).trans ((step3 m c main_arg0 (by decide)).trans ((step2 m c main_arg0 (by decide)).trans (step1 m c main_arg0 (by decide))))))))))))))).trans rfl
theorem W14_main_arg1 (c : Dev nD) : W14 m c (Proc.devRef .tc main_arg1) = m ((c : Thread nD τ).loc main_arg1) :=
  ((step14 m c main_arg1 (by decide)).trans ((step13 m c main_arg1 (by decide)).trans ((step12 m c main_arg1 (by decide)).trans ((step11 m c main_arg1 (by decide)).trans ((step10 m c main_arg1 (by decide)).trans ((step9 m c main_arg1 (by decide)).trans ((step8 m c main_arg1 (by decide)).trans ((step7 m c main_arg1 (by decide)).trans ((step6 m c main_arg1 (by decide)).trans ((step5 m c main_arg1 (by decide)).trans ((step4 m c main_arg1 (by decide)).trans ((step3 m c main_arg1 (by decide)).trans ((step2 m c main_arg1 (by decide)).trans (step1 m c main_arg1 (by decide))))))))))))))).trans rfl
theorem W14_main_arg2 (c : Dev nD) : W14 m c (Proc.devRef .tc main_arg2) = m ((c : Thread nD τ).loc main_arg2) :=
  ((step14 m c main_arg2 (by decide)).trans ((step13 m c main_arg2 (by decide)).trans ((step12 m c main_arg2 (by decide)).trans ((step11 m c main_arg2 (by decide)).trans ((step10 m c main_arg2 (by decide)).trans ((step9 m c main_arg2 (by decide)).trans ((step8 m c main_arg2 (by decide)).trans ((step7 m c main_arg2 (by decide)).trans ((step6 m c main_arg2 (by decide)).trans ((step5 m c main_arg2 (by decide)).trans ((step4 m c main_arg2 (by decide)).trans ((step3 m c main_arg2 (by decide)).trans ((step2 m c main_arg2 (by decide)).trans (step1 m c main_arg2 (by decide))))))))))))))).trans rfl
theorem W14_main_arg3 (c : Dev nD) : W14 m c (Proc.devRef .tc main_arg3) = m ((c : Thread nD τ).loc main_arg3) :=
  ((step14 m c main_arg3 (by decide)).trans ((step13 m c main_arg3 (by decide)).trans ((step12 m c main_arg3 (by decide)).trans ((step11 m c main_arg3 (by decide)).trans ((step10 m c main_arg3 (by decide)).trans ((step9 m c main_arg3 (by decide)).trans ((step8 m c main_arg3 (by decide)).trans ((step7 m c main_arg3 (by decide)).trans ((step6 m c main_arg3 (by decide)).trans ((step5 m c main_arg3 (by decide)).trans ((step4 m c main_arg3 (by decide)).trans ((step3 m c main_arg3 (by decide)).trans ((step2 m c main_arg3 (by decide)).trans (step1 m c main_arg3 (by decide))))))))))))))).trans rfl
theorem W14_main_arg4 (c : Dev nD) : W14 m c (Proc.devRef .tc main_arg4) = m ((c : Thread nD τ).loc main_arg4) :=
  ((step14 m c main_arg4 (by decide)).trans ((step13 m c main_arg4 (by decide)).trans ((step12 m c main_arg4 (by decide)).trans ((step11 m c main_arg4 (by decide)).trans ((step10 m c main_arg4 (by decide)).trans ((step9 m c main_arg4 (by decide)).trans ((step8 m c main_arg4 (by decide)).trans ((step7 m c main_arg4 (by decide)).trans ((step6 m c main_arg4 (by decide)).trans ((step5 m c main_arg4 (by decide)).trans ((step4 m c main_arg4 (by decide)).trans ((step3 m c main_arg4 (by decide)).trans ((step2 m c main_arg4 (by decide)).trans (step1 m c main_arg4 (by decide))))))))))))))).trans rfl
theorem W14_main_arg5 (c : Dev nD) : W14 m c (Proc.devRef .tc main_arg5) = m ((c : Thread nD τ).loc main_arg5) :=
  ((step14 m c main_arg5 (by decide)).trans ((step13 m c main_arg5 (by decide)).trans ((step12 m c main_arg5 (by decide)).trans ((step11 m c main_arg5 (by decide)).trans ((step10 m c main_arg5 (by decide)).trans ((step9 m c main_arg5 (by decide)).trans ((step8 m c main_arg5 (by decide)).trans ((step7 m c main_arg5 (by decide)).trans ((step6 m c main_arg5 (by decide)).trans ((step5 m c main_arg5 (by decide)).trans ((step4 m c main_arg5 (by decide)).trans ((step3 m c main_arg5 (by decide)).trans ((step2 m c main_arg5 (by decide)).trans (step1 m c main_arg5 (by decide))))))))))))))).trans rfl
theorem W14_main_arg6 (c : Dev nD) : W14 m c (Proc.devRef .tc main_arg6) = m ((c : Thread nD τ).loc main_arg6) :=
  ((step14 m c main_arg6 (by decide)).trans ((step13 m c main_arg6 (by decide)).trans ((step12 m c main_arg6 (by decide)).trans ((step11 m c main_arg6 (by decide)).trans ((step10 m c main_arg6 (by decide)).trans ((step9 m c main_arg6 (by decide)).trans ((step8 m c main_arg6 (by decide)).trans ((step7 m c main_arg6 (by decide)).trans ((step6 m c main_arg6 (by decide)).trans ((step5 m c main_arg6 (by decide)).trans ((step4 m c main_arg6 (by decide)).trans ((step3 m c main_arg6 (by decide)).trans ((step2 m c main_arg6 (by decide)).trans (step1 m c main_arg6 (by decide))))))))))))))).trans rfl
theorem W14_main_arg7 (c : Dev nD) : W14 m c (Proc.devRef .tc main_arg7) = m ((c : Thread nD τ).loc main_arg7) :=
  ((step14 m c main_arg7 (by decide)).trans ((step13 m c main_arg7 (by decide)).trans ((step12 m c main_arg7 (by decide)).trans ((step11 m c main_arg7 (by decide)).trans ((step10 m c main_arg7 (by decide)).trans ((step9 m c main_arg7 (by decide)).trans ((step8 m c main_arg7 (by decide)).trans ((step7 m c main_arg7 (by decide)).trans ((step6 m c main_arg7 (by decide)).trans ((step5 m c main_arg7 (by decide)).trans ((step4 m c main_arg7 (by decide)).trans ((step3 m c main_arg7 (by decide)).trans ((step2 m c main_arg7 (by decide)).trans (step1 m c main_arg7 (by decide))))))))))))))).trans rfl
theorem W14_main_arg8 (c : Dev nD) : W14 m c (Proc.devRef .tc main_arg8) = m ((c : Thread nD τ).loc main_arg8) :=
  ((step14 m c main_arg8 (by decide)).trans ((step13 m c main_arg8 (by decide)).trans ((step12 m c main_arg8 (by decide)).trans ((step11 m c main_arg8 (by decide)).trans ((step10 m c main_arg8 (by decide)).trans ((step9 m c main_arg8 (by decide)).trans ((step8 m c main_arg8 (by decide)).trans ((step7 m c main_arg8 (by decide)).trans ((step6 m c main_arg8 (by decide)).trans ((step5 m c main_arg8 (by decide)).trans ((step4 m c main_arg8 (by decide)).trans ((step3 m c main_arg8 (by decide)).trans ((step2 m c main_arg8 (by decide)).trans (step1 m c main_arg8 (by decide))))))))))))))).trans rfl
theorem W14_main_arg9 (c : Dev nD) : W14 m c (Proc.devRef .tc main_arg9) = m ((c : Thread nD τ).loc main_arg9) :=
  ((step14 m c main_arg9 (by decide)).trans ((step13 m c main_arg9 (by decide)).trans ((step12 m c main_arg9 (by decide)).trans ((step11 m c main_arg9 (by decide)).trans ((step10 m c main_arg9 (by decide)).trans ((step9 m c main_arg9 (by decide)).trans ((step8 m c main_arg9 (by decide)).trans ((step7 m c main_arg9 (by decide)).trans ((step6 m c main_arg9 (by decide)).trans ((step5 m c main_arg9 (by decide)).trans ((step4 m c main_arg9 (by decide)).trans ((step3 m c main_arg9 (by decide)).trans ((step2 m c main_arg9 (by decide)).trans (step1 m c main_arg9 (by decide))))))))))))))).trans rfl
theorem W14_main_arg10 (c : Dev nD) : W14 m c (Proc.devRef .tc main_arg10) = m ((c : Thread nD τ).loc main_arg10) :=
  ((step14 m c main_arg10 (by decide)).trans ((step13 m c main_arg10 (by decide)).trans ((step12 m c main_arg10 (by decide)).trans ((step11 m c main_arg10 (by decide)).trans ((step10 m c main_arg10 (by decide)).trans ((step9 m c main_arg10 (by decide)).trans ((step8 m c main_arg10 (by decide)).trans ((step7 m c main_arg10 (by decide)).trans ((step6 m c main_arg10 (by decide)).trans ((step5 m c main_arg10 (by decide)).trans ((step4 m c main_arg10 (by decide)).trans ((step3 m c main_arg10 (by decide)).trans ((step2 m c main_arg10 (by decide)).trans (step1 m c main_arg10 (by decide))))))))))))))).trans rfl
theorem W14_main_arg11 (c : Dev nD) : W14 m c (Proc.devRef .tc main_arg11) = m ((c : Thread nD τ).loc main_arg11) :=
  ((step14 m c main_arg11 (by decide)).trans ((step13 m c main_arg11 (by decide)).trans ((step12 m c main_arg11 (by decide)).trans ((step11 m c main_arg11 (by decide)).trans ((step10 m c main_arg11 (by decide)).trans ((step9 m c main_arg11 (by decide)).trans ((step8 m c main_arg11 (by decide)).trans ((step7 m c main_arg11 (by decide)).trans ((step6 m c main_arg11 (by decide)).trans ((step5 m c main_arg11 (by decide)).trans ((step4 m c main_arg11 (by decide)).trans ((step3 m c main_arg11 (by decide)).trans ((step2 m c main_arg11 (by decide)).trans (step1 m c main_arg11 (by decide))))))))))))))).trans rfl
theorem W14_main_arg12 (c : Dev nD) : W14 m c (Proc.devRef .tc main_arg12) = m ((c : Thread nD τ).loc main_arg12) :=
  ((step14 m c main_arg12 (by decide)).trans ((step13 m c main_arg12 (by decide)).trans ((step12 m c main_arg12 (by decide)).trans ((step11 m c main_arg12 (by decide)).trans ((step10 m c main_arg12 (by decide)).trans ((step9 m c main_arg12 (by decide)).trans ((step8 m c main_arg12 (by decide)).trans ((step7 m c main_arg12 (by decide)).trans ((step6 m c main_arg12 (by decide)).trans ((step5 m c main_arg12 (by decide)).trans ((step4 m c main_arg12 (by decide)).trans ((step3 m c main_arg12 (by decide)).trans ((step2 m c main_arg12 (by decide)).trans (step1 m c main_arg12 (by decide))))))))))))))).trans rfl
theorem W14_main_arg13 (c : Dev nD) : W14 m c (Proc.devRef .tc main_arg13) = m ((c : Thread nD τ).loc main_arg13) :=
  ((step14 m c main_arg13 (by decide)).trans ((step13 m c main_arg13 (by decide)).trans ((step12 m c main_arg13 (by decide)).trans ((step11 m c main_arg13 (by decide)).trans ((step10 m c main_arg13 (by decide)).trans ((step9 m c main_arg13 (by decide)).trans ((step8 m c main_arg13 (by decide)).trans ((step7 m c main_arg13 (by decide)).trans ((step6 m c main_arg13 (by decide)).trans ((step5 m c main_arg13 (by decide)).trans ((step4 m c main_arg13 (by decide)).trans ((step3 m c main_arg13 (by decide)).trans ((step2 m c main_arg13 (by decide)).trans (step1 m c main_arg13 (by decide))))))))))))))).trans rfl
theorem W14_main_arg14 (c : Dev nD) : W14 m c (Proc.devRef .tc main_arg14) = m ((c : Thread nD τ).loc main_arg14) :=
  ((step14 m c main_arg14 (by decide)).trans ((step13 m c main_arg14 (by decide)).trans ((step12 m c main_arg14 (by decide)).trans ((step11 m c main_arg14 (by decide)).trans ((step10 m c main_arg14 (by decide)).trans ((step9 m c main_arg14 (by decide)).trans ((step8 m c main_arg14 (by decide)).trans ((step7 m c main_arg14 (by decide)).trans ((step6 m c main_arg14 (by decide)).trans ((step5 m c main_arg14 (by decide)).trans ((step4 m c main_arg14 (by decide)).trans ((step3 m c main_arg14 (by decide)).trans ((step2 m c main_arg14 (by decide)).trans (step1 m c main_arg14 (by decide))))))))))))))).trans rfl

/-! ## The frame -/

/-- Every weakly fair execution of @main terminates, nothing faulting, with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_arg0 (by decide))).trans (W14_main_arg0 m c),
     (h c _ (mem_uc main_arg1 (by decide))).trans (W14_main_arg1 m c),
     (h c _ (mem_uc main_arg2 (by decide))).trans (W14_main_arg2 m c),
     (h c _ (mem_uc main_arg3 (by decide))).trans (W14_main_arg3 m c),
     (h c _ (mem_uc main_arg4 (by decide))).trans (W14_main_arg4 m c),
     (h c _ (mem_uc main_arg5 (by decide))).trans (W14_main_arg5 m c),
     (h c _ (mem_uc main_arg6 (by decide))).trans (W14_main_arg6 m c),
     (h c _ (mem_uc main_arg7 (by decide))).trans (W14_main_arg7 m c),
     (h c _ (mem_uc main_arg8 (by decide))).trans (W14_main_arg8 m c),
     (h c _ (mem_uc main_arg9 (by decide))).trans (W14_main_arg9 m c),
     (h c _ (mem_uc main_arg10 (by decide))).trans (W14_main_arg10 m c),
     (h c _ (mem_uc main_arg11 (by decide))).trans (W14_main_arg11 m c),
     (h c _ (mem_uc main_arg12 (by decide))).trans (W14_main_arg12 m c),
     (h c _ (mem_uc main_arg13 (by decide))).trans (W14_main_arg13 m c),
     (h c _ (mem_uc main_arg14 (by decide))).trans (W14_main_arg14 m c)⟩)
    (run_all m ρ)

end Cert.KernelIdeal.Hand

end
-- ==== Proof.Spec.lean ====
/-
  The common reading of both programs' host arithmetic, as four pure functions of arrays.

  Both programs compute, for node features x : [50000,128], edge endpoints src, dst : [800000] and five weight/bias
  pairs: the cleaned features h₀ (NaN ↦ 0, +∞ ↦ the largest finite float, −∞ ↦ the smallest), the column
  n = [deg > 0] · rsqrt(max(deg, 1)) of the in-degrees deg (a scatter-add of ones at dst), and then five times
      h ↦ relu (cat h · W + b),   cat h = [ h | n·A(n·h) | n·A(n·(n·A(n·h))) ]   (A = gather at src, scatter-add at dst),
  and at the end the column mean of h times Wp plus bp. Here these stages are written once, over the reference
  program's dimension records, so that each program's buffers can be named by them.
-/
import proofs.«151709_j57303453663856_1_alg».proof.ReferenceIdeal

noncomputable section

namespace Cert.Spec

open Idealize.ShloMosaic Cert.ReferenceIdeal
open Cert.ReferenceIdeal.Facts₀ Cert.ReferenceIdeal.Facts

variable {F : FTy → Type} [FloatOps F] [Cert.ReferenceIdeal.Facts]

/-- The contents of a host buffer of shape `s` and element type `e`. -/
abbrev T (F : FTy → Type) (s : Shape) (e : EltTy) := (⟨s, e⟩ : BufTy).Contents (Elt F)

/-- A scalar constant spread over the node-feature shape. -/
def splat (w : BitVec 32) : (T F S50000x128 .f32) :=
  broadcastInDim S50000x128 ![] bcast_S_S50000x128 (constant S_ .f32 w)

/-- The features with NaN replaced by 0, +∞ by the largest finite value and −∞ by the smallest. -/
def clean (x : (T F S50000x128 .f32)) : (T F S50000x128 .f32) :=
  let a : (T F S50000x128 .f32) := select (cmpf .une x x) (splat 0x00000000#32) x
  let b : (T F S50000x128 .f32) := select (cmpf .oeq a (splat 0x7F800000#32)) (splat 0x7F7FFFFF#32) a
  select (cmpf .oeq b (splat 0xFF800000#32)) (splat 0xFF7FFFFF#32) b

/-- The in-degree of every node: ones added at the edges' targets. -/
def deg (dst : (T F S800000 .i32)) : (T F S50000 .f32) :=
  Host.scatterAdd scatter_S50000_S800000x1_S800000_n_0_0_1
    (broadcastInDim S50000 ![] bcast_S_S50000 (constant S_ .f32 0x00000000#32))
    (broadcastInDim S800000x1 ![0] bcast_S800000_S800000x1_0 dst)
    (broadcastInDim S800000 ![] bcast_S_S800000 (constant S_ .f32 0x3F800000#32))

/-- The normalising column: rsqrt (max deg 1) where the degree is positive, 0 elsewhere. -/
def nrm (dst : (T F S800000 .i32)) : (T F S50000x1 .f32) :=
  let d : (T F S50000 .f32) := deg dst
  let pos : (T F S50000 .i1) := cmpf .ogt d (broadcastInDim S50000 ![] bcast_S_S50000 (constant S_ .f32 0x00000000#32))
  let r : (T F S50000 .f32) := Host.rsqrt (maximumf d (broadcastInDim S50000 ![] bcast_S_S50000 (constant S_ .f32 0x3F800000#32)))
  let z : (T F S50000 .f32) := broadcastInDim S50000 ![] bcast_S_S50000 (id (constant S_ .f32 0x00000000#32))
  broadcastInDim S50000x1 ![0] bcast_S50000_S50000x1_0 (select pos r z)

/-- The column spread over the 128 features. -/
def wide (n : (T F S50000x1 .f32)) : (T F S50000x128 .f32) :=
  broadcastInDim S50000x128 ![0, 1] bcast_S50000x1_S50000x128_0_1 n

/-- A source index below zero is counted from the end. -/
def wrap (src : (T F S800000 .i32)) : (T F S800000x1 .i32) :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- One propagation of already-scaled features: the rows at the edges' sources, added at their targets. -/
def hop (y : (T F S50000x128 .f32)) (src dst : (T F S800000 .i32)) : (T F S50000x128 .f32) :=
  Host.scatterAdd scatter_S50000x128_S800000x1_S800000x128_1_0_0_1 (splat 0x00000000#32)
    (broadcastInDim S800000x1 ![0] bcast_S800000_S800000x1_0 dst)
    (Host.gather gather_S50000x128_S800000x1_S800000x128_1_0_n_n_0_1_1128 y (wrap src))

/-- The three feature blocks side by side: h, one normalised propagation of it, and two. -/
def cat (h : (T F S50000x128 .f32)) (n : (T F S50000x1 .f32)) (src dst : (T F S800000 .i32)) : (T F S50000x384 .f32) :=
  let f1 : (T F S50000x128 .f32) := mulf (hop (mulf h (wide n)) src dst) (wide n)
  let f2 : (T F S50000x128 .f32) := mulf (hop (mulf f1 (wide n)) src dst) (wide n)
  concatenate S50000x384 1 [⟨S50000x128, h⟩, ⟨S50000x128, f1⟩, ⟨S50000x128, f2⟩]
    concatenates_S50000x128_S50000x128_S50000x128_S50000x384_d1

/-- The dense layer: the rectified affine image of the concatenated features. -/
def dense (c : (T F S50000x384 .f32)) (W : (T F S384x128 .f32)) (b : (T F S128 .f32)) : (T F S50000x128 .f32) :=
  maximumf
    (addf (Host.dotGeneral dot_S50000x384_S384x128_S50000x128_1_0_0_1_n_n none c W)
      (broadcastInDim S50000x128 ![0, 1] bcast_S1x128_S50000x128_0_1 (broadcastInDim S1x128 ![1] bcast_S128_S1x128_1 b)))
    (splat 0x00000000#32)

/-- The readout: the mean over the nodes, times the projection, plus its bias. -/
def tail (h : (T F S50000x128 .f32)) (Wp : (T F S128x1 .f32)) (bp : (T F S1 .f32)) : (T F S1x1 .f32) :=
  addf
    (Host.dotGeneral dot_S1x128_S128x1_S1x1_1_0_0_1_n_n none
      (Host.divf
        (broadcastInDim S1x128 ![1] bcast_S128_S1x128_1
          (Host.reduceAdd h (constant S_ .f32 0x00000000#32) reducesTo_S50000x128_S128_d0 h_S_))
        (broadcastInDim S1x128 ![] bcast_S_S1x128 (constant S_ .f32 0x47435000#32)))
      Wp)
    (broadcastInDim S1x1 ![1] bcast_S1_S1x1_1 bp)

/-- One layer. -/
def layer (h : (T F S50000x128 .f32)) (n : (T F S50000x1 .f32)) (src dst : (T F S800000 .i32))
    (W : (T F S384x128 .f32)) (b : (T F S128 .f32)) : (T F S50000x128 .f32) :=
  dense (cat h n src dst) W b

/-- The whole network. -/
def model (x : (T F S50000x128 .f32)) (src dst : (T F S800000 .i32))
    (W1 : (T F S384x128 .f32)) (b1 : (T F S128 .f32)) (W2 : (T F S384x128 .f32)) (b2 : (T F S128 .f32))
    (W3 : (T F S384x128 .f32)) (b3 : (T F S128 .f32)) (W4 : (T F S384x128 .f32)) (b4 : (T F S128 .f32))
    (W5 : (T F S384x128 .f32)) (b5 : (T F S128 .f32)) (Wp : (T F S128x1 .f32)) (bp : (T F S1 .f32)) : (T F S1x1 .f32) :=
  let n := nrm dst
  tail (layer (layer (layer (layer (layer (clean x) n src dst W1 b1) n src dst W2 b2) n src dst W3 b3) n src dst W4 b4) n src dst W5 b5) Wp bp

end Cert.Spec

end
-- ==== Proof.LibNary3.lean ====
/-
  A host operation of three operands, read with each operand's contents at its own reference.

  The general read-back of an n-ary operation leaves its operands under a binder, `fun k => F ↑(![x, a, b] k)`, where
  no further result can be rewritten; for a literal family of three references the operands are spelt out here one by
  one (the three-operand companion of the library's four-operand form), together with the read-back tactic that tries
  this form first.
-/
import Idealize.ShloMosaic.Lib.StableHlo.Run

noncomputable section

namespace Cert.Lib

open Idealize.ShloMosaic Idealize.ShloMosaic.StableHlo

variable {τ : Topo} {sig : RefSig} {Val : EltTy → Type}
variable {x a b y : Ref sig .tc}

/-- A three-operand operation's result at its own reference: the function of the three operands' contents, each at its
    own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, spelt for a rewriting pass (the result reference not indexed, as the library's own forms are). -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Cert.Lib

/-- The contents of one buffer after a line of host operations, as the operations' functions of the contents before
    it: the library's read-back, with a three-operand operation read operand by operand. -/
macro "after_results3" : tactic =>
  `(tactic| (simp only [Idealize.ShloMosaic.StableHlo.after_cons, Idealize.ShloMosaic.StableHlo.after_nil]
             repeat (first
               | rw [Idealize.ShloMosaic.StableHlo.nullary_result] | rw [Idealize.ShloMosaic.StableHlo.unary_result]
               | rw [Idealize.ShloMosaic.StableHlo.binary_result] | rw [Idealize.ShloMosaic.StableHlo.ternary_result]
               | rw [Idealize.ShloMosaic.StableHlo.quaternary_result]
               | rw [Idealize.ShloMosaic.StableHlo.reshape_result] | rw [Cert.Lib.nary3_result]
               | rw [Idealize.ShloMosaic.StableHlo.nary_result]
               | (rw [Idealize.ShloMosaic.StableHlo.nullary_result_ne]; rotate_left; decide)
               | (rw [Idealize.ShloMosaic.StableHlo.unary_result_ne]; rotate_left; decide)
               | (rw [Idealize.ShloMosaic.StableHlo.binary_result_ne]; rotate_left; decide)
               | (rw [Idealize.ShloMosaic.StableHlo.ternary_result_ne]; rotate_left; decide)
               | (rw [Idealize.ShloMosaic.StableHlo.quaternary_result_ne]; rotate_left; decide)
               | (rw [Idealize.ShloMosaic.StableHlo.reshape_result_ne]; rotate_left; decide)
               | (rw [Idealize.ShloMosaic.StableHlo.nary_result_ne]; rotate_left; decide))))

/-- The same read-back as ONE rewriting pass, each shared intermediate result visited once: for a line whose
    intermediate results have several consumers each. -/
macro "after_results3_simp" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result',
      Idealize.ShloMosaic.StableHlo.binary_result', Idealize.ShloMosaic.StableHlo.ternary_result',
      Idealize.ShloMosaic.StableHlo.quaternary_result', Idealize.ShloMosaic.StableHlo.reshape_result',
      Cert.Lib.nary3_result',
      Idealize.ShloMosaic.StableHlo.nullary_result_ne', Idealize.ShloMosaic.StableHlo.unary_result_ne',
      Idealize.ShloMosaic.StableHlo.binary_result_ne', Idealize.ShloMosaic.StableHlo.ternary_result_ne',
      Idealize.ShloMosaic.StableHlo.quaternary_result_ne', Idealize.ShloMosaic.StableHlo.reshape_result_ne',
      Idealize.ShloMosaic.StableHlo.nary_result_ne']))

end
-- ==== Proof.KI.Host.lean ====
/-
  The host stretches of the idealized kernel's @main, read as the specification's functions.

  For any contents `U` of the core's buffers, what a stretch leaves in the buffers the next region (or the return)
  reads is a pure function of what `U` held: the cleaned features, the normalising vector (the inverse root of the
  degree where it is positive, zero elsewhere) and its column, the three feature blocks side by side, the bias as a
  row, and at the end the readout. Each statement is the stretch's operations composed, nothing more.
-/
import proofs.«151709_j57303453663856_1_alg».proof.Proof.Spec
import proofs.«151709_j57303453663856_1_alg».proof.Proof.LibNary3
import proofs.«151709_j57303453663856_1_alg».proof.Proof.Gen.KernelIdeal.Launch
import proofs.«151709_j57303453663856_1_alg».proof.Proof.Gen.ReferenceIdeal

set_option maxRecDepth 16384

noncomputable section

namespace Cert.Spec

open Idealize.ShloMosaic Cert.ReferenceIdeal
open Cert.ReferenceIdeal.Facts₀ Cert.ReferenceIdeal.Facts

variable {F : FTy → Type} [FloatOps F]

/-- The normalising vector: rsqrt (max deg 1) where the degree is positive, 0 elsewhere. -/
def nrmv (dst : T F S800000 .i32) : T F S50000 .f32 :=
  let d : T F S50000 .f32 := deg dst
  let pos : T F S50000 .i1 := cmpf .ogt d (broadcastInDim S50000 ![] bcast_S_S50000 (constant S_ .f32 0x00000000#32))
  let r : T F S50000 .f32 := Host.rsqrt (maximumf d (broadcastInDim S50000 ![] bcast_S_S50000 (constant S_ .f32 0x3F800000#32)))
  let z : T F S50000 .f32 := broadcastInDim S50000 ![] bcast_S_S50000 (id (constant S_ .f32 0x00000000#32))
  select pos r z

/-- A vector over the nodes as a column. -/
def col (v : T F S50000 .f32) : T F S50000x1 .f32 := broadcastInDim S50000x1 ![0] bcast_S50000_S50000x1_0 v

/-- The normalising column is the column of the normalising vector. -/
theorem nrm_eq (dst : T F S800000 .i32) : nrm (F := F) dst = col (nrmv dst) := rfl

end Cert.Spec

namespace Cert.KernelIdeal.Hand

open Idealize.ShloMosaic Cert.KernelIdeal Cert.KernelIdeal.Gen
open Cert.KernelIdeal.Facts₀ Cert.KernelIdeal.Facts

variable {F : FTy → Type} [FloatOps F]
variable (U : Valuation τ sig (Elt F))

/-- A TensorCore reference as a device reference. -/
abbrev dr (r : Ref sig .tc) : DevRef τ sig := Proc.devRef .tc r

/-- A bias vector as the one row the kernel's window takes. -/
def row (b : Cert.Spec.T F S128 .f32) : Cert.Spec.T F S1x128 .f32 := fun i => shapeCast S1x128 b Facts₀.shapeCasts_S128_S1x128 i

/-- After the first stretch the feature buffer holds the cleaned features. -/
theorem host0_clean : StableHlo.after hostOps0 U (dr main_v0) = Cert.Spec.clean (F := F) (U (dr main_arg0)) := by
  after_results3
  rfl

/-- After the second and third stretches the buffer of the selected inverse roots holds the normalising vector. -/
theorem host12_nrmv : StableHlo.after hostOps0_2 (StableHlo.after hostOps0_1 U) (dr main_v10) = Cert.Spec.nrmv (F := F) (U (dr main_arg2)) := by
  after_results3
  rfl

/-- The fourth stretch: the normalising vector as a column, -/
theorem host3_col : StableHlo.after hostOps0_3 U (dr main_v11) = Cert.Spec.col (F := F) (U (dr main_v10)) := by
  after_results3
  rfl

/-- the three feature blocks of the first layer side by side, -/
theorem host3_cat : StableHlo.after hostOps0_3 U (dr main_v40)
    = Cert.Spec.cat (F := F) (U (dr main_v0)) (Cert.Spec.col (U (dr main_v10))) (U (dr main_arg1)) (U (dr main_arg2)) := by
  after_results3_simp
  rfl

/-- and the first bias as a row. -/
theorem host3_row : StableHlo.after hostOps0_3 U (dr main_v41) = row (F := F) (U (dr main_arg4)) := by
  after_results3
  rfl

/-- The stretch before region 1: the three feature blocks of the layer side by side, -/
theorem host4_cat : StableHlo.after hostOps1 U (dr main_v71)
    = Cert.Spec.cat (F := F) (U (dr main_v42)) (U (dr main_v11)) (U (dr main_arg1)) (U (dr main_arg2)) := by
  after_results3_simp
  rfl

/-- and its bias as a row. -/
theorem host4_row : StableHlo.after hostOps1 U (dr main_v72) = row (F := F) (U (dr main_arg6)) := by
  after_results3
  rfl

/-- The stretch before region 2: the three feature blocks of the layer side by side, -/
theorem host5_cat : StableHlo.after hostOps2 U (dr main_v102)
    = Cert.Spec.cat (F := F) (U (dr main_v73)) (U (dr main_v11)) (U (dr main_arg1)) (U (dr main_arg2)) := by
  after_results3_simp
  rfl

/-- and its bias as a row. -/
theorem host5_row : StableHlo.after hostOps2 U (dr main_v103) = row (F := F) (U (dr main_arg8)) := by
  after_results3
  rfl

/-- The stretch before region 3: the three feature blocks of the layer side by side, -/
theorem host6_cat : StableHlo.after hostOps3 U (dr main_v133)
    = Cert.Spec.cat (F := F) (U (dr main_v104)) (U (dr main_v11)) (U (dr main_arg1)) (U (dr main_arg2)) := by
  after_results3_simp
  rfl

/-- and its bias as a row. -/
theorem host6_row : StableHlo.after hostOps3 U (dr main_v134) = row (F := F) (U (dr main_arg10)) := by
  after_results3
  rfl

/-- The stretch before region 4: the three feature blocks of the layer side by side, -/
theorem host7_cat : StableHlo.after hostOps4 U (dr main_v164)
    = Cert.Spec.cat (F := F) (U (dr main_v135)) (U (dr main_v11)) (U (dr main_arg1)) (U (dr main_arg2)) := by
  after_results3_simp
  rfl

/-- and its bias as a row. -/
theorem host7_row : StableHlo.after hostOps4 U (dr main_v165) = row (F := F) (U (dr main_arg12)) := by
  after_results3
  rfl

/-- The last stretch: the readout of the last layer's features. -/
theorem host8_tail : StableHlo.after hostOps5 U (dr main_v173)
    = Cert.Spec.tail (F := F) (U (dr main_v166)) (U (dr main_arg13)) (U (dr main_arg14)) := by
  after_results3
  rfl

end Cert.KernelIdeal.Hand

end
-- ==== Proof.LibPlainDot.lean ====
/-
  A plain matrix product, read at one entry.

  A contraction with the dimension numbers of "rows of an [n, k] matrix against columns of a [k, d] matrix" (contract
  axis 1 of the left with axis 0 of the right, no batch axis) sums, at entry (p, o), the products of row p of the left
  operand with column o of the right: the sum over j of lhs(p, j) · rhs(j, o).  This holds for any record of those
  dimension numbers, whatever its extents and formats, and gives the same reading of a matrix unit's product into the
  zero accumulator and of the host's dot_general, on the extended reals.
-/
import Idealize.ShloMosaic.PureOps.Ideal.Laws
import Idealize.ShloMosaic.Lib.ValueIdx

noncomputable section

namespace Cert.LibPlainDot

open Idealize.ShloMosaic Idealize.ShloMosaic.ValueIdx

/-- The sum over the contraction index is the sum over the one contracted coordinate j, the left operand read at
    (p, j) and the right at (j, o). -/
theorem sum_contr_plain {n k d : ℕ} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = [])
    (lhs : (⟨2, ![n, k]⟩ : Shape).Idx → EReal) (rhs : (⟨2, ![k, d]⟩ : Shape).Idx → EReal) (p : Fin n) (o : Fin d) :
    ∑ q : D.contr.Idx, lhs (D.lhsIdx (ix2 p o) q) * rhs (D.rhsIdx (ix2 p o) q) = ∑ j : Fin k, lhs (ix2 p j) * rhs (ix2 j o) := by
  obtain ⟨lc, rc, ln, rn, lb, rb, wf⟩ := D
  simp only at hlc hrc hln hrn hlb hrb
  subst hlc hrc hln hrn hlb hrb
  rw [← Equiv.sum_comp (contrEquiv1 (DotDims.mk [1] [0] [0] [1] [] [] wf) k rfl rfl).symm]
  refine Finset.sum_congr rfl fun j _ => ?_
  have hk := contrEquiv1_symm_val (DotDims.mk [1] [0] [0] [1] [] [] wf) k rfl rfl j
  have el : (DotDims.mk [1] [0] [0] [1] [] [] wf).lhsIdx (ix2 p o) ((contrEquiv1 (DotDims.mk [1] [0] [0] [1] [] [] wf) k rfl rfl).symm j) = ix2 p j :=
    funext fun a => Fin.ext (by
      match a with
      | ⟨0, _⟩ => rfl
      | ⟨1, _⟩ => exact ((DotDims.mk [1] [0] [0] [1] [] [] wf).lhsIdx_val_of_single rfl _ _).trans hk)
  have er : (DotDims.mk [1] [0] [0] [1] [] [] wf).rhsIdx (ix2 p o) ((contrEquiv1 (DotDims.mk [1] [0] [0] [1] [] [] wf) k rfl rfl).symm j) = ix2 j o :=
    funext fun a => Fin.ext (by
      match a with
      | ⟨0, _⟩ => exact ((DotDims.mk [1] [0] [0] [1] [] [] wf).rhsIdx_val_of_single rfl _ _).trans hk
      | ⟨1, _⟩ => rfl)
  rw [el, er]

/-- A matrix unit's product into the zero accumulator, at (p, o). -/
theorem matmul_zero_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision)
    (lhs : FVec Ideal ⟨2, ![n, k]⟩ φ₁) (rhs : FVec Ideal ⟨2, ![k, d]⟩ φ₂) (p : Fin n) (o : Fin d) :
    FloatOps.matmul D prec lhs rhs (constant ⟨2, ![n, d]⟩ .f32 0x00000000#32) (ix2 p o) = ∑ j : Fin k, lhs (ix2 p j) * rhs (ix2 j o) :=
  (Ideal.matmul_constant_zero_apply D prec lhs rhs (ix2 p o)).trans (sum_contr_plain D hlc hrc hln hrn hlb hrb lhs rhs p o)

/-- The host's dot_general, at (p, o). -/
theorem dotGeneral_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision) (sched : HostSchedule)
    (lhs : FVec Ideal ⟨2, ![n, k]⟩ φ₁) (rhs : FVec Ideal ⟨2, ![k, d]⟩ φ₂) (p : Fin n) (o : Fin d) :
    FloatOps.dotGeneral D prec sched lhs rhs (ix2 p o) = ∑ j : Fin k, lhs (ix2 p j) * rhs (ix2 j o) :=
  (Ideal.dotGeneral_apply D prec sched lhs rhs (ix2 p o)).trans (sum_contr_plain D hlc hrc hln hrn hlb hrb lhs rhs p o)

end Cert.LibPlainDot

end
-- ==== Proof.KI.PayIdx.lean ====
/-
  The dense layer's payload, read at one entry, on the extended reals.

  The body's stored value is max (x · w + b, 0): the rows x rounded to a narrower format (the identity on the extended
  reals), multiplied into a zero accumulator by the weights w (rounded likewise), the bias row b added to every row, and
  the result cut off below at zero. At entry (p, o) of the 2000 × 128 block this is
      max ((Σ_j x(p, j) · w(j, o)) + b(0, o), 0),   j over the 384 contracted columns.
  The five regions' payloads are one and the same function.
-/
import proofs.«151709_j57303453663856_1_alg».proof.Proof.Gen.KernelIdeal.Skeleton
import proofs.«151709_j57303453663856_1_alg».proof.Proof.LibPlainDot
import Idealize.ShloMosaic.PureOps.Ideal.Laws
import Idealize.ShloMosaic.Lib.ValueIdx
import Idealize.ShloMosaic.Lib.ValueLayout

noncomputable section

open scoped BigOperators

namespace Cert.KernelIdeal.Hand

open Idealize.ShloMosaic Idealize.ShloMosaic.ValueIdx Cert.KernelIdeal Cert.KernelIdeal.Gen

/-- Entry (p, o) of the payload: row p of the features against column o of the weights, plus the bias row's entry o,
    cut off below at zero. The two casts to the same shape are the identity, the format changes are the identity on the
    extended reals, the product into the zero accumulator is the plain sum over the contracted coordinate, the bias
    row's broadcast reads its one row, and the constant's word denotes zero. -/
theorem k0_pay1_apply (x0 : Vec Ideal S2000x384 .f32) (x1 : Vec Ideal S384x128 .f32) (x2 : Vec Ideal S1x128 .f32)
    (p : Fin 2000) (o : Fin 128) :
    k0_pay1 x0 x1 x2 (ix2 p o) = max ((∑ j : Fin 384, x0 (ix2 p j) * x1 (ix2 j o)) + x2 (ix2 (0 : Fin 1) o)) 0 := by
  unfold k0_pay1
  rw [maximumf_apply, addf_apply, broadcast_apply]
  rw [shapeCast_self, shapeCast_self, broadcastTo_1b_ab_apply]
  have hm := Cert.LibPlainDot.matmul_zero_apply dot_S2000x384_S384x128_S2000x128_1_0_0_1_n_n rfl rfl rfl rfl rfl rfl none
    (truncf FTy.bf16 x0 bitsLt_bf16_f32) (truncf FTy.bf16 x1 bitsLt_bf16_f32) p o
  simp only [truncf_apply] at hm
  exact congrArg₂ max (congrArg (· + x2 (ix2 (0 : Fin 1) o)) hm) Ideal.ofBits_zero_f32

/-- The other four regions' payloads are the same function of their three loads. -/
theorem k1_pay1_eq : @k1_pay1 = @k0_pay1 := rfl
theorem k2_pay1_eq : @k2_pay1 = @k0_pay1 := rfl
theorem k3_pay1_eq : @k3_pay1 = @k0_pay1 := rfl
theorem k4_pay1_eq : @k4_pay1 = @k0_pay1 := rfl

theorem k1_pay1_apply (x0 : Vec Ideal S2000x384 .f32) (x1 : Vec Ideal S384x128 .f32) (x2 : Vec Ideal S1x128 .f32)
    (p : Fin 2000) (o : Fin 128) :
    k1_pay1 x0 x1 x2 (ix2 p o) = max ((∑ j : Fin 384, x0 (ix2 p j) * x1 (ix2 j o)) + x2 (ix2 (0 : Fin 1) o)) 0 := by
  rw [k1_pay1_eq]; exact k0_pay1_apply x0 x1 x2 p o

theorem k2_pay1_apply (x0 : Vec Ideal S2000x384 .f32) (x1 : Vec Ideal S384x128 .f32) (x2 : Vec Ideal S1x128 .f32)
    (p : Fin 2000) (o : Fin 128) :
    k2_pay1 x0 x1 x2 (ix2 p o) = max ((∑ j : Fin 384, x0 (ix2 p j) * x1 (ix2 j o)) + x2 (ix2 (0 : Fin 1) o)) 0 := by
  rw [k2_pay1_eq]; exact k0_pay1_apply x0 x1 x2 p o

theorem k3_pay1_apply (x0 : Vec Ideal S2000x384 .f32) (x1 : Vec Ideal S384x128 .f32) (x2 : Vec Ideal S1x128 .f32)
    (p : Fin 2000) (o : Fin 128) :
    k3_pay1 x0 x1 x2 (ix2 p o) = max ((∑ j : Fin 384, x0 (ix2 p j) * x1 (ix2 j o)) + x2 (ix2 (0 : Fin 1) o)) 0 := by
  rw [k3_pay1_eq]; exact k0_pay1_apply x0 x1 x2 p o

theorem k4_pay1_apply (x0 : Vec Ideal S2000x384 .f32) (x1 : Vec Ideal S384x128 .f32) (x2 : Vec Ideal S1x128 .f32)
    (p : Fin 2000) (o : Fin 128) :
    k4_pay1 x0 x1 x2 (ix2 p o) = max ((∑ j : Fin 384, x0 (ix2 p j) * x1 (ix2 j o)) + x2 (ix2 (0 : Fin 1) o)) 0 := by
  rw [k4_pay1_eq]; exact k0_pay1_apply x0 x1 x2 p o

end Cert.KernelIdeal.Hand

end
-- ==== Proof.LibRowBroadcast.lean ====
/-
  Two more `broadcastInDim` forms read at an index: a vector [D] placed as the one row of a [1, D] matrix (the operand's
  axis sent to the result's axis 1), and a [1, D] row spread over N rows. General in the extents and the element type.
-/
import Idealize.ShloMosaic.Lib.ValueIdx
import Idealize.ShloMosaic.Lib.Pipeline.Value

noncomputable section

namespace Cert.LibRowBroadcast

open Idealize.ShloMosaic Idealize.ShloMosaic.ValueIdx

/-- A vector as a row: element (u, o) of the row is element o of the vector (also when D = 1, where the operand's one
    axis is a unit axis read at 0 = o). -/
theorem vec_row_apply {α : Type} {D : ℕ} (h : (⟨1, ![D]⟩ : Shape).BroadcastsInDim ⟨2, ![1, D]⟩ ![1])
    (v : (⟨1, ![D]⟩ : Shape).Idx → α) (u : Fin 1) (o : Fin D) :
    broadcastInDim ⟨2, ![1, D]⟩ ![1] h v (ix2 u o) = v (ix1 o) :=
  broadcastInDim_apply ![1] h v (ix2 u o) (ix1 o) (fun a => by
    match a with
    | ⟨0, _⟩ =>
      show o.val = if D = 1 then 0 else o.val
      split
      · have := o.isLt; omega
      · rfl)

/-- A row spread over N rows: element (p, o) is the row's element (0, o) (the operand's first axis is a unit axis; its
    second is read at the column, also when D = 1). -/
theorem row_mat_apply {α : Type} {N D : ℕ} (h : (⟨2, ![1, D]⟩ : Shape).BroadcastsInDim ⟨2, ![N, D]⟩ ![0, 1])
    (v : (⟨2, ![1, D]⟩ : Shape).Idx → α) (p : Fin N) (o : Fin D) :
    broadcastInDim ⟨2, ![N, D]⟩ ![0, 1] h v (ix2 p o) = v (ix2 (0 : Fin 1) o) :=
  broadcastInDim_apply ![0, 1] h v (ix2 p o) (ix2 (0 : Fin 1) o) (fun a => by
    match a with
    | ⟨0, _⟩ => rfl
    | ⟨1, _⟩ =>
      show o.val = if D = 1 then 0 else o.val
      split
      · have := o.isLt; omega
      · rfl)

end Cert.LibRowBroadcast

end
-- ==== Proof.DenseIdx.lean ====
/-
  The specification's dense layer, read at one entry, on the extended reals.

  dense c W b = max (c · W + b, 0), the bias vector b placed as a row and spread over the 50000 rows. At entry (p, o):
      max ((Σ_j c(p, j) · W(j, o)) + b(o), 0),   j over the 384 contracted columns.
-/
import proofs.«151709_j57303453663856_1_alg».proof.Proof.Spec
import proofs.«151709_j57303453663856_1_alg».proof.Proof.LibPlainDot
import proofs.«151709_j57303453663856_1_alg».proof.Proof.LibRowBroadcast
import Idealize.ShloMosaic.PureOps.Ideal.Laws
import Idealize.ShloMosaic.Lib.ValueIdx
import Idealize.ShloMosaic.Lib.Pipeline.Value

noncomputable section

open scoped BigOperators

namespace Cert.Spec

open Idealize.ShloMosaic Idealize.ShloMosaic.ValueIdx Cert.ReferenceIdeal
open Cert.ReferenceIdeal.Facts₀ Cert.ReferenceIdeal.Facts

variable [Cert.ReferenceIdeal.Facts]

/-- Entry (p, o) of the dense layer: row p of the features against column o of the weights, plus the bias vector's
    entry o, cut off below at zero. The host's contraction is the plain sum over the contracted coordinate, the bias
    vector placed as a row and spread over the rows reads its entry at the column, and the splat constant's word
    denotes zero. -/
theorem dense_apply (c : T Ideal S50000x384 .f32) (W : T Ideal S384x128 .f32) (b : T Ideal S128 .f32)
    (p : Fin 50000) (o : Fin 128) :
    dense (F := Ideal) c W b (ix2 p o) = max ((∑ j : Fin 384, c (ix2 p j) * W (ix2 j o)) + b (ix1 o)) 0 := by
  unfold dense splat
  rw [maximumf_apply, addf_apply]
  rw [Cert.LibRowBroadcast.row_mat_apply, Cert.LibRowBroadcast.vec_row_apply]
  have hd := Cert.LibPlainDot.dotGeneral_apply (φ₁ := .f32) (φ₂ := .f32) dot_S50000x384_S384x128_S50000x128_1_0_0_1_n_n
    rfl rfl rfl rfl rfl rfl none HostSchedule.single c W p o
  have hz : broadcastInDim S50000x128 ![] bcast_S_S50000x128 (constant (F := Ideal) S_ .f32 0x00000000#32) (ix2 p o) = 0 :=
    (broadcastInDim_apply ![] bcast_S_S50000x128 (constant (F := Ideal) S_ .f32 0x00000000#32) (ix2 p o) ix0
      (fun a => a.elim0)).trans Ideal.ofBits_zero_f32
  exact congrArg₂ max (congrArg (· + b (ix1 o)) hd) hz

end Cert.Spec

end
-- ==== Proof.KI.DenseArr0.lean ====
/-
  Region 0 of @main: the result array after the region's write-backs is the specification's dense layer.

  At grid point t the body stores max (x_t · w + b, 0), x_t the 2000 rows of the features from row 2000 t on. Entry
  (p, o) of that block is max ((Σ_j x(2000 t + p, j) · w(j, o)) + b(o), 0): entry (2000 t + p, o) of the dense layer of
  the whole feature array — so every point writes back its block of that one array, the 25 blocks fill the 50000 rows,
  and the array ends holding it.
-/
import proofs.«151709_j57303453663856_1_alg».proof.Proof.KI.Reg0
import proofs.«151709_j57303453663856_1_alg».proof.Proof.KI.PayIdx
import proofs.«151709_j57303453663856_1_alg».proof.Proof.DenseIdx
import Idealize.ShloMosaic.Lib.Pipeline.Value
import Idealize.ShloMosaic.Lib.ValueIdx

noncomputable section

open scoped BigOperators

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable [Cert.ReferenceIdeal.Facts]
variable (V : (c : Dev nD) → (b : Ref sig .tc) → Buf (Elt Ideal) ((c : Thread nD τ).loc b))

/-- The zero offsets of a whole-buffer access, however spelt. -/
theorem zero_offsets0 : (![0, 0] : Fin 2 → Nat) = fun _ => 0 := funext fun a => by fin_cases a <;> rfl

/-- The block indices at a grid point, decided over the grid: the features' and the result's blocks are the point's own
    along the rows, the weights and the bias row are whole. -/
theorem block_indices0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The features' block at point t is rows 2000 t … 2000 t + 1999 of the feature array. -/
theorem features_block0 (c : Dev nD) (t : Fin cfg0.N) (p : Fin 2000) (j : Fin 384) (r : Fin 50000)
    (hr : r.val = 2000 * t.val + p.val) :
    iblk0 V c 0 t (ix2 p j) = (V c main_v40 : S50000x384.Idx → Elt Ideal .f32) (ix2 r j) := by
  obtain ⟨e0, e1, -⟩ := block_indices0 t
  unfold iblk0
  rw [View.read_apply]
  show V c main_v40 _ = V c main_v40 _
  congr 1
  funext a
  apply Fin.ext
  match a with
  | ⟨0, _⟩ => show win0_0.index t (0 : Fin 2) * 2000 + 1 * p.val = r.val; rw [e0, hr]; omega
  | ⟨1, _⟩ => show win0_0.index t (1 : Fin 2) * 384 + 1 * j.val = j.val; rw [e1]; omega

/-- The weights' block at every point is the weight matrix. -/
theorem weights_block0 (c : Dev nD) (t : Fin cfg0.N) (j : Fin 384) (o : Fin 128) :
    iblk0 V c 1 t (ix2 j o) = (V c main_arg3 : S384x128.Idx → Elt Ideal .f32) (ix2 j o) := by
  obtain ⟨-, -, e0, e1, -⟩ := block_indices0 t
  unfold iblk0
  rw [View.read_apply]
  show V c main_arg3 _ = V c main_arg3 _
  congr 1
  funext a
  apply Fin.ext
  match a with
  | ⟨0, _⟩ => show win0_1.index t (0 : Fin 2) * 384 + 1 * j.val = j.val; rw [e0]; omega
  | ⟨1, _⟩ => show win0_1.index t (1 : Fin 2) * 128 + 1 * o.val = o.val; rw [e1]; omega

/-- The bias row's block at every point is the bias row. -/
theorem bias_block0 (c : Dev nD) (t : Fin cfg0.N) (o : Fin 128) :
    iblk0 V c 2 t (ix2 (0 : Fin 1) o) = (V c main_v41 : S1x128.Idx → Elt Ideal .f32) (ix2 (0 : Fin 1) o) := by
  obtain ⟨-, -, -, -, e0, e1, -⟩ := block_indices0 t
  unfold iblk0
  rw [View.read_apply]
  show V c main_v41 _ = V c main_v41 _
  congr 1
  funext a
  apply Fin.ext
  match a with
  | ⟨0, _⟩ => show win0_2.index t (0 : Fin 2) * 1 + 1 * 0 = 0; rw [e0]
  | ⟨1, _⟩ => show win0_2.index t (1 : Fin 2) * 128 + 1 * o.val = o.val; rw [e1]; omega

/-- What point t writes back is block t of the dense layer of the region's three input arrays, the bias row read as the
    bias vector it was reshaped from. -/
theorem flushed_dense0 (c : Dev nD) (bv : Cert.Spec.T Ideal Cert.ReferenceIdeal.S128 .f32)
    (hb : ∀ o : Fin 128, (V c main_v41 : S1x128.Idx → Elt Ideal .f32) (ix2 (0 : Fin 1) o) = bv (ix1 o)) (t : Fin cfg0.N) :
    (dat0 V c).flushed 3 t
      = ((cfg0.win 3).blk t).view.read (Elt Ideal) (Cert.Spec.dense (F := Ideal) (V c main_v40) (V c main_arg3) bv) := by
  show (cfg0.win 3).cut (grid0.coords t) ((dat0 V c).after 3 t) = _
  rw [after0_3]
  unfold out0_3
  rw [View.canon_unit_zero zero_offsets0]
  simp only [View.ld_unit_zero (S := S2000x384) zero_offsets0, View.ld_unit_zero (S := S384x128) zero_offsets0,
    View.ld_unit_zero (S := S1x128) zero_offsets0]
  obtain ⟨-, -, -, -, -, -, e0, e1⟩ := block_indices0 t
  have ht : t.val < 25 := by have h := t.isLt; have hN : cfg0.N = 25 := N_0; omega
  funext y
  obtain ⟨p, o, rfl⟩ : ∃ (p : Fin 2000) (o : Fin 128), y = ix2 p o := ⟨y 0, y 1, eq_ix2 y⟩
  rw [View.read_apply]
  have hemb : ((cfg0.win 3).blk t).view.emb (ix2 p o)
      = (ix2 (⟨2000 * t.val + p.val, by have := p.isLt; omega⟩ : Fin 50000) o : S50000x128.Idx) := by
    funext a
    apply Fin.ext
    match a with
    | ⟨0, _⟩ => show win0_3.index t (0 : Fin 2) * 2000 + 1 * p.val = 2000 * t.val + p.val; rw [e0]; omega
    | ⟨1, _⟩ => show win0_3.index t (1 : Fin 2) * 128 + 1 * o.val = o.val; rw [e1]; omega
  show k0_pay1 (iblk0 V c 0 t) (iblk0 V c 1 t) (iblk0 V c 2 t) (ix2 p o)
    = Cert.Spec.dense (F := Ideal) (V c main_v40) (V c main_arg3) bv (((cfg0.win 3).blk t).view.emb (ix2 p o))
  rw [hemb, k0_pay1_apply, Cert.Spec.dense_apply]
  refine congrArg₂ max (congrArg₂ (· + ·) (Finset.sum_congr rfl fun j _ => ?_) ?_) rfl
  · rw [features_block0 V c t p j ⟨2000 * t.val + p.val, by have := p.isLt; omega⟩ rfl, weights_block0 V c t j o]
  · rw [bias_block0 V c t o, hb o]

/-- An index of the result array is in point t's block iff each coordinate is in the block's range on its axis. -/
theorem mem_result_block0 (t : Fin cfg0.N) (i : S50000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v42).slice (win0_3.rect t)).set ↔ _
  rw [View.set_slice_whole, Rect.mem_set_unit]
  exact Iff.rfl

/-- Every index of the result array is in some point's block: row r is in block r / 2000. -/
theorem result_covered0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 25 := N_0
  refine ⟨⟨(i 0).val / 2000, by rw [hN]; omega⟩, flush0_3 _, ?_⟩
  obtain ⟨-, -, -, -, -, -, e0, e1⟩ := block_indices0 ⟨(i 0).val / 2000, by rw [hN]; omega⟩
  rw [mem_result_block0]
  intro a
  match a with
  | ⟨0, _⟩ =>
    show win0_3.index ⟨(i 0).val / 2000, _⟩ (0 : Fin 2) * 2000 ≤ (i 0).val
      ∧ (i 0).val < win0_3.index ⟨(i 0).val / 2000, _⟩ (0 : Fin 2) * 2000 + 2000
    rw [e0]
    show (i 0).val / 2000 * 2000 ≤ (i 0).val ∧ (i 0).val < (i 0).val / 2000 * 2000 + 2000
    omega
  | ⟨1, _⟩ =>
    show win0_3.index ⟨(i 0).val / 2000, _⟩ (1 : Fin 2) * 128 ≤ (i 1).val
      ∧ (i 1).val < win0_3.index ⟨(i 0).val / 2000, _⟩ (1 : Fin 2) * 128 + 128
    rw [e1]
    omega

/-- THE RESULT ARRAY after the region's 25 write-backs is the dense layer of the region's feature array, weights and
    bias vector (the bias row holding the vector's entries). -/
theorem dense_arr0 (c : Dev nD) (bv : Cert.Spec.T Ideal Cert.ReferenceIdeal.S128 .f32)
    (hb : ∀ o : Fin 128, (V c main_v41 : S1x128.Idx → Elt Ideal .f32) (ix2 (0 : Fin 1) o) = bv (ix1 o)) :
    (dat0 V c).arrAt 3 cfg0.N = Cert.Spec.dense (F := Ideal) (V c main_v40) (V c main_arg3) bv :=
  (dat0 V c).arrAt_eq_of_cover 3 (Cert.Spec.dense (F := Ideal) (V c main_v40) (V c main_arg3) bv)
    (fun t _ => flushed_dense0 V c bv hb t) result_covered0

end Cert.KernelIdeal.Hand

end
-- ==== Proof.KI.DenseArr1.lean ====
/-
  Region 1 of @main: the result array after the region's write-backs is the specification's dense layer.

  At grid point t the body stores max (x_t · w + b, 0), x_t the 2000 rows of the features from row 2000 t on. Entry
  (p, o) of that block is max ((Σ_j x(2000 t + p, j) · w(j, o)) + b(o), 0): entry (2000 t + p, o) of the dense layer of
  the whole feature array — so every point writes back its block of that one array, the 25 blocks fill the 50000 rows,
  and the array ends holding it.
-/
import proofs.«151709_j57303453663856_1_alg».proof.Proof.KI.Reg1
import proofs.«151709_j57303453663856_1_alg».proof.Proof.KI.PayIdx
import proofs.«151709_j57303453663856_1_alg».proof.Proof.DenseIdx
import Idealize.ShloMosaic.Lib.Pipeline.Value
import Idealize.ShloMosaic.Lib.ValueIdx

noncomputable section

open scoped BigOperators

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable [Cert.ReferenceIdeal.Facts]
variable (V : (c : Dev nD) → (b : Ref sig .tc) → Buf (Elt Ideal) ((c : Thread nD τ).loc b))

/-- The zero offsets of a whole-buffer access, however spelt. -/
theorem zero_offsets1 : (![0, 0] : Fin 2 → Nat) = fun _ => 0 := funext fun a => by fin_cases a <;> rfl

/-- The block indices at a grid point, decided over the grid: the features' and the result's blocks are the point's own
    along the rows, the weights and the bias row are whole. -/
theorem block_indices1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The features' block at point t is rows 2000 t … 2000 t + 1999 of the feature array. -/
theorem features_block1 (c : Dev nD) (t : Fin cfg1.N) (p : Fin 2000) (j : Fin 384) (r : Fin 50000)
    (hr : r.val = 2000 * t.val + p.val) :
    iblk1 V c 0 t (ix2 p j) = (V c main_v71 : S50000x384.Idx → Elt Ideal .f32) (ix2 r j) := by
  obtain ⟨e0, e1, -⟩ := block_indices1 t
  unfold iblk1
  rw [View.read_apply]
  show V c main_v71 _ = V c main_v71 _
  congr 1
  funext a
  apply Fin.ext
  match a with
  | ⟨0, _⟩ => show win1_0.index t (0 : Fin 2) * 2000 + 1 * p.val = r.val; rw [e0, hr]; omega
  | ⟨1, _⟩ => show win1_0.index t (1 : Fin 2) * 384 + 1 * j.val = j.val; rw [e1]; omega

/-- The weights' block at every point is the weight matrix. -/
theorem weights_block1 (c : Dev nD) (t : Fin cfg1.N) (j : Fin 384) (o : Fin 128) :
    iblk1 V c 1 t (ix2 j o) = (V c main_arg5 : S384x128.Idx → Elt Ideal .f32) (ix2 j o) := by
  obtain ⟨-, -, e0, e1, -⟩ := block_indices1 t
  unfold iblk1
  rw [View.read_apply]
  show V c main_arg5 _ = V c main_arg5 _
  congr 1
  funext a
  apply Fin.ext
  match a with
  | ⟨0, _⟩ => show win1_1.index t (0 : Fin 2) * 384 + 1 * j.val = j.val; rw [e0]; omega
  | ⟨1, _⟩ => show win1_1.index t (1 : Fin 2) * 128 + 1 * o.val = o.val; rw [e1]; omega

/-- The bias row's block at every point is the bias row. -/
theorem bias_block1 (c : Dev nD) (t : Fin cfg1.N) (o : Fin 128) :
    iblk1 V c 2 t (ix2 (0 : Fin 1) o) = (V c main_v72 : S1x128.Idx → Elt Ideal .f32) (ix2 (0 : Fin 1) o) := by
  obtain ⟨-, -, -, -, e0, e1, -⟩ := block_indices1 t
  unfold iblk1
  rw [View.read_apply]
  show V c main_v72 _ = V c main_v72 _
  congr 1
  funext a
  apply Fin.ext
  match a with
  | ⟨0, _⟩ => show win1_2.index t (0 : Fin 2) * 1 + 1 * 0 = 0; rw [e0]
  | ⟨1, _⟩ => show win1_2.index t (1 : Fin 2) * 128 + 1 * o.val = o.val; rw [e1]; omega

/-- What point t writes back is block t of the dense layer of the region's three input arrays, the bias row read as the
    bias vector it was reshaped from. -/
theorem flushed_dense1 (c : Dev nD) (bv : Cert.Spec.T Ideal Cert.ReferenceIdeal.S128 .f32)
    (hb : ∀ o : Fin 128, (V c main_v72 : S1x128.Idx → Elt Ideal .f32) (ix2 (0 : Fin 1) o) = bv (ix1 o)) (t : Fin cfg1.N) :
    (dat1 V c).flushed 3 t
      = ((cfg1.win 3).blk t).view.read (Elt Ideal) (Cert.Spec.dense (F := Ideal) (V c main_v71) (V c main_arg5) bv) := by
  show (cfg1.win 3).cut (grid1.coords t) ((dat1 V c).after 3 t) = _
  rw [after1_3]
  unfold out1_3
  rw [View.canon_unit_zero zero_offsets1]
  simp only [View.ld_unit_zero (S := S2000x384) zero_offsets1, View.ld_unit_zero (S := S384x128) zero_offsets1,
    View.ld_unit_zero (S := S1x128) zero_offsets1]
  obtain ⟨-, -, -, -, -, -, e0, e1⟩ := block_indices1 t
  have ht : t.val < 25 := by have h := t.isLt; have hN : cfg1.N = 25 := N_1; omega
  funext y
  obtain ⟨p, o, rfl⟩ : ∃ (p : Fin 2000) (o : Fin 128), y = ix2 p o := ⟨y 0, y 1, eq_ix2 y⟩
  rw [View.read_apply]
  have hemb : ((cfg1.win 3).blk t).view.emb (ix2 p o)
      = (ix2 (⟨2000 * t.val + p.val, by have := p.isLt; omega⟩ : Fin 50000) o : S50000x128.Idx) := by
    funext a
    apply Fin.ext
    match a with
    | ⟨0, _⟩ => show win1_3.index t (0 : Fin 2) * 2000 + 1 * p.val = 2000 * t.val + p.val; rw [e0]; omega
    | ⟨1, _⟩ => show win1_3.index t (1 : Fin 2) * 128 + 1 * o.val = o.val; rw [e1]; omega
  show k1_pay1 (iblk1 V c 0 t) (iblk1 V c 1 t) (iblk1 V c 2 t) (ix2 p o)
    = Cert.Spec.dense (F := Ideal) (V c main_v71) (V c main_arg5) bv (((cfg1.win 3).blk t).view.emb (ix2 p o))
  rw [hemb, k1_pay1_apply, Cert.Spec.dense_apply]
  refine congrArg₂ max (congrArg₂ (· + ·) (Finset.sum_congr rfl fun j _ => ?_) ?_) rfl
  · rw [features_block1 V c t p j ⟨2000 * t.val + p.val, by have := p.isLt; omega⟩ rfl, weights_block1 V c t j o]
  · rw [bias_block1 V c t o, hb o]

/-- An index of the result array is in point t's block iff each coordinate is in the block's range on its axis. -/
theorem mem_result_block1 (t : Fin cfg1.N) (i : S50000x128.Idx) :
    i ∈ ((cfg1.win 3).blk t).view.set ↔ ∀ a : Fin 2, win1_3.index t a * S2000x128.size a ≤ (i a).val
      ∧ (i a).val < win1_3.index t a * S2000x128.size a + S2000x128.size a := by
  show i ∈ ((View.whole main_v73).slice (win1_3.rect t)).set ↔ _
  rw [View.set_slice_whole, Rect.mem_set_unit]
  exact Iff.rfl

/-- Every index of the result array is in some point's block: row r is in block r / 2000. -/
theorem result_covered1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 25 := N_1
  refine ⟨⟨(i 0).val / 2000, by rw [hN]; omega⟩, flush1_3 _, ?_⟩
  obtain ⟨-, -, -, -, -, -, e0, e1⟩ := block_indices1 ⟨(i 0).val / 2000, by rw [hN]; omega⟩
  rw [mem_result_block1]
  intro a
  match a with
  | ⟨0, _⟩ =>
    show win1_3.index ⟨(i 0).val / 2000, _⟩ (0 : Fin 2) * 2000 ≤ (i 0).val
      ∧ (i 0).val < win1_3.index ⟨(i 0).val / 2000, _⟩ (0 : Fin 2) * 2000 + 2000
    rw [e0]
    show (i 0).val / 2000 * 2000 ≤ (i 0).val ∧ (i 0).val < (i 0).val / 2000 * 2000 + 2000
    omega
  | ⟨1, _⟩ =>
    show win1_3.index ⟨(i 0).val / 2000, _⟩ (1 : Fin 2) * 128 ≤ (i 1).val
      ∧ (i 1).val < win1_3.index ⟨(i 0).val / 2000, _⟩ (1 : Fin 2) * 128 + 128
    rw [e1]
    omega

/-- THE RESULT ARRAY after the region's 25 write-backs is the dense layer of the region's feature array, weights and
    bias vector (the bias row holding the vector's entries). -/
theorem dense_arr1 (c : Dev nD) (bv : Cert.Spec.T Ideal Cert.ReferenceIdeal.S128 .f32)
    (hb : ∀ o : Fin 128, (V c main_v72 : S1x128.Idx → Elt Ideal .f32) (ix2 (0 : Fin 1) o) = bv (ix1 o)) :
    (dat1 V c).arrAt 3 cfg1.N = Cert.Spec.dense (F := Ideal) (V c main_v71) (V c main_arg5) bv :=
  (dat1 V c).arrAt_eq_of_cover 3 (Cert.Spec.dense (F := Ideal) (V c main_v71) (V c main_arg5) bv)
    (fun t _ => flushed_dense1 V c bv hb t) result_covered1

end Cert.KernelIdeal.Hand

end
-- ==== Proof.KI.DenseArr2.lean ====
/-
  Region 2 of @main: the result array after the region's write-backs is the specification's dense layer.

  At grid point t the body stores max (x_t · w + b, 0), x_t the 2000 rows of the features from row 2000 t on. Entry
  (p, o) of that block is max ((Σ_j x(2000 t + p, j) · w(j, o)) + b(o), 0): entry (2000 t + p, o) of the dense layer of
  the whole feature array — so every point writes back its block of that one array, the 25 blocks fill the 50000 rows,
  and the array ends holding it.
-/
import proofs.«151709_j57303453663856_1_alg».proof.Proof.KI.Reg2
import proofs.«151709_j57303453663856_1_alg».proof.Proof.KI.PayIdx
import proofs.«151709_j57303453663856_1_alg».proof.Proof.DenseIdx
import Idealize.ShloMosaic.Lib.Pipeline.Value
import Idealize.ShloMosaic.Lib.ValueIdx

noncomputable section

open scoped BigOperators

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable [Cert.ReferenceIdeal.Facts]
variable (V : (c : Dev nD) → (b : Ref sig .tc) → Buf (Elt Ideal) ((c : Thread nD τ).loc b))

/-- The zero offsets of a whole-buffer access, however spelt. -/
theorem zero_offsets2 : (![0, 0] : Fin 2 → Nat) = fun _ => 0 := funext fun a => by fin_cases a <;> rfl

/-- The block indices at a grid point, decided over the grid: the features' and the result's blocks are the point's own
    along the rows, the weights and the bias row are whole. -/
theorem block_indices2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The features' block at point t is rows 2000 t … 2000 t + 1999 of the feature array. -/
theorem features_block2 (c : Dev nD) (t : Fin cfg2.N) (p : Fin 2000) (j : Fin 384) (r : Fin 50000)
    (hr : r.val = 2000 * t.val + p.val) :
    iblk2 V c 0 t (ix2 p j) = (V c main_v102 : S50000x384.Idx → Elt Ideal .f32) (ix2 r j) := by
  obtain ⟨e0, e1, -⟩ := block_indices2 t
  unfold iblk2
  rw [View.read_apply]
  show V c main_v102 _ = V c main_v102 _
  congr 1
  funext a
  apply Fin.ext
  match a with
  | ⟨0, _⟩ => show win2_0.index t (0 : Fin 2) * 2000 + 1 * p.val = r.val; rw [e0, hr]; omega
  | ⟨1, _⟩ => show win2_0.index t (1 : Fin 2) * 384 + 1 * j.val = j.val; rw [e1]; omega

/-- The weights' block at every point is the weight matrix. -/
theorem weights_block2 (c : Dev nD) (t : Fin cfg2.N) (j : Fin 384) (o : Fin 128) :
    iblk2 V c 1 t (ix2 j o) = (V c main_arg7 : S384x128.Idx → Elt Ideal .f32) (ix2 j o) := by
  obtain ⟨-, -, e0, e1, -⟩ := block_indices2 t
  unfold iblk2
  rw [View.read_apply]
  show V c main_arg7 _ = V c main_arg7 _
  congr 1
  funext a
  apply Fin.ext
  match a with
  | ⟨0, _⟩ => show win2_1.index t (0 : Fin 2) * 384 + 1 * j.val = j.val; rw [e0]; omega
  | ⟨1, _⟩ => show win2_1.index t (1 : Fin 2) * 128 + 1 * o.val = o.val; rw [e1]; omega

/-- The bias row's block at every point is the bias row. -/
theorem bias_block2 (c : Dev nD) (t : Fin cfg2.N) (o : Fin 128) :
    iblk2 V c 2 t (ix2 (0 : Fin 1) o) = (V c main_v103 : S1x128.Idx → Elt Ideal .f32) (ix2 (0 : Fin 1) o) := by
  obtain ⟨-, -, -, -, e0, e1, -⟩ := block_indices2 t
  unfold iblk2
  rw [View.read_apply]
  show V c main_v103 _ = V c main_v103 _
  congr 1
  funext a
  apply Fin.ext
  match a with
  | ⟨0, _⟩ => show win2_2.index t (0 : Fin 2) * 1 + 1 * 0 = 0; rw [e0]
  | ⟨1, _⟩ => show win2_2.index t (1 : Fin 2) * 128 + 1 * o.val = o.val; rw [e1]; omega

/-- What point t writes back is block t of the dense layer of the region's three input arrays, the bias row read as the
    bias vector it was reshaped from. -/
theorem flushed_dense2 (c : Dev nD) (bv : Cert.Spec.T Ideal Cert.ReferenceIdeal.S128 .f32)
    (hb : ∀ o : Fin 128, (V c main_v103 : S1x128.Idx → Elt Ideal .f32) (ix2 (0 : Fin 1) o) = bv (ix1 o)) (t : Fin cfg2.N) :
    (dat2 V c).flushed 3 t
      = ((cfg2.win 3).blk t).view.read (Elt Ideal) (Cert.Spec.dense (F := Ideal) (V c main_v102) (V c main_arg7) bv) := by
  show (cfg2.win 3).cut (grid2.coords t) ((dat2 V c).after 3 t) = _
  rw [after2_3]
  unfold out2_3
  rw [View.canon_unit_zero zero_offsets2]
  simp only [View.ld_unit_zero (S := S2000x384) zero_offsets2, View.ld_unit_zero (S := S384x128) zero_offsets2,
    View.ld_unit_zero (S := S1x128) zero_offsets2]
  obtain ⟨-, -, -, -, -, -, e0, e1⟩ := block_indices2 t
  have ht : t.val < 25 := by have h := t.isLt; have hN : cfg2.N = 25 := N_2; omega
  funext y
  obtain ⟨p, o, rfl⟩ : ∃ (p : Fin 2000) (o : Fin 128), y = ix2 p o := ⟨y 0, y 1, eq_ix2 y⟩
  rw [View.read_apply]
  have hemb : ((cfg2.win 3).blk t).view.emb (ix2 p o)
      = (ix2 (⟨2000 * t.val + p.val, by have := p.isLt; omega⟩ : Fin 50000) o : S50000x128.Idx) := by
    funext a
    apply Fin.ext
    match a with
    | ⟨0, _⟩ => show win2_3.index t (0 : Fin 2) * 2000 + 1 * p.val = 2000 * t.val + p.val; rw [e0]; omega
    | ⟨1, _⟩ => show win2_3.index t (1 : Fin 2) * 128 + 1 * o.val = o.val; rw [e1]; omega
  show k2_pay1 (iblk2 V c 0 t) (iblk2 V c 1 t) (iblk2 V c 2 t) (ix2 p o)
    = Cert.Spec.dense (F := Ideal) (V c main_v102) (V c main_arg7) bv (((cfg2.win 3).blk t).view.emb (ix2 p o))
  rw [hemb, k2_pay1_apply, Cert.Spec.dense_apply]
  refine congrArg₂ max (congrArg₂ (· + ·) (Finset.sum_congr rfl fun j _ => ?_) ?_) rfl
  · rw [features_block2 V c t p j ⟨2000 * t.val + p.val, by have := p.isLt; omega⟩ rfl, weights_block2 V c t j o]
  · rw [bias_block2 V c t o, hb o]

/-- An index of the result array is in point t's block iff each coordinate is in the block's range on its axis. -/
theorem mem_result_block2 (t : Fin cfg2.N) (i : S50000x128.Idx) :
    i ∈ ((cfg2.win 3).blk t).view.set ↔ ∀ a : Fin 2, win2_3.index t a * S2000x128.size a ≤ (i a).val
      ∧ (i a).val < win2_3.index t a * S2000x128.size a + S2000x128.size a := by
  show i ∈ ((View.whole main_v104).slice (win2_3.rect t)).set ↔ _
  rw [View.set_slice_whole, Rect.mem_set_unit]
  exact Iff.rfl

/-- Every index of the result array is in some point's block: row r is in block r / 2000. -/
theorem result_covered2 (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  have hN : cfg2.N = 25 := N_2
  refine ⟨⟨(i 0).val / 2000, by rw [hN]; omega⟩, flush2_3 _, ?_⟩
  obtain ⟨-, -, -, -, -, -, e0, e1⟩ := block_indices2 ⟨(i 0).val / 2000, by rw [hN]; omega⟩
  rw [mem_result_block2]
  intro a
  match a with
  | ⟨0, _⟩ =>
    show win2_3.index ⟨(i 0).val / 2000, _⟩ (0 : Fin 2) * 2000 ≤ (i 0).val
      ∧ (i 0).val < win2_3.index ⟨(i 0).val / 2000, _⟩ (0 : Fin 2) * 2000 + 2000
    rw [e0]
    show (i 0).val / 2000 * 2000 ≤ (i 0).val ∧ (i 0).val < (i 0).val / 2000 * 2000 + 2000
    omega
  | ⟨1, _⟩ =>
    show win2_3.index ⟨(i 0).val / 2000, _⟩ (1 : Fin 2) * 128 ≤ (i 1).val
      ∧ (i 1).val < win2_3.index ⟨(i 0).val / 2000, _⟩ (1 : Fin 2) * 128 + 128
    rw [e1]
    omega

/-- THE RESULT ARRAY after the region's 25 write-backs is the dense layer of the region's feature array, weights and
    bias vector (the bias row holding the vector's entries). -/
theorem dense_arr2 (c : Dev nD) (bv : Cert.Spec.T Ideal Cert.ReferenceIdeal.S128 .f32)
    (hb : ∀ o : Fin 128, (V c main_v103 : S1x128.Idx → Elt Ideal .f32) (ix2 (0 : Fin 1) o) = bv (ix1 o)) :
    (dat2 V c).arrAt 3 cfg2.N = Cert.Spec.dense (F := Ideal) (V c main_v102) (V c main_arg7) bv :=
  (dat2 V c).arrAt_eq_of_cover 3 (Cert.Spec.dense (F := Ideal) (V c main_v102) (V c main_arg7) bv)
    (fun t _ => flushed_dense2 V c bv hb t) result_covered2

end Cert.KernelIdeal.Hand

end
-- ==== Proof.KI.DenseArr3.lean ====
/-
  Region 3 of @main: the result array after the region's write-backs is the specification's dense layer.

  At grid point t the body stores max (x_t · w + b, 0), x_t the 2000 rows of the features from row 2000 t on. Entry
  (p, o) of that block is max ((Σ_j x(2000 t + p, j) · w(j, o)) + b(o), 0): entry (2000 t + p, o) of the dense layer of
  the whole feature array — so every point writes back its block of that one array, the 25 blocks fill the 50000 rows,
  and the array ends holding it.
-/
import proofs.«151709_j57303453663856_1_alg».proof.Proof.KI.Reg3
import proofs.«151709_j57303453663856_1_alg».proof.Proof.KI.PayIdx
import proofs.«151709_j57303453663856_1_alg».proof.Proof.DenseIdx
import Idealize.ShloMosaic.Lib.Pipeline.Value
import Idealize.ShloMosaic.Lib.ValueIdx

noncomputable section

open scoped BigOperators

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable [Cert.ReferenceIdeal.Facts]
variable (V : (c : Dev nD) → (b : Ref sig .tc) → Buf (Elt Ideal) ((c : Thread nD τ).loc b))

/-- The zero offsets of a whole-buffer access, however spelt. -/
theorem zero_offsets3 : (![0, 0] : Fin 2 → Nat) = fun _ => 0 := funext fun a => by fin_cases a <;> rfl

/-- The block indices at a grid point, decided over the grid: the features' and the result's blocks are the point's own
    along the rows, the weights and the bias row are whole. -/
theorem block_indices3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The features' block at point t is rows 2000 t … 2000 t + 1999 of the feature array. -/
theorem features_block3 (c : Dev nD) (t : Fin cfg3.N) (p : Fin 2000) (j : Fin 384) (r : Fin 50000)
    (hr : r.val = 2000 * t.val + p.val) :
    iblk3 V c 0 t (ix2 p j) = (V c main_v133 : S50000x384.Idx → Elt Ideal .f32) (ix2 r j) := by
  obtain ⟨e0, e1, -⟩ := block_indices3 t
  unfold iblk3
  rw [View.read_apply]
  show V c main_v133 _ = V c main_v133 _
  congr 1
  funext a
  apply Fin.ext
  match a with
  | ⟨0, _⟩ => show win3_0.index t (0 : Fin 2) * 2000 + 1 * p.val = r.val; rw [e0, hr]; omega
  | ⟨1, _⟩ => show win3_0.index t (1 : Fin 2) * 384 + 1 * j.val = j.val; rw [e1]; omega

/-- The weights' block at every point is the weight matrix. -/
theorem weights_block3 (c : Dev nD) (t : Fin cfg3.N) (j : Fin 384) (o : Fin 128) :
    iblk3 V c 1 t (ix2 j o) = (V c main_arg9 : S384x128.Idx → Elt Ideal .f32) (ix2 j o) := by
  obtain ⟨-, -, e0, e1, -⟩ := block_indices3 t
  unfold iblk3
  rw [View.read_apply]
  show V c main_arg9 _ = V c main_arg9 _
  congr 1
  funext a
  apply Fin.ext
  match a with
  | ⟨0, _⟩ => show win3_1.index t (0 : Fin 2) * 384 + 1 * j.val = j.val; rw [e0]; omega
  | ⟨1, _⟩ => show win3_1.index t (1 : Fin 2) * 128 + 1 * o.val = o.val; rw [e1]; omega

/-- The bias row's block at every point is the bias row. -/
theorem bias_block3 (c : Dev nD) (t : Fin cfg3.N) (o : Fin 128) :
    iblk3 V c 2 t (ix2 (0 : Fin 1) o) = (V c main_v134 : S1x128.Idx → Elt Ideal .f32) (ix2 (0 : Fin 1) o) := by
  obtain ⟨-, -, -, -, e0, e1, -⟩ := block_indices3 t
  unfold iblk3
  rw [View.read_apply]
  show V c main_v134 _ = V c main_v134 _
  congr 1
  funext a
  apply Fin.ext
  match a with
  | ⟨0, _⟩ => show win3_2.index t (0 : Fin 2) * 1 + 1 * 0 = 0; rw [e0]
  | ⟨1, _⟩ => show win3_2.index t (1 : Fin 2) * 128 + 1 * o.val = o.val; rw [e1]; omega

/-- What point t writes back is block t of the dense layer of the region's three input arrays, the bias row read as the
    bias vector it was reshaped from. -/
theorem flushed_dense3 (c : Dev nD) (bv : Cert.Spec.T Ideal Cert.ReferenceIdeal.S128 .f32)
    (hb : ∀ o : Fin 128, (V c main_v134 : S1x128.Idx → Elt Ideal .f32) (ix2 (0 : Fin 1) o) = bv (ix1 o)) (t : Fin cfg3.N) :
    (dat3 V c).flushed 3 t
      = ((cfg3.win 3).blk t).view.read (Elt Ideal) (Cert.Spec.dense (F := Ideal) (V c main_v133) (V c main_arg9) bv) := by
  show (cfg3.win 3).cut (grid3.coords t) ((dat3 V c).after 3 t) = _
  rw [after3_3]
  unfold out3_3
  rw [View.canon_unit_zero zero_offsets3]
  simp only [View.ld_unit_zero (S := S2000x384) zero_offsets3, View.ld_unit_zero (S := S384x128) zero_offsets3,
    View.ld_unit_zero (S := S1x128) zero_offsets3]
  obtain ⟨-, -, -, -, -, -, e0, e1⟩ := block_indices3 t
  have ht : t.val < 25 := by have h := t.isLt; have hN : cfg3.N = 25 := N_3; omega
  funext y
  obtain ⟨p, o, rfl⟩ : ∃ (p : Fin 2000) (o : Fin 128), y = ix2 p o := ⟨y 0, y 1, eq_ix2 y⟩
  rw [View.read_apply]
  have hemb : ((cfg3.win 3).blk t).view.emb (ix2 p o)
      = (ix2 (⟨2000 * t.val + p.val, by have := p.isLt; omega⟩ : Fin 50000) o : S50000x128.Idx) := by
    funext a
    apply Fin.ext
    match a with
    | ⟨0, _⟩ => show win3_3.index t (0 : Fin 2) * 2000 + 1 * p.val = 2000 * t.val + p.val; rw [e0]; omega
    | ⟨1, _⟩ => show win3_3.index t (1 : Fin 2) * 128 + 1 * o.val = o.val; rw [e1]; omega
  show k3_pay1 (iblk3 V c 0 t) (iblk3 V c 1 t) (iblk3 V c 2 t) (ix2 p o)
    = Cert.Spec.dense (F := Ideal) (V c main_v133) (V c main_arg9) bv (((cfg3.win 3).blk t).view.emb (ix2 p o))
  rw [hemb, k3_pay1_apply, Cert.Spec.dense_apply]
  refine congrArg₂ max (congrArg₂ (· + ·) (Finset.sum_congr rfl fun j _ => ?_) ?_) rfl
  · rw [features_block3 V c t p j ⟨2000 * t.val + p.val, by have := p.isLt; omega⟩ rfl, weights_block3 V c t j o]
  · rw [bias_block3 V c t o, hb o]

/-- An index of the result array is in point t's block iff each coordinate is in the block's range on its axis. -/
theorem mem_result_block3 (t : Fin cfg3.N) (i : S50000x128.Idx) :
    i ∈ ((cfg3.win 3).blk t).view.set ↔ ∀ a : Fin 2, win3_3.index t a * S2000x128.size a ≤ (i a).val
      ∧ (i a).val < win3_3.index t a * S2000x128.size a + S2000x128.size a := by
  show i ∈ ((View.whole main_v135).slice (win3_3.rect t)).set ↔ _
  rw [View.set_slice_whole, Rect.mem_set_unit]
  exact Iff.rfl

/-- Every index of the result array is in some point's block: row r is in block r / 2000. -/
theorem result_covered3 (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  have hN : cfg3.N = 25 := N_3
  refine ⟨⟨(i 0).val / 2000, by rw [hN]; omega⟩, flush3_3 _, ?_⟩
  obtain ⟨-, -, -, -, -, -, e0, e1⟩ := block_indices3 ⟨(i 0).val / 2000, by rw [hN]; omega⟩
  rw [mem_result_block3]
  intro a
  match a with
  | ⟨0, _⟩ =>
    show win3_3.index ⟨(i 0).val / 2000, _⟩ (0 : Fin 2) * 2000 ≤ (i 0).val
      ∧ (i 0).val < win3_3.index ⟨(i 0).val / 2000, _⟩ (0 : Fin 2) * 2000 + 2000
    rw [e0]
    show (i 0).val / 2000 * 2000 ≤ (i 0).val ∧ (i 0).val < (i 0).val / 2000 * 2000 + 2000
    omega
  | ⟨1, _⟩ =>
    show win3_3.index ⟨(i 0).val / 2000, _⟩ (1 : Fin 2) * 128 ≤ (i 1).val
      ∧ (i 1).val < win3_3.index ⟨(i 0).val / 2000, _⟩ (1 : Fin 2) * 128 + 128
    rw [e1]
    omega

/-- THE RESULT ARRAY after the region's 25 write-backs is the dense layer of the region's feature array, weights and
    bias vector (the bias row holding the vector's entries). -/
theorem dense_arr3 (c : Dev nD) (bv : Cert.Spec.T Ideal Cert.ReferenceIdeal.S128 .f32)
    (hb : ∀ o : Fin 128, (V c main_v134 : S1x128.Idx → Elt Ideal .f32) (ix2 (0 : Fin 1) o) = bv (ix1 o)) :
    (dat3 V c).arrAt 3 cfg3.N = Cert.Spec.dense (F := Ideal) (V c main_v133) (V c main_arg9) bv :=
  (dat3 V c).arrAt_eq_of_cover 3 (Cert.Spec.dense (F := Ideal) (V c main_v133) (V c main_arg9) bv)
    (fun t _ => flushed_dense3 V c bv hb t) result_covered3

end Cert.KernelIdeal.Hand

end
-- ==== Proof.KI.DenseArr4.lean ====
/-
  Region 4 of @main: the result array after the region's write-backs is the specification's dense layer.

  At grid point t the body stores max (x_t · w + b, 0), x_t the 2000 rows of the features from row 2000 t on. Entry
  (p, o) of that block is max ((Σ_j x(2000 t + p, j) · w(j, o)) + b(o), 0): entry (2000 t + p, o) of the dense layer of
  the whole feature array — so every point writes back its block of that one array, the 25 blocks fill the 50000 rows,
  and the array ends holding it.
-/
import proofs.«151709_j57303453663856_1_alg».proof.Proof.KI.Reg4
import proofs.«151709_j57303453663856_1_alg».proof.Proof.KI.PayIdx
import proofs.«151709_j57303453663856_1_alg».proof.Proof.DenseIdx
import Idealize.ShloMosaic.Lib.Pipeline.Value
import Idealize.ShloMosaic.Lib.ValueIdx

noncomputable section

open scoped BigOperators

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable [Cert.ReferenceIdeal.Facts]
variable (V : (c : Dev nD) → (b : Ref sig .tc) → Buf (Elt Ideal) ((c : Thread nD τ).loc b))

/-- The zero offsets of a whole-buffer access, however spelt. -/
theorem zero_offsets4 : (![0, 0] : Fin 2 → Nat) = fun _ => 0 := funext fun a => by fin_cases a <;> rfl

/-- The block indices at a grid point, decided over the grid: the features' and the result's blocks are the point's own
    along the rows, the weights and the bias row are whole. -/
theorem block_indices4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The features' block at point t is rows 2000 t … 2000 t + 1999 of the feature array. -/
theorem features_block4 (c : Dev nD) (t : Fin cfg4.N) (p : Fin 2000) (j : Fin 384) (r : Fin 50000)
    (hr : r.val = 2000 * t.val + p.val) :
    iblk4 V c 0 t (ix2 p j) = (V c main_v164 : S50000x384.Idx → Elt Ideal .f32) (ix2 r j) := by
  obtain ⟨e0, e1, -⟩ := block_indices4 t
  unfold iblk4
  rw [View.read_apply]
  show V c main_v164 _ = V c main_v164 _
  congr 1
  funext a
  apply Fin.ext
  match a with
  | ⟨0, _⟩ => show win4_0.index t (0 : Fin 2) * 2000 + 1 * p.val = r.val; rw [e0, hr]; omega
  | ⟨1, _⟩ => show win4_0.index t (1 : Fin 2) * 384 + 1 * j.val = j.val; rw [e1]; omega

/-- The weights' block at every point is the weight matrix. -/
theorem weights_block4 (c : Dev nD) (t : Fin cfg4.N) (j : Fin 384) (o : Fin 128) :
    iblk4 V c 1 t (ix2 j o) = (V c main_arg11 : S384x128.Idx → Elt Ideal .f32) (ix2 j o) := by
  obtain ⟨-, -, e0, e1, -⟩ := block_indices4 t
  unfold iblk4
  rw [View.read_apply]
  show V c main_arg11 _ = V c main_arg11 _
  congr 1
  funext a
  apply Fin.ext
  match a with
  | ⟨0, _⟩ => show win4_1.index t (0 : Fin 2) * 384 + 1 * j.val = j.val; rw [e0]; omega
  | ⟨1, _⟩ => show win4_1.index t (1 : Fin 2) * 128 + 1 * o.val = o.val; rw [e1]; omega

/-- The bias row's block at every point is the bias row. -/
theorem bias_block4 (c : Dev nD) (t : Fin cfg4.N) (o : Fin 128) :
    iblk4 V c 2 t (ix2 (0 : Fin 1) o) = (V c main_v165 : S1x128.Idx → Elt Ideal .f32) (ix2 (0 : Fin 1) o) := by
  obtain ⟨-, -, -, -, e0, e1, -⟩ := block_indices4 t
  unfold iblk4
  rw [View.read_apply]
  show V c main_v165 _ = V c main_v165 _
  congr 1
  funext a
  apply Fin.ext
  match a with
  | ⟨0, _⟩ => show win4_2.index t (0 : Fin 2) * 1 + 1 * 0 = 0; rw [e0]
  | ⟨1, _⟩ => show win4_2.index t (1 : Fin 2) * 128 + 1 * o.val = o.val; rw [e1]; omega

/-- What point t writes back is block t of the dense layer of the region's three input arrays, the bias row read as the
    bias vector it was reshaped from. -/
theorem flushed_dense4 (c : Dev nD) (bv : Cert.Spec.T Ideal Cert.ReferenceIdeal.S128 .f32)
    (hb : ∀ o : Fin 128, (V c main_v165 : S1x128.Idx → Elt Ideal .f32) (ix2 (0 : Fin 1) o) = bv (ix1 o)) (t : Fin cfg4.N) :
    (dat4 V c).flushed 3 t
      = ((cfg4.win 3).blk t).view.read (Elt Ideal) (Cert.Spec.dense (F := Ideal) (V c main_v164) (V c main_arg11) bv) := by
  show (cfg4.win 3).cut (grid4.coords t) ((dat4 V c).after 3 t) = _
  rw [after4_3]
  unfold out4_3
  rw [View.canon_unit_zero zero_offsets4]
  simp only [View.ld_unit_zero (S := S2000x384) zero_offsets4, View.ld_unit_zero (S := S384x128) zero_offsets4,
    View.ld_unit_zero (S := S1x128) zero_offsets4]
  obtain ⟨-, -, -, -, -, -, e0, e1⟩ := block_indices4 t
  have ht : t.val < 25 := by have h := t.isLt; have hN : cfg4.N = 25 := N_4; omega
  funext y
  obtain ⟨p, o, rfl⟩ : ∃ (p : Fin 2000) (o : Fin 128), y = ix2 p o := ⟨y 0, y 1, eq_ix2 y⟩
  rw [View.read_apply]
  have hemb : ((cfg4.win 3).blk t).view.emb (ix2 p o)
      = (ix2 (⟨2000 * t.val + p.val, by have := p.isLt; omega⟩ : Fin 50000) o : S50000x128.Idx) := by
    funext a
    apply Fin.ext
    match a with
    | ⟨0, _⟩ => show win4_3.index t (0 : Fin 2) * 2000 + 1 * p.val = 2000 * t.val + p.val; rw [e0]; omega
    | ⟨1, _⟩ => show win4_3.index t (1 : Fin 2) * 128 + 1 * o.val = o.val; rw [e1]; omega
  show k4_pay1 (iblk4 V c 0 t) (iblk4 V c 1 t) (iblk4 V c 2 t) (ix2 p o)
    = Cert.Spec.dense (F := Ideal) (V c main_v164) (V c main_arg11) bv (((cfg4.win 3).blk t).view.emb (ix2 p o))
  rw [hemb, k4_pay1_apply, Cert.Spec.dense_apply]
  refine congrArg₂ max (congrArg₂ (· + ·) (Finset.sum_congr rfl fun j _ => ?_) ?_) rfl
  · rw [features_block4 V c t p j ⟨2000 * t.val + p.val, by have := p.isLt; omega⟩ rfl, weights_block4 V c t j o]
  · rw [bias_block4 V c t o, hb o]

/-- An index of the result array is in point t's block iff each coordinate is in the block's range on its axis. -/
theorem mem_result_block4 (t : Fin cfg4.N) (i : S50000x128.Idx) :
    i ∈ ((cfg4.win 3).blk t).view.set ↔ ∀ a : Fin 2, win4_3.index t a * S2000x128.size a ≤ (i a).val
      ∧ (i a).val < win4_3.index t a * S2000x128.size a + S2000x128.size a := by
  show i ∈ ((View.whole main_v166).slice (win4_3.rect t)).set ↔ _
  rw [View.set_slice_whole, Rect.mem_set_unit]
  exact Iff.rfl

/-- Every index of the result array is in some point's block: row r is in block r / 2000. -/
theorem result_covered4 (i : S50000x128.Idx) :
    ∃ t : Fin cfg4.N, (cfg4.win 3).flush t = true ∧ i ∈ ((cfg4.win 3).blk t).view.set := by
  have hi0 : (i 0).val < 50000 := (i 0).isLt
  have hi1 : (i 1).val < 128 := (i 1).isLt
  have hN : cfg4.N = 25 := N_4
  refine ⟨⟨(i 0).val / 2000, by rw [hN]; omega⟩, flush4_3 _, ?_⟩
  obtain ⟨-, -, -, -, -, -, e0, e1⟩ := block_indices4 ⟨(i 0).val / 2000, by rw [hN]; omega⟩
  rw [mem_result_block4]
  intro a
  match a with
  | ⟨0, _⟩ =>
    show win4_3.index ⟨(i 0).val / 2000, _⟩ (0 : Fin 2) * 2000 ≤ (i 0).val
      ∧ (i 0).val < win4_3.index ⟨(i 0).val / 2000, _⟩ (0 : Fin 2) * 2000 + 2000
    rw [e0]
    show (i 0).val / 2000 * 2000 ≤ (i 0).val ∧ (i 0).val < (i 0).val / 2000 * 2000 + 2000
    omega
  | ⟨1, _⟩ =>
    show win4_3.index ⟨(i 0).val / 2000, _⟩ (1 : Fin 2) * 128 ≤ (i 1).val
      ∧ (i 1).val < win4_3.index ⟨(i 0).val / 2000, _⟩ (1 : Fin 2) * 128 + 128
    rw [e1]
    omega

/-- THE RESULT ARRAY after the region's 25 write-backs is the dense layer of the region's feature array, weights and
    bias vector (the bias row holding the vector's entries). -/
theorem dense_arr4 (c : Dev nD) (bv : Cert.Spec.T Ideal Cert.ReferenceIdeal.S128 .f32)
    (hb : ∀ o : Fin 128, (V c main_v165 : S1x128.Idx → Elt Ideal .f32) (ix2 (0 : Fin 1) o) = bv (ix1 o)) :
    (dat4 V c).arrAt 3 cfg4.N = Cert.Spec.dense (F := Ideal) (V c main_v164) (V c main_arg11) bv :=
  (dat4 V c).arrAt_eq_of_cover 3 (Cert.Spec.dense (F := Ideal) (V c main_v164) (V c main_arg11) bv)
    (fun t _ => flushed_dense4 V c bv hb t) result_covered4

end Cert.KernelIdeal.Hand

end
-- ==== Proof.KI.Value.lean ====
/-
  What the idealized kernel's run leaves in its result buffer, by the specification.

  Boundary by boundary: the first four stretches leave the cleaned features h₀, the normalising column n and the first
  layer's three feature blocks [h₀ | n·A(n·h₀) | …]; each region leaves the dense layer of the blocks it was handed,
  with its own weights and bias; each later stretch builds the next layer's blocks from that; the last stretch reads the
  result out. The arguments are kept throughout, so every stage is a function of the launch contents alone, and the
  result buffer ends at the specification's model of the arguments.
-/
import proofs.«151709_j57303453663856_1_alg».proof.Proof.KI.Frame
import proofs.«151709_j57303453663856_1_alg».proof.Proof.KI.Host
import proofs.«151709_j57303453663856_1_alg».proof.Proof.KI.DenseArr0
import proofs.«151709_j57303453663856_1_alg».proof.Proof.KI.DenseArr1
import proofs.«151709_j57303453663856_1_alg».proof.Proof.KI.DenseArr2
import proofs.«151709_j57303453663856_1_alg».proof.Proof.KI.DenseArr3
import proofs.«151709_j57303453663856_1_alg».proof.Proof.KI.DenseArr4
import Idealize.ShloMosaic.Lib.ValueLayout

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (ρ : Dev nD → PrngReg) (c : Dev nD)

/-- A bias row read at its one row is the bias vector. -/
theorem row_apply (b : Cert.Spec.T Ideal S128 .f32) (o : Fin 128) :
    row (F := Ideal) b (ix2 (0 : Fin 1) o) = b (ix1 o) :=
  shapeCast_a_1a_apply b _ 0 o

/-! ## The stages, as functions of the launch contents -/

/-- The cleaned features. -/
def H0 : Cert.Spec.T Ideal Cert.ReferenceIdeal.S50000x128 .f32 := Cert.Spec.clean (F := Ideal) (W0 m c (dr main_arg0))
/-- The normalising column. -/
def Nn : Cert.Spec.T Ideal Cert.ReferenceIdeal.S50000x1 .f32 := Cert.Spec.nrm (F := Ideal) (W0 m c (dr main_arg2))
/-- Layer 1's features. -/
def H1 : Cert.Spec.T Ideal Cert.ReferenceIdeal.S50000x128 .f32 :=
  Cert.Spec.layer (F := Ideal) (H0 m c) (Nn m c) (W0 m c (dr main_arg1)) (W0 m c (dr main_arg2)) (W0 m c (dr main_arg3)) (W0 m c (dr main_arg4))
/-- Layer 2's features. -/
def H2 : Cert.Spec.T Ideal Cert.ReferenceIdeal.S50000x128 .f32 :=
  Cert.Spec.layer (F := Ideal) (H1 m c) (Nn m c) (W0 m c (dr main_arg1)) (W0 m c (dr main_arg2)) (W0 m c (dr main_arg5)) (W0 m c (dr main_arg6))
/-- Layer 3's features. -/
def H3 : Cert.Spec.T Ideal Cert.ReferenceIdeal.S50000x128 .f32 :=
  Cert.Spec.layer (F := Ideal) (H2 m c) (Nn m c) (W0 m c (dr main_arg1)) (W0 m c (dr main_arg2)) (W0 m c (dr main_arg7)) (W0 m c (dr main_arg8))
/-- Layer 4's features. -/
def H4 : Cert.Spec.T Ideal Cert.ReferenceIdeal.S50000x128 .f32 :=
  Cert.Spec.layer (F := Ideal) (H3 m c) (Nn m c) (W0 m c (dr main_arg1)) (W0 m c (dr main_arg2)) (W0 m c (dr main_arg9)) (W0 m c (dr main_arg10))
/-- Layer 5's features. -/
def H5 : Cert.Spec.T Ideal Cert.ReferenceIdeal.S50000x128 .f32 :=
  Cert.Spec.layer (F := Ideal) (H4 m c) (Nn m c) (W0 m c (dr main_arg1)) (W0 m c (dr main_arg2)) (W0 m c (dr main_arg11)) (W0 m c (dr main_arg12))

/-! ## Before the first region -/

theorem v0_eq : W3 m c (dr main_v0) = H0 m c :=
  ((step3 m c main_v0 (by decide)).trans (step2 m c main_v0 (by decide))).trans (host0_clean (W0 m c))

theorem v10_eq : W3 m c (dr main_v10) = Cert.Spec.nrmv (F := Ideal) (W0 m c (dr main_arg2)) :=
  (host12_nrmv (W1 m c)).trans (congrArg (Cert.Spec.nrmv (F := Ideal)) (step1 m c main_arg2 (by decide)))

/-- The normalising column, once written, is kept to the end. -/
theorem n4_eq : W4 m c (dr main_v11) = Nn m c := by
  unfold Nn
  rw [Cert.Spec.nrm_eq]
  exact (host3_col (W3 m c)).trans (congrArg (Cert.Spec.col (F := Ideal)) (v10_eq m c))

theorem cat0_eq : W4 m c (dr main_v40) = Cert.Spec.cat (F := Ideal) (H0 m c) (Nn m c) (W0 m c (dr main_arg1)) (W0 m c (dr main_arg2)) := by
  refine (host3_cat (W3 m c)).trans ?_
  rw [v0_eq, v10_eq, ← Cert.Spec.nrm_eq,
    show W3 m c (dr main_arg1) = W0 m c (dr main_arg1) from ((step3 m c main_arg1 (by decide)).trans ((step2 m c main_arg1 (by decide)).trans (step1 m c main_arg1 (by decide)))),
    show W3 m c (dr main_arg2) = W0 m c (dr main_arg2) from ((step3 m c main_arg2 (by decide)).trans ((step2 m c main_arg2 (by decide)).trans (step1 m c main_arg2 (by decide))))]
  rfl

theorem row0_eq (o : Fin 128) : (V4 m c main_v41 : S1x128.Idx → Elt Ideal .f32) (ix2 (0 : Fin 1) o) = (W0 m c (dr main_arg4)) (ix1 o) := by
  show (W4 m c (dr main_v41) : S1x128.Idx → Elt Ideal .f32) (ix2 (0 : Fin 1) o) = _
  rw [show W4 m c (dr main_v41) = row (F := Ideal) (W3 m c (dr main_arg4)) from host3_row (W3 m c), row_apply,
    show W3 m c (dr main_arg4) = W0 m c (dr main_arg4) from ((step3 m c main_arg4 (by decide)).trans ((step2 m c main_arg4 (by decide)).trans (step1 m c main_arg4 (by decide))))]

/-- Region 0 leaves the dense layer of the blocks it was handed. -/
theorem out0_eq : W5 m c (dr main_v42) = H1 m c := by
  refine (W5_arr m c 3).trans ?_
  refine (dense_arr0 (V4 m) c (W0 m c (dr main_arg4)) (row0_eq m c)).trans ?_
  unfold H1 Cert.Spec.layer
  rw [show V4 m c main_v40 = W4 m c (dr main_v40) from rfl, cat0_eq,
    show V4 m c main_arg3 = W0 m c (dr main_arg3) from ((step4 m c main_arg3 (by decide)).trans ((step3 m c main_arg3 (by decide)).trans ((step2 m c main_arg3 (by decide)).trans (step1 m c main_arg3 (by decide)))))]

/-! ## Between regions 0 and 1 -/

theorem n6_eq : W5 m c (dr main_v11) = Nn m c :=
  (step5 m c main_v11 (by decide)).trans (n4_eq m c)

theorem cat1_eq : W6 m c (dr main_v71) = Cert.Spec.cat (F := Ideal) (H1 m c) (Nn m c) (W0 m c (dr main_arg1)) (W0 m c (dr main_arg2)) := by
  refine (host4_cat (W5 m c)).trans ?_
  rw [out0_eq, n6_eq,
    show W5 m c (dr main_arg1) = W0 m c (dr main_arg1) from ((step5 m c main_arg1 (by decide)).trans ((step4 m c main_arg1 (by decide)).trans ((step3 m c main_arg1 (by decide)).trans ((step2 m c main_arg1 (by decide)).trans (step1 m c main_arg1 (by decide)))))),
    show W5 m c (dr main_arg2) = W0 m c (dr main_arg2) from ((step5 m c main_arg2 (by decide)).trans ((step4 m c main_arg2 (by decide)).trans ((step3 m c main_arg2 (by decide)).trans ((step2 m c main_arg2 (by decide)).trans (step1 m c main_arg2 (by decide))))))]

theorem row1_eq (o : Fin 128) : (V6 m c main_v72 : S1x128.Idx → Elt Ideal .f32) (ix2 (0 : Fin 1) o) = (W0 m c (dr main_arg6)) (ix1 o) := by
  show (W6 m c (dr main_v72) : S1x128.Idx → Elt Ideal .f32) (ix2 (0 : Fin 1) o) = _
  rw [show W6 m c (dr main_v72) = row (F := Ideal) (W5 m c (dr main_arg6)) from host4_row (W5 m c), row_apply,
    show W5 m c (dr main_arg6) = W0 m c (dr main_arg6) from ((step5 m c main_arg6 (by decide)).trans ((step4 m c main_arg6 (by decide)).trans ((step3 m c main_arg6 (by decide)).trans ((step2 m c main_arg6 (by decide)).trans (step1 m c main_arg6 (by decide))))))]

/-- Region 1 leaves the dense layer of the blocks it was handed. -/
theorem out1_eq : W7 m c (dr main_v73) = H2 m c := by
  refine (W7_arr m c 3).trans ?_
  refine (dense_arr1 (V6 m) c (W0 m c (dr main_arg6)) (row1_eq m c)).trans ?_
  unfold H2 Cert.Spec.layer
  rw [show V6 m c main_v71 = W6 m c (dr main_v71) from rfl, cat1_eq,
    show V6 m c main_arg5 = W0 m c (dr main_arg5) from ((step6 m c main_arg5 (by decide)).trans ((step5 m c main_arg5 (by decide)).trans ((step4 m c main_arg5 (by decide)).trans ((step3 m c main_arg5 (by decide)).trans ((step2 m c main_arg5 (by decide)).trans (step1 m c main_arg5 (by decide)))))))]

/-! ## Between regions 1 and 2 -/

theorem n8_eq : W7 m c (dr main_v11) = Nn m c :=
  ((step7 m c main_v11 (by decide)).trans ((step6 m c main_v11 (by decide)).trans (step5 m c main_v11 (by decide)))).trans (n4_eq m c)

theorem cat2_eq : W8 m c (dr main_v102) = Cert.Spec.cat (F := Ideal) (H2 m c) (Nn m c) (W0 m c (dr main_arg1)) (W0 m c (dr main_arg2)) := by
  refine (host5_cat (W7 m c)).trans ?_
  rw [out1_eq, n8_eq,
    show W7 m c (dr main_arg1) = W0 m c (dr main_arg1) from ((step7 m c main_arg1 (by decide)).trans ((step6 m c main_arg1 (by decide)).trans ((step5 m c main_arg1 (by decide)).trans ((step4 m c main_arg1 (by decide)).trans ((step3 m c main_arg1 (by decide)).trans ((step2 m c main_arg1 (by decide)).trans (step1 m c main_arg1 (by decide)))))))),
    show W7 m c (dr main_arg2) = W0 m c (dr main_arg2) from ((step7 m c main_arg2 (by decide)).trans ((step6 m c main_arg2 (by decide)).trans ((step5 m c main_arg2 (by decide)).trans ((step4 m c main_arg2 (by decide)).trans ((step3 m c main_arg2 (by decide)).trans ((step2 m c main_arg2 (by decide)).trans (step1 m c main_arg2 (by decide))))))))]

theorem row2_eq (o : Fin 128) : (V8 m c main_v103 : S1x128.Idx → Elt Ideal .f32) (ix2 (0 : Fin 1) o) = (W0 m c (dr main_arg8)) (ix1 o) := by
  show (W8 m c (dr main_v103) : S1x128.Idx → Elt Ideal .f32) (ix2 (0 : Fin 1) o) = _
  rw [show W8 m c (dr main_v103) = row (F := Ideal) (W7 m c (dr main_arg8)) from host5_row (W7 m c), row_apply,
    show W7 m c (dr main_arg8) = W0 m c (dr main_arg8) from ((step7 m c main_arg8 (by decide)).trans ((step6 m c main_arg8 (by decide)).trans ((step5 m c main_arg8 (by decide)).trans ((step4 m c main_arg8 (by decide)).trans ((step3 m c main_arg8 (by decide)).trans ((step2 m c main_arg8 (by decide)).trans (step1 m c main_arg8 (by decide))))))))]

/-- Region 2 leaves the dense layer of the blocks it was handed. -/
theorem out2_eq : W9 m c (dr main_v104) = H3 m c := by
  refine (W9_arr m c 3).trans ?_
  refine (dense_arr2 (V8 m) c (W0 m c (dr main_arg8)) (row2_eq m c)).trans ?_
  unfold H3 Cert.Spec.layer
  rw [show V8 m c main_v102 = W8 m c (dr main_v102) from rfl, cat2_eq,
    show V8 m c main_arg7 = W0 m c (dr main_arg7) from ((step8 m c main_arg7 (by decide)).trans ((step7 m c main_arg7 (by decide)).trans ((step6 m c main_arg7 (by decide)).trans ((step5 m c main_arg7 (by decide)).trans ((step4 m c main_arg7 (by decide)).trans ((step3 m c main_arg7 (by decide)).trans ((step2 m c main_arg7 (by decide)).trans (step1 m c main_arg7 (by decide)))))))))]

/-! ## Between regions 2 and 3 -/

theorem n10_eq : W9 m c (dr main_v11) = Nn m c :=
  ((step9 m c main_v11 (by decide)).trans ((step8 m c main_v11 (by decide)).trans ((step7 m c main_v11 (by decide)).trans ((step6 m c main_v11 (by decide)).trans (step5 m c main_v11 (by decide)))))).trans (n4_eq m c)

theorem cat3_eq : W10 m c (dr main_v133) = Cert.Spec.cat (F := Ideal) (H3 m c) (Nn m c) (W0 m c (dr main_arg1)) (W0 m c (dr main_arg2)) := by
  refine (host6_cat (W9 m c)).trans ?_
  rw [out2_eq, n10_eq,
    show W9 m c (dr main_arg1) = W0 m c (dr main_arg1) from ((step9 m c main_arg1 (by decide)).trans ((step8 m c main_arg1 (by decide)).trans ((step7 m c main_arg1 (by decide)).trans ((step6 m c main_arg1 (by decide)).trans ((step5 m c main_arg1 (by decide)).trans ((step4 m c main_arg1 (by decide)).trans ((step3 m c main_arg1 (by decide)).trans ((step2 m c main_arg1 (by decide)).trans (step1 m c main_arg1 (by decide)))))))))),
    show W9 m c (dr main_arg2) = W0 m c (dr main_arg2) from ((step9 m c main_arg2 (by decide)).trans ((step8 m c main_arg2 (by decide)).trans ((step7 m c main_arg2 (by decide)).trans ((step6 m c main_arg2 (by decide)).trans ((step5 m c main_arg2 (by decide)).trans ((step4 m c main_arg2 (by decide)).trans ((step3 m c main_arg2 (by decide)).trans ((step2 m c main_arg2 (by decide)).trans (step1 m c main_arg2 (by decide))))))))))]

theorem row3_eq (o : Fin 128) : (V10 m c main_v134 : S1x128.Idx → Elt Ideal .f32) (ix2 (0 : Fin 1) o) = (W0 m c (dr main_arg10)) (ix1 o) := by
  show (W10 m c (dr main_v134) : S1x128.Idx → Elt Ideal .f32) (ix2 (0 : Fin 1) o) = _
  rw [show W10 m c (dr main_v134) = row (F := Ideal) (W9 m c (dr main_arg10)) from host6_row (W9 m c), row_apply,
    show W9 m c (dr main_arg10) = W0 m c (dr main_arg10) from ((step9 m c main_arg10 (by decide)).trans ((step8 m c main_arg10 (by decide)).trans ((step7 m c main_arg10 (by decide)).trans ((step6 m c main_arg10 (by decide)).trans ((step5 m c main_arg10 (by decide)).trans ((step4 m c main_arg10 (by decide)).trans ((step3 m c main_arg10 (by decide)).trans ((step2 m c main_arg10 (by decide)).trans (step1 m c main_arg10 (by decide))))))))))]

/-- Region 3 leaves the dense layer of the blocks it was handed. -/
theorem out3_eq : W11 m c (dr main_v135) = H4 m c := by
  refine (W11_arr m c 3).trans ?_
  refine (dense_arr3 (V10 m) c (W0 m c (dr main_arg10)) (row3_eq m c)).trans ?_
  unfold H4 Cert.Spec.layer
  rw [show V10 m c main_v133 = W10 m c (dr main_v133) from rfl, cat3_eq,
    show V10 m c main_arg9 = W0 m c (dr main_arg9) from ((step10 m c main_arg9 (by decide)).trans ((step9 m c main_arg9 (by decide)).trans ((step8 m c main_arg9 (by decide)).trans ((step7 m c main_arg9 (by decide)).trans ((step6 m c main_arg9 (by decide)).trans ((step5 m c main_arg9 (by decide)).trans ((step4 m c main_arg9 (by decide)).trans ((step3 m c main_arg9 (by decide)).trans ((step2 m c main_arg9 (by decide)).trans (step1 m c main_arg9 (by decide)))))))))))]

/-! ## Between regions 3 and 4 -/

theorem n12_eq : W11 m c (dr main_v11) = Nn m c :=
  ((step11 m c main_v11 (by decide)).trans ((step10 m c main_v11 (by decide)).trans ((step9 m c main_v11 (by decide)).trans ((step8 m c main_v11 (by decide)).trans ((step7 m c main_v11 (by decide)).trans ((step6 m c main_v11 (by decide)).trans (step5 m c main_v11 (by decide)))))))).trans (n4_eq m c)

theorem cat4_eq : W12 m c (dr main_v164) = Cert.Spec.cat (F := Ideal) (H4 m c) (Nn m c) (W0 m c (dr main_arg1)) (W0 m c (dr main_arg2)) := by
  refine (host7_cat (W11 m c)).trans ?_
  rw [out3_eq, n12_eq,
    show W11 m c (dr main_arg1) = W0 m c (dr main_arg1) from ((step11 m c main_arg1 (by decide)).trans ((step10 m c main_arg1 (by decide)).trans ((step9 m c main_arg1 (by decide)).trans ((step8 m c main_arg1 (by decide)).trans ((step7 m c main_arg1 (by decide)).trans ((step6 m c main_arg1 (by decide)).trans ((step5 m c main_arg1 (by decide)).trans ((step4 m c main_arg1 (by decide)).trans ((step3 m c main_arg1 (by decide)).trans ((step2 m c main_arg1 (by decide)).trans (step1 m c main_arg1 (by decide)))))))))))),
    show W11 m c (dr main_arg2) = W0 m c (dr main_arg2) from ((step11 m c main_arg2 (by decide)).trans ((step10 m c main_arg2 (by decide)).trans ((step9 m c main_arg2 (by decide)).trans ((step8 m c main_arg2 (by decide)).trans ((step7 m c main_arg2 (by decide)).trans ((step6 m c main_arg2 (by decide)).trans ((step5 m c main_arg2 (by decide)).trans ((step4 m c main_arg2 (by decide)).trans ((step3 m c main_arg2 (by decide)).trans ((step2 m c main_arg2 (by decide)).trans (step1 m c main_arg2 (by decide))))))))))))]

theorem row4_eq (o : Fin 128) : (V12 m c main_v165 : S1x128.Idx → Elt Ideal .f32) (ix2 (0 : Fin 1) o) = (W0 m c (dr main_arg12)) (ix1 o) := by
  show (W12 m c (dr main_v165) : S1x128.Idx → Elt Ideal .f32) (ix2 (0 : Fin 1) o) = _
  rw [show W12 m c (dr main_v165) = row (F := Ideal) (W11 m c (dr main_arg12)) from host7_row (W11 m c), row_apply,
    show W11 m c (dr main_arg12) = W0 m c (dr main_arg12) from ((step11 m c main_arg12 (by decide)).trans ((step10 m c main_arg12 (by decide)).trans ((step9 m c main_arg12 (by decide)).trans ((step8 m c main_arg12 (by decide)).trans ((step7 m c main_arg12 (by decide)).trans ((step6 m c main_arg12 (by decide)).trans ((step5 m c main_arg12 (by decide)).trans ((step4 m c main_arg12 (by decide)).trans ((step3 m c main_arg12 (by decide)).trans ((step2 m c main_arg12 (by decide)).trans (step1 m c main_arg12 (by decide))))))))))))]

/-- Region 4 leaves the dense layer of the blocks it was handed. -/
theorem out4_eq : W13 m c (dr main_v166) = H5 m c := by
  refine (W13_arr m c 3).trans ?_
  refine (dense_arr4 (V12 m) c (W0 m c (dr main_arg12)) (row4_eq m c)).trans ?_
  unfold H5 Cert.Spec.layer
  rw [show V12 m c main_v164 = W12 m c (dr main_v164) from rfl, cat4_eq,
    show V12 m c main_arg11 = W0 m c (dr main_arg11) from ((step12 m c main_arg11 (by decide)).trans ((step11 m c main_arg11 (by decide)).trans ((step10 m c main_arg11 (by decide)).trans ((step9 m c main_arg11 (by decide)).trans ((step8 m c main_arg11 (by decide)).trans ((step7 m c main_arg11 (by decide)).trans ((step6 m c main_arg11 (by decide)).trans ((step5 m c main_arg11 (by decide)).trans ((step4 m c main_arg11 (by decide)).trans ((step3 m c main_arg11 (by decide)).trans ((step2 m c main_arg11 (by decide)).trans (step1 m c main_arg11 (by decide)))))))))))))]

/-! ## The readout -/

/-- The result buffer ends at the specification's model of the arguments. -/
theorem result_eq : W14 m c (dr main_v173)
    = Cert.Spec.model (F := Ideal) (W0 m c (dr main_arg0)) (W0 m c (dr main_arg1)) (W0 m c (dr main_arg2)) (W0 m c (dr main_arg3)) (W0 m c (dr main_arg4)) (W0 m c (dr main_arg5)) (W0 m c (dr main_arg6)) (W0 m c (dr main_arg7)) (W0 m c (dr main_arg8)) (W0 m c (dr main_arg9)) (W0 m c (dr main_arg10)) (W0 m c (dr main_arg11)) (W0 m c (dr main_arg12)) (W0 m c (dr main_arg13)) (W0 m c (dr main_arg14)) := by
  refine (host8_tail (W13 m c)).trans ?_
  rw [out4_eq,
    show W13 m c (dr main_arg13) = W0 m c (dr main_arg13) from ((step13 m c main_arg13 (by decide)).trans ((step12 m c main_arg13 (by decide)).trans ((step11 m c main_arg13 (by decide)).trans ((step10 m c main_arg13 (by decide)).trans ((step9 m c main_arg13 (by decide)).trans ((step8 m c main_arg13 (by decide)).trans ((step7 m c main_arg13 (by decide)).trans ((step6 m c main_arg13 (by decide)).trans ((step5 m c main_arg13 (by decide)).trans ((step4 m c main_arg13 (by decide)).trans ((step3 m c main_arg13 (by decide)).trans ((step2 m c main_arg13 (by decide)).trans (step1 m c main_arg13 (by decide)))))))))))))),
    show W13 m c (dr main_arg14) = W0 m c (dr main_arg14) from ((step13 m c main_arg14 (by decide)).trans ((step12 m c main_arg14 (by decide)).trans ((step11 m c main_arg14 (by decide)).trans ((step10 m c main_arg14 (by decide)).trans ((step9 m c main_arg14 (by decide)).trans ((step8 m c main_arg14 (by decide)).trans ((step7 m c main_arg14 (by decide)).trans ((step6 m c main_arg14 (by decide)).trans ((step5 m c main_arg14 (by decide)).trans ((step4 m c main_arg14 (by decide)).trans ((step3 m c main_arg14 (by decide)).trans ((step2 m c main_arg14 (by decide)).trans (step1 m c main_arg14 (by decide))))))))))))))]
  rfl

/-- THE RUN, with the result named: every weakly fair execution of @main terminates, nothing faulting, the result
    buffer at the specification's model of the launch arguments and every argument as launched. -/
theorem run_model : θ_run defs (onTc (τ := τ) (main (F := Ideal))) ⟨m, fun _ => 0, ρ⟩ (fun r => ∀ c : Dev nD,
      r.2.mem ((c.tc : Thread nD τ).loc main_v173)
        = Cert.Spec.model (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_v173 (by decide))).trans (result_eq m c),
     (h c _ (mem_uc main_arg0 (by decide))).trans (W14_main_arg0 m c),
     (h c _ (mem_uc main_arg1 (by decide))).trans (W14_main_arg1 m c),
     (h c _ (mem_uc main_arg2 (by decide))).trans (W14_main_arg2 m c),
     (h c _ (mem_uc main_arg3 (by decide))).trans (W14_main_arg3 m c),
     (h c _ (mem_uc main_arg4 (by decide))).trans (W14_main_arg4 m c),
     (h c _ (mem_uc main_arg5 (by decide))).trans (W14_main_arg5 m c),
     (h c _ (mem_uc main_arg6 (by decide))).trans (W14_main_arg6 m c),
     (h c _ (mem_uc main_arg7 (by decide))).trans (W14_main_arg7 m c),
     (h c _ (mem_uc main_arg8 (by decide))).trans (W14_main_arg8 m c),
     (h c _ (mem_uc main_arg9 (by decide))).trans (W14_main_arg9 m c),
     (h c _ (mem_uc main_arg10 (by decide))).trans (W14_main_arg10 m c),
     (h c _ (mem_uc main_arg11 (by decide))).trans (W14_main_arg11 m c),
     (h c _ (mem_uc main_arg12 (by decide))).trans (W14_main_arg12 m c),
     (h c _ (mem_uc main_arg13 (by decide))).trans (W14_main_arg13 m c),
     (h c _ (mem_uc main_arg14 (by decide))).trans (W14_main_arg14 m c)⟩)
    (run_all m ρ)

end Cert.KernelIdeal.Hand

end
-- ==== Proof.Ref.Ops.lean ====
import proofs.«151709_j57303453663856_1_alg».proof.ReferenceIdeal
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- @main's statements 1 … 17 of 227, calls written out: 34 operations. -/
abbrev pA : List (HloOp τ sig (Elt F)) :=
  [ StableHlo.binary main_arg0 main_arg0 main_call0_v0 (cmpf .une : (⟨S50000x128, .f32⟩ : BufTy).Contents (Elt F) → (⟨S50000x128, .f32⟩ : BufTy).Contents (Elt F) → (⟨S50000x128, .i1⟩ : BufTy).Contents (Elt F)),
    StableHlo.nullary main_call0_cst (constant S_ .f32 0x00000000#32),
    StableHlo.unary main_call0_cst main_call0_call0_v0 (broadcastInDim S50000x128 ![] bcast_S_S50000x128 : (⟨S_, .f32⟩ : BufTy).Contents (Elt F) → (⟨S50000x128, .f32⟩ : BufTy).Contents (Elt F)),
    StableHlo.ternary main_call0_v0 main_call0_call0_v0 main_arg0 main_call0_v1 (select : (⟨S50000x128, .i1⟩ : BufTy).Contents (Elt F) → (⟨S50000x128, .f32⟩ : BufTy).Contents (Elt F) → (⟨S50000x128, .f32⟩ : BufTy).Contents (Elt F) → (⟨S50000x128, .f32⟩ : BufTy).Contents (Elt F)),
    StableHlo.nullary main_call0_cst_0 (constant S_ .f32 0x7F800000#32),
    StableHlo.unary main_call0_cst_0 main_call0_v2 (broadcastInDim S50000x128 ![] bcast_S_S50000x128 : (⟨S_, .f32⟩ : BufTy).Contents (Elt F) → (⟨S50000x128, .f32⟩ : BufTy).Contents (Elt F)),
    StableHlo.binary main_call0_v1 main_call0_v2 main_call0_v3 (cmpf .oeq : (⟨S50000x128, .f32⟩ : BufTy).Contents (Elt F) → (⟨S50000x128, .f32⟩ : BufTy).Contents (Elt F) → (⟨S50000x128, .i1⟩ : BufTy).Contents (Elt F)),
    StableHlo.nullary main_call0_cst_1 (constant S_ .f32 0x7F7FFFFF#32),
    StableHlo.unary main_call0_cst_1 main_call0_call1_v0 (broadcastInDim S50000x128 ![] bcast_S_S50000x128 : (⟨S_, .f32⟩ : BufTy).Contents (Elt F) → (⟨S50000x128, .f32⟩ : BufTy).Contents (Elt F)),
    StableHlo.ternary main_call0_v3 main_call0_call1_v0 main_call0_v1 main_call0_v4 (select : (⟨S50000x128, .i1⟩ : BufTy).Contents (Elt F) → (⟨S50000x128, .f32⟩ : BufTy).Contents (Elt F) → (⟨S50000x128, .f32⟩ : BufTy).Contents (Elt F) → (⟨S50000x128, .f32⟩ : BufTy).Contents (Elt F)),
    StableHlo.nullary main_call0_cst_2 (constant S_ .f32 0xFF800000#32),
    StableHlo.unary main_call0_cst_2 main_call0_v5 (broadcastInDim S50000x128 ![] bcast_S_S50000x128 : (⟨S_, .f32⟩ : BufTy).Contents (Elt F) → (⟨S50000x128, .f32⟩ : BufTy).Contents (Elt F)),
    StableHlo.binary main_call0_v4 main_call0_v5 main_call0_v6 (cmpf .oeq : (⟨S50000x128, .f32⟩ : BufTy).Contents (Elt F) → (⟨S50000x128, .f32⟩ : BufTy).Contents (Elt F) → (⟨S50000x128, .i1⟩ : BufTy).Contents (Elt F)),
    StableHlo.nullary main_call0_cst_3 (constant S_ .f32 0xFF7FFFFF#32),
    StableHlo.unary main_call0_cst_3 main_call0_call2_v0 (broadcastInDim S50000x128 ![] bcast_S_S50000x128 : (⟨S_, .f32⟩ : BufTy).Contents (Elt F) → (⟨S50000x128, .f32⟩ : BufTy).Contents (Elt F)),
    StableHlo.ternary main_call0_v6 main_call0_call2_v0 main_call0_v4 main_v0 (select : (⟨S50000x128, .i1⟩ : BufTy).Contents (Elt F) → (⟨S50000x128, .f32⟩ : BufTy).Contents (Elt F) → (⟨S50000x128, .f32⟩ : BufTy).Contents (Elt F) → (⟨S50000x128, .f32⟩ : BufTy).Contents (Elt F)),
    StableHlo.nullary main_cst (constant S_ .f32 0x3F800000#32),
    StableHlo.unary main_cst main_v1 (broadcastInDim S800000 ![] bcast_S_S800000 : (⟨S_, .f32⟩ : BufTy).Contents (Elt F) → (⟨S800000, .f32⟩ : BufTy).Contents (Elt F)),
    StableHlo.nullary main_cst_0 (constant S_ .f32 0x00000000#32),
    StableHlo.unary main_cst_0 main_v2 (broadcastInDim S50000 ![] bcast_S_S50000 : (⟨S_, .f32⟩ : BufTy).Contents (Elt F) → (⟨S50000, .f32⟩ : BufTy).Contents (Elt F)),
    StableHlo.unary main_arg2 main_v3 (broadcastInDim S800000x1 ![0] bcast_S800000_S800000x1_0 : (⟨S800000, .i32⟩ : BufTy).Contents (Elt F) → (⟨S800000x1, .i32⟩ : BufTy).Contents (Elt F)),
    StableHlo.ternary main_v2 main_v3 main_v1 main_v4 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_1 (constant S_ .f32 0x00000000#32),
    StableHlo.unary main_cst_1 main_v5 (broadcastInDim S50000 ![] bcast_S_S50000 : (⟨S_, .f32⟩ : BufTy).Contents (Elt F) → (⟨S50000, .f32⟩ : BufTy).Contents (Elt F)),
    StableHlo.binary main_v4 main_v5 main_v6 (cmpf .ogt : (⟨S50000, .f32⟩ : BufTy).Contents (Elt F) → (⟨S50000, .f32⟩ : BufTy).Contents (Elt F) → (⟨S50000, .i1⟩ : BufTy).Contents (Elt F)),
    StableHlo.nullary main_cst_2 (constant S_ .f32 0x3F800000#32),
    StableHlo.unary main_cst_2 main_v7 (broadcastInDim S50000 ![] bcast_S_S50000 : (⟨S_, .f32⟩ : BufTy).Contents (Elt F) → (⟨S50000, .f32⟩ : BufTy).Contents (Elt F)),
    StableHlo.binary main_v4 main_v7 main_v8 (maximumf : (⟨S50000, .f32⟩ : BufTy).Contents (Elt F) → (⟨S50000, .f32⟩ : BufTy).Contents (Elt F) → (⟨S50000, .f32⟩ : BufTy).Contents (Elt F)),
    StableHlo.unary main_v8 main_v9 (Host.rsqrt : (⟨S50000, .f32⟩ : BufTy).Contents (Elt F) → (⟨S50000, .f32⟩ : BufTy).Contents (Elt F)),
    StableHlo.nullary main_cst_3 (constant S_ .f32 0x00000000#32),
    StableHlo.unary main_cst_3 main_call1_v0 (id : (⟨S_, .f32⟩ : BufTy).Contents (Elt F) → (⟨S_, .f32⟩ : BufTy).Contents (Elt F)),
    StableHlo.unary main_call1_v0 main_call1_v1 (broadcastInDim S50000 ![] bcast_S_S50000 : (⟨S_, .f32⟩ : BufTy).Contents (Elt F) → (⟨S50000, .f32⟩ : BufTy).Contents (Elt F)),
    StableHlo.ternary main_v6 main_v9 main_call1_v1 main_v10 (select : (⟨S50000, .i1⟩ : BufTy).Contents (Elt F) → (⟨S50000, .f32⟩ : BufTy).Contents (Elt F) → (⟨S50000, .f32⟩ : BufTy).Contents (Elt F) → (⟨S50000, .f32⟩ : BufTy).Contents (Elt F)),
    StableHlo.unary main_v10 main_v11 (broadcastInDim S50000x1 ![0] bcast_S50000_S50000x1_0 : (⟨S50000, .f32⟩ : BufTy).Contents (Elt F) → (⟨S50000x1, .f32⟩ : BufTy).Contents (Elt F)) ]
/-- The buffers those operations write, in order. -/
abbrev pA_W : List (Ref sig .tc) := [main_call0_v0, main_call0_cst, main_call0_call0_v0, main_call0_v1, main_call0_cst_0, main_call0_v2, main_call0_v3, main_call0_cst_1, main_call0_call1_v0, main_call0_v4, main_call0_cst_2, main_call0_v5, main_call0_v6, main_call0_cst_3, main_call0_call2_v0, main_v0, main_cst, main_v1, main_cst_0, main_v2, main_v3, main_v4, main_cst_1, main_v5, main_v6, main_cst_2, main_v7, main_v8, main_v9, main_cst_3, main_call1_v0, main_call1_v1, main_v10, main_v11]
theorem pA_sub : (pA : List (HloOp τ sig (Elt F))).Forall fun op => op.bufs ⊆ tcRefs τ sig :=
  ⟨binary_bufs_sub .., nullary_bufs_sub .., unary_bufs_sub .., ternary_bufs_sub .., nullary_bufs_sub .., unary_bufs_sub .., binary_bufs_sub .., nullary_bufs_sub .., unary_bufs_sub .., ternary_bufs_sub .., nullary_bufs_sub .., unary_bufs_sub .., binary_bufs_sub .., nullary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., unary_bufs_sub ..⟩

/-- @main's statements 18 … 57 of 227, calls written out: 42 operations. -/
abbrev pL1 : List (HloOp τ sig (Elt F)) :=
  [ StableHlo.unary main_v11 main_v12 (broadcastInDim S50000x128 ![0, 1] bcast_S50000x1_S50000x128_0_1 : (⟨S50000x1, .f32⟩ : BufTy).Contents (Elt F) → (⟨S50000x128, .f32⟩ : BufTy).Contents (Elt F)),
    StableHlo.binary main_v0 main_v12 main_v13 (mulf : (⟨S50000x128, .f32⟩ : BufTy).Contents (Elt F) → (⟨S50000x128, .f32⟩ : BufTy).Contents (Elt F) → (⟨S50000x128, .f32⟩ : BufTy).Contents (Elt F)),
    StableHlo.nullary main_c (constantI S_ 32 0#32),
    StableHlo.unary main_c main_v14 (broadcastInDim S800000 ![] bcast_S_S800000 : (⟨S_, .i32⟩ : BufTy).Contents (Elt F) → (⟨S800000, .i32⟩ : BufTy).Contents (Elt F)),
    StableHlo.binary main_arg1 main_v14 main_v15 (cmpi .slt : (⟨S800000, .i32⟩ : BufTy).Contents (Elt F) → (⟨S800000, .i32⟩ : BufTy).Contents (Elt F) → (⟨S800000, .i1⟩ : BufTy).Contents (Elt F)),
    StableHlo.nullary main_c_4 (constantI S_ 32 50000#32),
    StableHlo.unary main_c_4 main_v16 (broadcastInDim S800000 ![] bcast_S_S800000 : (⟨S_, .i32⟩ : BufTy).Contents (Elt F) → (⟨S800000, .i32⟩ : BufTy).Contents (Elt F)),
    StableHlo.binary main_arg1 main_v16 main_v17 (addi : (⟨S800000, .i32⟩ : BufTy).Contents (Elt F) → (⟨S800000, .i32⟩ : BufTy).Contents (Elt F) → (⟨S800000, .i32⟩ : BufTy).Contents (Elt F)),
    StableHlo.ternary main_v15 main_v17 main_arg1 main_v18 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v18 main_v19 (broadcastInDim S800000x1 ![0] bcast_S800000_S800000x1_0 : (⟨S800000, .i32⟩ : BufTy).Contents (Elt F) → (⟨S800000x1, .i32⟩ : BufTy).Contents (Elt F)),
    StableHlo.binary main_v13 main_v19 main_v20 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_5 (constant S_ .f32 0x00000000#32),
    StableHlo.unary main_cst_5 main_v21 (broadcastInDim S50000x128 ![] bcast_S_S50000x128 : (⟨S_, .f32⟩ : BufTy).Contents (Elt F) → (⟨S50000x128, .f32⟩ : BufTy).Contents (Elt F)),
    StableHlo.unary main_arg2 main_v22 (broadcastInDim S800000x1 ![0] bcast_S800000_S800000x1_0 : (⟨S800000, .i32⟩ : BufTy).Contents (Elt F) → (⟨S800000x1, .i32⟩ : BufTy).Contents (Elt F)),
    StableHlo.ternary main_v21 main_v22 main_v20 main_v23 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v11 main_v24 (broadcastInDim S50000x128 ![0, 1] bcast_S50000x1_S50000x128_0_1 : (⟨S50000x1, .f32⟩ : BufTy).Contents (Elt F) → (⟨S50000x128, .f32⟩ : BufTy).Contents (Elt F)),
    StableHlo.binary main_v23 main_v24 main_v25 (mulf : (⟨S50000x128, .f32⟩ : BufTy).Contents (Elt F) → (⟨S50000x128, .f32⟩ : BufTy).Contents (Elt F) → (⟨S50000x128, .f32⟩ : BufTy).Contents (Elt F)),
    StableHlo.unary main_v11 main_v26 (broadcastInDim S50000x128 ![0, 1] bcast_S50000x1_S50000x128_0_1 : (⟨S50000x1, .f32⟩ : BufTy).Contents (Elt F) → (⟨S50000x128, .f32⟩ : BufTy).Contents (Elt F)),
    StableHlo.binary main_v25 main_v26 main_v27 (mulf : (⟨S50000x128, .f32⟩ : BufTy).Contents (Elt F) → (⟨S50000x128, .f32⟩ : BufTy).Contents (Elt F) → (⟨S50000x128, .f32⟩ : BufTy).Contents (Elt F)),
    StableHlo.nullary main_c_6 (constantI S_ 32 0#32),
    StableHlo.unary main_c_6 main_v28 (broadcastInDim S800000 ![] bcast_S_S800000 : (⟨S_, .i32⟩ : BufTy).Contents (Elt F) → (⟨S800000, .i32⟩ : BufTy).Contents (Elt F)),
    StableHlo.binary main_arg1 main_v28 main_v29 (cmpi .slt : (⟨S800000, .i32⟩ : BufTy).Contents (Elt F) → (⟨S800000, .i32⟩ : BufTy).Contents (Elt F) → (⟨S800000, .i1⟩ : BufTy).Contents (Elt F)),
    StableHlo.nullary main_c_7 (constantI S_ 32 50000#32),
    StableHlo.unary main_c_7 main_v30 (broadcastInDim S800000 ![] bcast_S_S800000 : (⟨S_, .i32⟩ : BufTy).Contents (Elt F) → (⟨S800000, .i32⟩ : BufTy).Contents (Elt F)),
    StableHlo.binary main_arg1 main_v30 main_v31 (addi : (⟨S800000, .i32⟩ : BufTy).Contents (Elt F) → (⟨S800000, .i32⟩ : BufTy).Contents (Elt F) → (⟨S800000, .i32⟩ : BufTy).Contents (Elt F)),
    StableHlo.ternary main_v29 main_v31 main_arg1 main_v32 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v32 main_v33 (broadcastInDim S800000x1 ![0] bcast_S800000_S800000x1_0 : (⟨S800000, .i32⟩ : BufTy).Contents (Elt F) → (⟨S800000x1, .i32⟩ : BufTy).Contents (Elt F)),
    StableHlo.binary main_v27 main_v33 main_v34 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_8 (constant S_ .f32 0x00000000#32),
    StableHlo.unary main_cst_8 main_v35 (broadcastInDim S50000x128 ![] bcast_S_S50000x128 : (⟨S_, .f32⟩ : BufTy).Contents (Elt F) → (⟨S50000x128, .f32⟩ : BufTy).Contents (Elt F)),
    StableHlo.unary main_arg2 main_v36 (broadcastInDim S800000x1 ![0] bcast_S800000_S800000x1_0 : (⟨S800000, .i32⟩ : BufTy).Contents (Elt F) → (⟨S800000x1, .i32⟩ : BufTy).Contents (Elt F)),
    StableHlo.ternary main_v35 main_v36 main_v34 main_v37 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v11 main_v38 (broadcastInDim S50000x128 ![0, 1] bcast_S50000x1_S50000x128_0_1 : (⟨S50000x1, .f32⟩ : BufTy).Contents (Elt F) → (⟨S50000x128, .f32⟩ : BufTy).Contents (Elt F)),
    StableHlo.binary main_v37 main_v38 main_v39 (mulf : (⟨S50000x128, .f32⟩ : BufTy).Contents (Elt F) → (⟨S50000x128, .f32⟩ : BufTy).Contents (Elt F) → (⟨S50000x128, .f32⟩ : BufTy).Contents (Elt F)),
    StableHlo.nary ![main_v0, main_v25, main_v39] main_v40 (fun u => concatenate S50000x384 1 [⟨S50000x128, u 0⟩, ⟨S50000x128, u 1⟩, ⟨S50000x128, u 2⟩] concatenates_S50000x128_S50000x128_S50000x128_S50000x384_d1),
    StableHlo.binary main_v40 main_arg3 main_v41 ((fun l r => Host.dotGeneral dot_S50000x384_S384x128_S50000x128_1_0_0_1_n_n none l r) : (⟨S50000x384, .f32⟩ : BufTy).Contents (Elt F) → (⟨S384x128, .f32⟩ : BufTy).Contents (Elt F) → (⟨S50000x128, .f32⟩ : BufTy).Contents (Elt F)),
    StableHlo.unary main_arg4 main_v42 (broadcastInDim S1x128 ![1] bcast_S128_S1x128_1 : (⟨S128, .f32⟩ : BufTy).Contents (Elt F) → (⟨S1x128, .f32⟩ : BufTy).Contents (Elt F)),
    StableHlo.unary main_v42 main_v43 (broadcastInDim S50000x128 ![0, 1] bcast_S1x128_S50000x128_0_1 : (⟨S1x128, .f32⟩ : BufTy).Contents (Elt F) → (⟨S50000x128, .f32⟩ : BufTy).Contents (Elt F)),
    StableHlo.binary main_v41 main_v43 main_v44 (addf : (⟨S50000x128, .f32⟩ : BufTy).Contents (Elt F) → (⟨S50000x128, .f32⟩ : BufTy).Contents (Elt F) → (⟨S50000x128, .f32⟩ : BufTy).Contents (Elt F)),
    StableHlo.nullary main_call2_cst (constant S_ .f32 0x00000000#32),
    StableHlo.unary main_call2_cst main_call2_v0 (broadcastInDim S50000x128 ![] bcast_S_S50000x128 : (⟨S_, .f32⟩ : BufTy).Contents (Elt F) → (⟨S50000x128, .f32⟩ : BufTy).Contents (Elt F)),
    StableHlo.binary main_v44 main_call2_v0 main_v45 (maximumf : (⟨S50000x128, .f32⟩ : BufTy).Contents (Elt F) → (⟨S50000x128, .f32⟩ : BufTy).Contents (Elt F) → (⟨S50000x128, .f32⟩ : BufTy).Contents (Elt F)) ]
/-- The buffers those operations write, in order. -/
abbrev pL1_W : List (Ref sig .tc) := [main_v12, main_v13, main_c, main_v14, main_v15, main_c_4, main_v16, main_v17, main_v18, main_v19, main_v20, main_cst_5, main_v21, main_v22, main_v23, main_v24, main_v25, main_v26, main_v27, main_c_6, main_v28, main_v29, main_c_7, main_v30, main_v31, main_v32, main_v33, main_v34, main_cst_8, main_v35, main_v36, main_v37, main_v38, main_v39, main_v40, main_v41, main_v42, main_v43, main_v44, main_call2_cst, main_call2_v0, main_v45]
theorem pL1_sub : (pL1 : List (HloOp τ sig (Elt F))).Forall fun op => op.bufs ⊆ tcRefs τ sig :=
  ⟨unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., nary_bufs_sub .., binary_bufs_sub .., unary_bufs_sub .., unary_bufs_sub .., binary_bufs_sub .., nullary_bufs_sub .., unary_bufs_sub .., binary_bufs_sub ..⟩

/-- @main's statements 58 … 60 of 227, calls written out: 3 operations. -/
abbrev pL2a : List (HloOp τ sig (Elt F)) :=
  [ StableHlo.unary main_v11 main_v46 (broadcastInDim S50000x128 ![0, 1] bcast_S50000x1_S50000x128_0_1 : (⟨S50000x1, .f32⟩ : BufTy).Contents (Elt F) → (⟨S50000x128, .f32⟩ : BufTy).Contents (Elt F)),
    StableHlo.binary main_v45 main_v46 main_v47 (mulf : (⟨S50000x128, .f32⟩ : BufTy).Contents (Elt F) → (⟨S50000x128, .f32⟩ : BufTy).Contents (Elt F) → (⟨S50000x128, .f32⟩ : BufTy).Contents (Elt F)),
    StableHlo.nullary main_c_9 (constantI S_ 32 0#32) ]
/-- The buffers those operations write, in order. -/
abbrev pL2a_W : List (Ref sig .tc) := [main_v46, main_v47, main_c_9]
theorem pL2a_sub : (pL2a : List (HloOp τ sig (Elt F))).Forall fun op => op.bufs ⊆ tcRefs τ sig :=
  ⟨unary_bufs_sub .., binary_bufs_sub .., nullary_bufs_sub ..⟩

/-- @main's statements 61 … 97 of 227, calls written out: 39 operations. -/
abbrev pL2b : List (HloOp τ sig (Elt F)) :=
  [ StableHlo.unary main_c_9 main_v48 (broadcastInDim S800000 ![] bcast_S_S800000 : (⟨S_, .i32⟩ : BufTy).Contents (Elt F) → (⟨S800000, .i32⟩ : BufTy).Contents (Elt F)),
    StableHlo.binary main_arg1 main_v48 main_v49 (cmpi .slt : (⟨S800000, .i32⟩ : BufTy).Contents (Elt F) → (⟨S800000, .i32⟩ : BufTy).Contents (Elt F) → (⟨S800000, .i1⟩ : BufTy).Contents (Elt F)),
    StableHlo.nullary main_c_10 (constantI S_ 32 50000#32),
    StableHlo.unary main_c_10 main_v50 (broadcastInDim S800000 ![] bcast_S_S800000 : (⟨S_, .i32⟩ : BufTy).Contents (Elt F) → (⟨S800000, .i32⟩ : BufTy).Contents (Elt F)),
    StableHlo.binary main_arg1 main_v50 main_v51 (addi : (⟨S800000, .i32⟩ : BufTy).Contents (Elt F) → (⟨S800000, .i32⟩ : BufTy).Contents (Elt F) → (⟨S800000, .i32⟩ : BufTy).Contents (Elt F)),
    StableHlo.ternary main_v49 main_v51 main_arg1 main_v52 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v52 main_v53 (broadcastInDim S800000x1 ![0] bcast_S800000_S800000x1_0 : (⟨S800000, .i32⟩ : BufTy).Contents (Elt F) → (⟨S800000x1, .i32⟩ : BufTy).Contents (Elt F)),
    StableHlo.binary main_v47 main_v53 main_v54 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_11 (constant S_ .f32 0x00000000#32),
    StableHlo.unary main_cst_11 main_v55 (broadcastInDim S50000x128 ![] bcast_S_S50000x128 : (⟨S_, .f32⟩ : BufTy).Contents (Elt F) → (⟨S50000x128, .f32⟩ : BufTy).Contents (Elt F)),
    StableHlo.unary main_arg2 main_v56 (broadcastInDim S800000x1 ![0] bcast_S800000_S800000x1_0 : (⟨S800000, .i32⟩ : BufTy).Contents (Elt F) → (⟨S800000x1, .i32⟩ : BufTy).Contents (Elt F)),
    StableHlo.ternary main_v55 main_v56 main_v54 main_v57 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v11 main_v58 (broadcastInDim S50000x128 ![0, 1] bcast_S50000x1_S50000x128_0_1 : (⟨S50000x1, .f32⟩ : BufTy).Contents (Elt F) → (⟨S50000x128, .f32⟩ : BufTy).Contents (Elt F)),
    StableHlo.binary main_v57 main_v58 main_v59 (mulf : (⟨S50000x128, .f32⟩ : BufTy).Contents (Elt F) → (⟨S50000x128, .f32⟩ : BufTy).Contents (Elt F) → (⟨S50000x128, .f32⟩ : BufTy).Contents (Elt F)),
    StableHlo.unary main_v11 main_v60 (broadcastInDim S50000x128 ![0, 1] bcast_S50000x1_S50000x128_0_1 : (⟨S50000x1, .f32⟩ : BufTy).Contents (Elt F) → (⟨S50000x128, .f32⟩ : BufTy).Contents (Elt F)),
    StableHlo.binary main_v59 main_v60 main_v61 (mulf : (⟨S50000x128, .f32⟩ : BufTy).Contents (Elt F) → (⟨S50000x128, .f32⟩ : BufTy).Contents (Elt F) → (⟨S50000x128, .f32⟩ : BufTy).Contents (Elt F)),
    StableHlo.nullary main_c_12 (constantI S_ 32 0#32),
    StableHlo.unary main_c_12 main_v62 (broadcastInDim S800000 ![] bcast_S_S800000 : (⟨S_, .i32⟩ : BufTy).Contents (Elt F) → (⟨S800000, .i32⟩ : BufTy).Contents (Elt F)),
    StableHlo.binary main_arg1 main_v62 main_v63 (cmpi .slt : (⟨S800000, .i32⟩ : BufTy).Contents (Elt F) → (⟨S800000, .i32⟩ : BufTy).Contents (Elt F) → (⟨S800000, .i1⟩ : BufTy).Contents (Elt F)),
    StableHlo.nullary main_c_13 (constantI S_ 32 50000#32),
    StableHlo.unary main_c_13 main_v64 (broadcastInDim S800000 ![] bcast_S_S800000 : (⟨S_, .i32⟩ : BufTy).Contents (Elt F) → (⟨S800000, .i32⟩ : BufTy).Contents (Elt F)),
    StableHlo.binary main_arg1 main_v64 main_v65 (addi : (⟨S800000, .i32⟩ : BufTy).Contents (Elt F) → (⟨S800000, .i32⟩ : BufTy).Contents (Elt F) → (⟨S800000, .i32⟩ : BufTy).Contents (Elt F)),
    StableHlo.ternary main_v63 main_v65 main_arg1 main_v66 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v66 main_v67 (broadcastInDim S800000x1 ![0] bcast_S800000_S800000x1_0 : (⟨S800000, .i32⟩ : BufTy).Contents (Elt F) → (⟨S800000x1, .i32⟩ : BufTy).Contents (Elt F)),
    StableHlo.binary main_v61 main_v67 main_v68 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_14 (constant S_ .f32 0x00000000#32),
    StableHlo.unary main_cst_14 main_v69 (broadcastInDim S50000x128 ![] bcast_S_S50000x128 : (⟨S_, .f32⟩ : BufTy).Contents (Elt F) → (⟨S50000x128, .f32⟩ : BufTy).Contents (Elt F)),
    StableHlo.unary main_arg2 main_v70 (broadcastInDim S800000x1 ![0] bcast_S800000_S800000x1_0 : (⟨S800000, .i32⟩ : BufTy).Contents (Elt F) → (⟨S800000x1, .i32⟩ : BufTy).Contents (Elt F)),
    StableHlo.ternary main_v69 main_v70 main_v68 main_v71 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v11 main_v72 (broadcastInDim S50000x128 ![0, 1] bcast_S50000x1_S50000x128_0_1 : (⟨S50000x1, .f32⟩ : BufTy).Contents (Elt F) → (⟨S50000x128, .f32⟩ : BufTy).Contents (Elt F)),
    StableHlo.binary main_v71 main_v72 main_v73 (mulf : (⟨S50000x128, .f32⟩ : BufTy).Contents (Elt F) → (⟨S50000x128, .f32⟩ : BufTy).Contents (Elt F) → (⟨S50000x128, .f32⟩ : BufTy).Contents (Elt F)),
    StableHlo.nary ![main_v45, main_v59, main_v73] main_v74 (fun u => concatenate S50000x384 1 [⟨S50000x128, u 0⟩, ⟨S50000x128, u 1⟩, ⟨S50000x128, u 2⟩] concatenates_S50000x128_S50000x128_S50000x128_S50000x384_d1),
    StableHlo.binary main_v74 main_arg5 main_v75 ((fun l r => Host.dotGeneral dot_S50000x384_S384x128_S50000x128_1_0_0_1_n_n none l r) : (⟨S50000x384, .f32⟩ : BufTy).Contents (Elt F) → (⟨S384x128, .f32⟩ : BufTy).Contents (Elt F) → (⟨S50000x128, .f32⟩ : BufTy).Contents (Elt F)),
    StableHlo.unary main_arg6 main_v76 (broadcastInDim S1x128 ![1] bcast_S128_S1x128_1 : (⟨S128, .f32⟩ : BufTy).Contents (Elt F) → (⟨S1x128, .f32⟩ : BufTy).Contents (Elt F)),
    StableHlo.unary main_v76 main_v77 (broadcastInDim S50000x128 ![0, 1] bcast_S1x128_S50000x128_0_1 : (⟨S1x128, .f32⟩ : BufTy).Contents (Elt F) → (⟨S50000x128, .f32⟩ : BufTy).Contents (Elt F)),
    StableHlo.binary main_v75 main_v77 main_v78 (addf : (⟨S50000x128, .f32⟩ : BufTy).Contents (Elt F) → (⟨S50000x128, .f32⟩ : BufTy).Contents (Elt F) → (⟨S50000x128, .f32⟩ : BufTy).Contents (Elt F)),
    StableHlo.nullary main_call3_cst (constant S_ .f32 0x00000000#32),
    StableHlo.unary main_call3_cst main_call3_v0 (broadcastInDim S50000x128 ![] bcast_S_S50000x128 : (⟨S_, .f32⟩ : BufTy).Contents (Elt F) → (⟨S50000x128, .f32⟩ : BufTy).Contents (Elt F)),
    StableHlo.binary main_v78 main_call3_v0 main_v79 (maximumf : (⟨S50000x128, .f32⟩ : BufTy).Contents (Elt F) → (⟨S50000x128, .f32⟩ : BufTy).Contents (Elt F) → (⟨S50000x128, .f32⟩ : BufTy).Contents (Elt F)) ]
/-- The buffers those operations write, in order. -/
abbrev pL2b_W : List (Ref sig .tc) := [main_v48, main_v49, main_c_10, main_v50, main_v51, main_v52, main_v53, main_v54, main_cst_11, main_v55, main_v56, main_v57, main_v58, main_v59, main_v60, main_v61, main_c_12, main_v62, main_v63, main_c_13, main_v64, main_v65, main_v66, main_v67, main_v68, main_cst_14, main_v69, main_v70, main_v71, main_v72, main_v73, main_v74, main_v75, main_v76, main_v77, main_v78, main_call3_cst, main_call3_v0, main_v79]
theorem pL2b_sub : (pL2b : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., nary_bufs_sub .., binary_bufs_sub .., unary_bufs_sub .., unary_bufs_sub .., binary_bufs_sub .., nullary_bufs_sub .., unary_bufs_sub .., binary_bufs_sub ..⟩

/-- @main's statements 98 … 120 of 227, calls written out: 23 operations. -/
abbrev pL3a : List (HloOp τ sig (Elt F)) :=
  [ StableHlo.unary main_v11 main_v80 (broadcastInDim S50000x128 ![0, 1] bcast_S50000x1_S50000x128_0_1 : (⟨S50000x1, .f32⟩ : BufTy).Contents (Elt F) → (⟨S50000x128, .f32⟩ : BufTy).Contents (Elt F)),
    StableHlo.binary main_v79 main_v80 main_v81 (mulf : (⟨S50000x128, .f32⟩ : BufTy).Contents (Elt F) → (⟨S50000x128, .f32⟩ : BufTy).Contents (Elt F) → (⟨S50000x128, .f32⟩ : BufTy).Contents (Elt F)),
    StableHlo.nullary main_c_15 (constantI S_ 32 0#32),
    StableHlo.unary main_c_15 main_v82 (broadcastInDim S800000 ![] bcast_S_S800000 : (⟨S_, .i32⟩ : BufTy).Contents (Elt F) → (⟨S800000, .i32⟩ : BufTy).Contents (Elt F)),
    StableHlo.binary main_arg1 main_v82 main_v83 (cmpi .slt : (⟨S800000, .i32⟩ : BufTy).Contents (Elt F) → (⟨S800000, .i32⟩ : BufTy).Contents (Elt F) → (⟨S800000, .i1⟩ : BufTy).Contents (Elt F)),
    StableHlo.nullary main_c_16 (constantI S_ 32 50000#32),
    StableHlo.unary main_c_16 main_v84 (broadcastInDim S800000 ![] bcast_S_S800000 : (⟨S_, .i32⟩ : BufTy).Contents (Elt F) → (⟨S800000, .i32⟩ : BufTy).Contents (Elt F)),
    StableHlo.binary main_arg1 main_v84 main_v85 (addi : (⟨S800000, .i32⟩ : BufTy).Contents (Elt F) → (⟨S800000, .i32⟩ : BufTy).Contents (Elt F) → (⟨S800000, .i32⟩ : BufTy).Contents (Elt F)),
    StableHlo.ternary main_v83 main_v85 main_arg1 main_v86 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v86 main_v87 (broadcastInDim S800000x1 ![0] bcast_S800000_S800000x1_0 : (⟨S800000, .i32⟩ : BufTy).Contents (Elt F) → (⟨S800000x1, .i32⟩ : BufTy).Contents (Elt F)),
    StableHlo.binary main_v81 main_v87 main_v88 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_17 (constant S_ .f32 0x00000000#32),
    StableHlo.unary main_cst_17 main_v89 (broadcastInDim S50000x128 ![] bcast_S_S50000x128 : (⟨S_, .f32⟩ : BufTy).Contents (Elt F) → (⟨S50000x128, .f32⟩ : BufTy).Contents (Elt F)),
    StableHlo.unary main_arg2 main_v90 (broadcastInDim S800000x1 ![0] bcast_S800000_S800000x1_0 : (⟨S800000, .i32⟩ : BufTy).Contents (Elt F) → (⟨S800000x1, .i32⟩ : BufTy).Contents (Elt F)),
    StableHlo.ternary main_v89 main_v90 main_v88 main_v91 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v11 main_v92 (broadcastInDim S50000x128 ![0, 1] bcast_S50000x1_S50000x128_0_1 : (⟨S50000x1, .f32⟩ : BufTy).Contents (Elt F) → (⟨S50000x128, .f32⟩ : BufTy).Contents (Elt F)),
    StableHlo.binary main_v91 main_v92 main_v93 (mulf : (⟨S50000x128, .f32⟩ : BufTy).Contents (Elt F) → (⟨S50000x128, .f32⟩ : BufTy).Contents (Elt F) → (⟨S50000x128, .f32⟩ : BufTy).Contents (Elt F)),
    StableHlo.unary main_v11 main_v94 (broadcastInDim S50000x128 ![0, 1] bcast_S50000x1_S50000x128_0_1 : (⟨S50000x1, .f32⟩ : BufTy).Contents (Elt F) → (⟨S50000x128, .f32⟩ : BufTy).Contents (Elt F)),
    StableHlo.binary main_v93 main_v94 main_v95 (mulf : (⟨S50000x128, .f32⟩ : BufTy).Contents (Elt F) → (⟨S50000x128, .f32⟩ : BufTy).Contents (Elt F) → (⟨S50000x128, .f32⟩ : BufTy).Contents (Elt F)),
    StableHlo.nullary main_c_18 (constantI S_ 32 0#32),
    StableHlo.unary main_c_18 main_v96 (broadcastInDim S800000 ![] bcast_S_S800000 : (⟨S_, .i32⟩ : BufTy).Contents (Elt F) → (⟨S800000, .i32⟩ : BufTy).Contents (Elt F)),
    StableHlo.binary main_arg1 main_v96 main_v97 (cmpi .slt : (⟨S800000, .i32⟩ : BufTy).Contents (Elt F) → (⟨S800000, .i32⟩ : BufTy).Contents (Elt F) → (⟨S800000, .i1⟩ : BufTy).Contents (Elt F)),
    StableHlo.nullary main_c_19 (constantI S_ 32 50000#32) ]
/-- The buffers those operations write, in order. -/
abbrev pL3a_W : List (Ref sig .tc) := [main_v80, main_v81, main_c_15, main_v82, main_v83, main_c_16, main_v84, main_v85, main_v86, main_v87, main_v88, main_cst_17, main_v89, main_v90, main_v91, main_v92, main_v93, main_v94, main_v95, main_c_18, main_v96, main_v97, main_c_19]
theorem pL3a_sub : (pL3a : List (HloOp τ sig (Elt F))).Forall fun op => op.bufs ⊆ tcRefs τ sig :=
  ⟨unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., binary_bufs_sub .., nullary_bufs_sub .., unary_bufs_sub .., binary_bufs_sub .., nullary_bufs_sub ..⟩

/-- @main's statements 121 … 137 of 227, calls written out: 19 operations. -/
abbrev pL3b : List (HloOp τ sig (Elt F)) :=
  [ StableHlo.unary main_c_19 main_v98 (broadcastInDim S800000 ![] bcast_S_S800000 : (⟨S_, .i32⟩ : BufTy).Contents (Elt F) → (⟨S800000, .i32⟩ : BufTy).Contents (Elt F)),
    StableHlo.binary main_arg1 main_v98 main_v99 (addi : (⟨S800000, .i32⟩ : BufTy).Contents (Elt F) → (⟨S800000, .i32⟩ : BufTy).Contents (Elt F) → (⟨S800000, .i32⟩ : BufTy).Contents (Elt F)),
    StableHlo.ternary main_v97 main_v99 main_arg1 main_v100 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v100 main_v101 (broadcastInDim S800000x1 ![0] bcast_S800000_S800000x1_0 : (⟨S800000, .i32⟩ : BufTy).Contents (Elt F) → (⟨S800000x1, .i32⟩ : BufTy).Contents (Elt F)),
    StableHlo.binary main_v95 main_v101 main_v102 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_20 (constant S_ .f32 0x00000000#32),
    StableHlo.unary main_cst_20 main_v103 (broadcastInDim S50000x128 ![] bcast_S_S50000x128 : (⟨S_, .f32⟩ : BufTy).Contents (Elt F) → (⟨S50000x128, .f32⟩ : BufTy).Contents (Elt F)),
    StableHlo.unary main_arg2 main_v104 (broadcastInDim S800000x1 ![0] bcast_S800000_S800000x1_0 : (⟨S800000, .i32⟩ : BufTy).Contents (Elt F) → (⟨S800000x1, .i32⟩ : BufTy).Contents (Elt F)),
    StableHlo.ternary main_v103 main_v104 main_v102 main_v105 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v11 main_v106 (broadcastInDim S50000x128 ![0, 1] bcast_S50000x1_S50000x128_0_1 : (⟨S50000x1, .f32⟩ : BufTy).Contents (Elt F) → (⟨S50000x128, .f32⟩ : BufTy).Contents (Elt F)),
    StableHlo.binary main_v105 main_v106 main_v107 (mulf : (⟨S50000x128, .f32⟩ : BufTy).Contents (Elt F) → (⟨S50000x128, .f32⟩ : BufTy).Contents (Elt F) → (⟨S50000x128, .f32⟩ : BufTy).Contents (Elt F)),
    StableHlo.nary ![main_v79, main_v93, main_v107] main_v108 (fun u => concatenate S50000x384 1 [⟨S50000x128, u 0⟩, ⟨S50000x128, u 1⟩, ⟨S50000x128, u 2⟩] concatenates_S50000x128_S50000x128_S50000x128_S50000x384_d1),
    StableHlo.binary main_v108 main_arg7 main_v109 ((fun l r => Host.dotGeneral dot_S50000x384_S384x128_S50000x128_1_0_0_1_n_n none l r) : (⟨S50000x384, .f32⟩ : BufTy).Contents (Elt F) → (⟨S384x128, .f32⟩ : BufTy).Contents (Elt F) → (⟨S50000x128, .f32⟩ : BufTy).Contents (Elt F)),
    StableHlo.unary main_arg8 main_v110 (broadcastInDim S1x128 ![1] bcast_S128_S1x128_1 : (⟨S128, .f32⟩ : BufTy).Contents (Elt F) → (⟨S1x128, .f32⟩ : BufTy).Contents (Elt F)),
    StableHlo.unary main_v110 main_v111 (broadcastInDim S50000x128 ![0, 1] bcast_S1x128_S50000x128_0_1 : (⟨S1x128, .f32⟩ : BufTy).Contents (Elt F) → (⟨S50000x128, .f32⟩ : BufTy).Contents (Elt F)),
    StableHlo.binary main_v109 main_v111 main_v112 (addf : (⟨S50000x128, .f32⟩ : BufTy).Contents (Elt F) → (⟨S50000x128, .f32⟩ : BufTy).Contents (Elt F) → (⟨S50000x128, .f32⟩ : BufTy).Contents (Elt F)),
    StableHlo.nullary main_call4_cst (constant S_ .f32 0x00000000#32),
    StableHlo.unary main_call4_cst main_call4_v0 (broadcastInDim S50000x128 ![] bcast_S_S50000x128 : (⟨S_, .f32⟩ : BufTy).Contents (Elt F) → (⟨S50000x128, .f32⟩ : BufTy).Contents (Elt F)),
    StableHlo.binary main_v112 main_call4_v0 main_v113 (maximumf : (⟨S50000x128, .f32⟩ : BufTy).Contents (Elt F) → (⟨S50000x128, .f32⟩ : BufTy).Contents (Elt F) → (⟨S50000x128, .f32⟩ : BufTy).Contents (Elt F)) ]
/-- The buffers those operations write, in order. -/
abbrev pL3b_W : List (Ref sig .tc) := [main_v98, main_v99, main_v100, main_v101, main_v102, main_cst_20, main_v103, main_v104, main_v105, main_v106, main_v107, main_v108, main_v109, main_v110, main_v111, main_v112, main_call4_cst, main_call4_v0, main_v113]
theorem pL3b_sub : (pL3b : List (HloOp τ sig (Elt F))).Forall fun op => op.bufs ⊆ tcRefs τ sig :=
  ⟨unary_bufs_sub .., binary_bufs_sub .., ternary_bufs_sub .., unary_bufs_sub .., binary_bufs_sub .., nullary_bufs_sub .., unary_bufs_sub .., unary_bufs_sub .., ternary_bufs_sub .., unary_bufs_sub .., binary_bufs_sub .., nary_bufs_sub .., binary_bufs_sub .., unary_bufs_sub .., unary_bufs_sub .., binary_bufs_sub .., nullary_bufs_sub .., unary_bufs_sub .., binary_bufs_sub ..⟩

/-- @main's statements 138 … 177 of 227, calls written out: 42 operations. -/
abbrev pL4 : List (HloOp τ sig (Elt F)) :=
  [ StableHlo.unary main_v11 main_v114 (broadcastInDim S50000x128 ![0, 1] bcast_S50000x1_S50000x128_0_1 : (⟨S50000x1, .f32⟩ : BufTy).Contents (Elt F) → (⟨S50000x128, .f32⟩ : BufTy).Contents (Elt F)),
    StableHlo.binary main_v113 main_v114 main_v115 (mulf : (⟨S50000x128, .f32⟩ : BufTy).Contents (Elt F) → (⟨S50000x128, .f32⟩ : BufTy).Contents (Elt F) → (⟨S50000x128, .f32⟩ : BufTy).Contents (Elt F)),
    StableHlo.nullary main_c_21 (constantI S_ 32 0#32),
    StableHlo.unary main_c_21 main_v116 (broadcastInDim S800000 ![] bcast_S_S800000 : (⟨S_, .i32⟩ : BufTy).Contents (Elt F) → (⟨S800000, .i32⟩ : BufTy).Contents (Elt F)),
    StableHlo.binary main_arg1 main_v116 main_v117 (cmpi .slt : (⟨S800000, .i32⟩ : BufTy).Contents (Elt F) → (⟨S800000, .i32⟩ : BufTy).Contents (Elt F) → (⟨S800000, .i1⟩ : BufTy).Contents (Elt F)),
    StableHlo.nullary main_c_22 (constantI S_ 32 50000#32),
    StableHlo.unary main_c_22 main_v118 (broadcastInDim S800000 ![] bcast_S_S800000 : (⟨S_, .i32⟩ : BufTy).Contents (Elt F) → (⟨S800000, .i32⟩ : BufTy).Contents (Elt F)),
    StableHlo.binary main_arg1 main_v118 main_v119 (addi : (⟨S800000, .i32⟩ : BufTy).Contents (Elt F) → (⟨S800000, .i32⟩ : BufTy).Contents (Elt F) → (⟨S800000, .i32⟩ : BufTy).Contents (Elt F)),
    StableHlo.ternary main_v117 main_v119 main_arg1 main_v120 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v120 main_v121 (broadcastInDim S800000x1 ![0] bcast_S800000_S800000x1_0 : (⟨S800000, .i32⟩ : BufTy).Contents (Elt F) → (⟨S800000x1, .i32⟩ : BufTy).Contents (Elt F)),
    StableHlo.binary main_v115 main_v121 main_v122 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_23 (constant S_ .f32 0x00000000#32),
    StableHlo.unary main_cst_23 main_v123 (broadcastInDim S50000x128 ![] bcast_S_S50000x128 : (⟨S_, .f32⟩ : BufTy).Contents (Elt F) → (⟨S50000x128, .f32⟩ : BufTy).Contents (Elt F)),
    StableHlo.unary main_arg2 main_v124 (broadcastInDim S800000x1 ![0] bcast_S800000_S800000x1_0 : (⟨S800000, .i32⟩ : BufTy).Contents (Elt F) → (⟨S800000x1, .i32⟩ : BufTy).Contents (Elt F)),
    StableHlo.ternary main_v123 main_v124 main_v122 main_v125 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v11 main_v126 (broadcastInDim S50000x128 ![0, 1] bcast_S50000x1_S50000x128_0_1 : (⟨S50000x1, .f32⟩ : BufTy).Contents (Elt F) → (⟨S50000x128, .f32⟩ : BufTy).Contents (Elt F)),
    StableHlo.binary main_v125 main_v126 main_v127 (mulf : (⟨S50000x128, .f32⟩ : BufTy).Contents (Elt F) → (⟨S50000x128, .f32⟩ : BufTy).Contents (Elt F) → (⟨S50000x128, .f32⟩ : BufTy).Contents (Elt F)),
    StableHlo.unary main_v11 main_v128 (broadcastInDim S50000x128 ![0, 1] bcast_S50000x1_S50000x128_0_1 : (⟨S50000x1, .f32⟩ : BufTy).Contents (Elt F) → (⟨S50000x128, .f32⟩ : BufTy).Contents (Elt F)),
    StableHlo.binary main_v127 main_v128 main_v129 (mulf : (⟨S50000x128, .f32⟩ : BufTy).Contents (Elt F) → (⟨S50000x128, .f32⟩ : BufTy).Contents (Elt F) → (⟨S50000x128, .f32⟩ : BufTy).Contents (Elt F)),
    StableHlo.nullary main_c_24 (constantI S_ 32 0#32),
    StableHlo.unary main_c_24 main_v130 (broadcastInDim S800000 ![] bcast_S_S800000 : (⟨S_, .i32⟩ : BufTy).Contents (Elt F) → (⟨S800000, .i32⟩ : BufTy).Contents (Elt F)),
    StableHlo.binary main_arg1 main_v130 main_v131 (cmpi .slt : (⟨S800000, .i32⟩ : BufTy).Contents (Elt F) → (⟨S800000, .i32⟩ : BufTy).Contents (Elt F) → (⟨S800000, .i1⟩ : BufTy).Contents (Elt F)),
    StableHlo.nullary main_c_25 (constantI S_ 32 50000#32),
    StableHlo.unary main_c_25 main_v132 (broadcastInDim S800000 ![] bcast_S_S800000 : (⟨S_, .i32⟩ : BufTy).Contents (Elt F) → (⟨S800000, .i32⟩ : BufTy).Contents (Elt F)),
    StableHlo.binary main_arg1 main_v132 main_v133 (addi : (⟨S800000, .i32⟩ : BufTy).Contents (Elt F) → (⟨S800000, .i32⟩ : BufTy).Contents (Elt F) → (⟨S800000, .i32⟩ : BufTy).Contents (Elt F)),
    StableHlo.ternary main_v131 main_v133 main_arg1 main_v134 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v134 main_v135 (broadcastInDim S800000x1 ![0] bcast_S800000_S800000x1_0 : (⟨S800000, .i32⟩ : BufTy).Contents (Elt F) → (⟨S800000x1, .i32⟩ : BufTy).Contents (Elt F)),
    StableHlo.binary main_v129 main_v135 main_v136 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_26 (constant S_ .f32 0x00000000#32),
    StableHlo.unary main_cst_26 main_v137 (broadcastInDim S50000x128 ![] bcast_S_S50000x128 : (⟨S_, .f32⟩ : BufTy).Contents (Elt F) → (⟨S50000x128, .f32⟩ : BufTy).Contents (Elt F)),
    StableHlo.unary main_arg2 main_v138 (broadcastInDim S800000x1 ![0] bcast_S800000_S800000x1_0 : (⟨S800000, .i32⟩ : BufTy).Contents (Elt F) → (⟨S800000x1, .i32⟩ : BufTy).Contents (Elt F)),
    StableHlo.ternary main_v137 main_v138 main_v136 main_v139 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v11 main_v140 (broadcastInDim S50000x128 ![0, 1] bcast_S50000x1_S50000x128_0_1 : (⟨S50000x1, .f32⟩ : BufTy).Contents (Elt F) → (⟨S50000x128, .f32⟩ : BufTy).Contents (Elt F)),
    StableHlo.binary main_v139 main_v140 main_v141 (mulf : (⟨S50000x128, .f32⟩ : BufTy).Contents (Elt F) → (⟨S50000x128, .f32⟩ : BufTy).Contents (Elt F) → (⟨S50000x128, .f32⟩ : BufTy).Contents (Elt F)),
    StableHlo.nary ![main_v113, main_v127, main_v141] main_v142 (fun u => concatenate S50000x384 1 [⟨S50000x128, u 0⟩, ⟨S50000x128, u 1⟩, ⟨S50000x128, u 2⟩] concatenates_S50000x128_S50000x128_S50000x128_S50000x384_d1),
    StableHlo.binary main_v142 main_arg9 main_v143 ((fun l r => Host.dotGeneral dot_S50000x384_S384x128_S50000x128_1_0_0_1_n_n none l r) : (⟨S50000x384, .f32⟩ : BufTy).Contents (Elt F) → (⟨S384x128, .f32⟩ : BufTy).Contents (Elt F) → (⟨S50000x128, .f32⟩ : BufTy).Contents (Elt F)),
    StableHlo.unary main_arg10 main_v144 (broadcastInDim S1x128 ![1] bcast_S128_S1x128_1 : (⟨S128, .f32⟩ : BufTy).Contents (Elt F) → (⟨S1x128, .f32⟩ : BufTy).Contents (Elt F)),
    StableHlo.unary main_v144 main_v145 (broadcastInDim S50000x128 ![0, 1] bcast_S1x128_S50000x128_0_1 : (⟨S1x128, .f32⟩ : BufTy).Contents (Elt F) → (⟨S50000x128, .f32⟩ : BufTy).Contents (Elt F)),
    StableHlo.binary main_v143 main_v145 main_v146 (addf : (⟨S50000x128, .f32⟩ : BufTy).Contents (Elt F) → (⟨S50000x128, .f32⟩ : BufTy).Contents (Elt F) → (⟨S50000x128, .f32⟩ : BufTy).Contents (Elt F)),
    StableHlo.nullary main_call5_cst (constant S_ .f32 0x00000000#32),
    StableHlo.unary main_call5_cst main_call5_v0 (broadcastInDim S50000x128 ![] bcast_S_S50000x128 : (⟨S_, .f32⟩ : BufTy).Contents (Elt F) → (⟨S50000x128, .f32⟩ : BufTy).Contents (Elt F)),
    StableHlo.binary main_v146 main_call5_v0 main_v147 (maximumf : (⟨S50000x128, .f32⟩ : BufTy).Contents (Elt F) → (⟨S50000x128, .f32⟩ : BufTy).Contents (Elt F) → (⟨S50000x128, .f32⟩ : BufTy).Contents (Elt F)) ]
/-- The buffers those operations write, in order. -/
abbrev pL4_W : List (Ref sig .tc) := [main_v114, main_v115, main_c_21, main_v116, main_v117, main_c_22, main_v118, main_v119, main_v120, main_v121, main_v122, main_cst_23, main_v123, main_v124, main_v125, main_v126, main_v127, main_v128, main_v129, main_c_24, main_v130, main_v131, main_c_25, main_v132, main_v133, main_v134, main_v135, main_v136, main_cst_26, main_v137, main_v138, main_v139, main_v140, main_v141, main_v142, main_v143, main_v144, main_v145, main_v146, main_call5_cst, main_call5_v0, main_v147]
theorem pL4_sub : (pL4 : List (HloOp τ sig (Elt F))).Forall fun op => op.bufs ⊆ tcRefs τ sig :=
  ⟨unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., nary_bufs_sub .., binary_bufs_sub .., unary_bufs_sub .., unary_bufs_sub .., binary_bufs_sub .., nullary_bufs_sub .., unary_bufs_sub .., binary_bufs_sub ..⟩

/-- @main's statements 178 … 180 of 227, calls written out: 3 operations. -/
abbrev pL5a : List (HloOp τ sig (Elt F)) :=
  [ StableHlo.unary main_v11 main_v148 (broadcastInDim S50000x128 ![0, 1] bcast_S50000x1_S50000x128_0_1 : (⟨S50000x1, .f32⟩ : BufTy).Contents (Elt F) → (⟨S50000x128, .f32⟩ : BufTy).Contents (Elt F)),
    StableHlo.binary main_v147 main_v148 main_v149 (mulf : (⟨S50000x128, .f32⟩ : BufTy).Contents (Elt F) → (⟨S50000x128, .f32⟩ : BufTy).Contents (Elt F) → (⟨S50000x128, .f32⟩ : BufTy).Contents (Elt F)),
    StableHlo.nullary main_c_27 (constantI S_ 32 0#32) ]
/-- The buffers those operations write, in order. -/
abbrev pL5a_W : List (Ref sig .tc) := [main_v148, main_v149, main_c_27]
theorem pL5a_sub : (pL5a : List (HloOp τ sig (Elt F))).Forall fun op => op.bufs ⊆ tcRefs τ sig :=
  ⟨unary_bufs_sub .., binary_bufs_sub .., nullary_bufs_sub ..⟩

/-- @main's statements 181 … 217 of 227, calls written out: 39 operations. -/
abbrev pL5b : List (HloOp τ sig (Elt F)) :=
  [ StableHlo.unary main_c_27 main_v150 (broadcastInDim S800000 ![] bcast_S_S800000 : (⟨S_, .i32⟩ : BufTy).Contents (Elt F) → (⟨S800000, .i32⟩ : BufTy).Contents (Elt F)),
    StableHlo.binary main_arg1 main_v150 main_v151 (cmpi .slt : (⟨S800000, .i32⟩ : BufTy).Contents (Elt F) → (⟨S800000, .i32⟩ : BufTy).Contents (Elt F) → (⟨S800000, .i1⟩ : BufTy).Contents (Elt F)),
    StableHlo.nullary main_c_28 (constantI S_ 32 50000#32),
    StableHlo.unary main_c_28 main_v152 (broadcastInDim S800000 ![] bcast_S_S800000 : (⟨S_, .i32⟩ : BufTy).Contents (Elt F) → (⟨S800000, .i32⟩ : BufTy).Contents (Elt F)),
    StableHlo.binary main_arg1 main_v152 main_v153 (addi : (⟨S800000, .i32⟩ : BufTy).Contents (Elt F) → (⟨S800000, .i32⟩ : BufTy).Contents (Elt F) → (⟨S800000, .i32⟩ : BufTy).Contents (Elt F)),
    StableHlo.ternary main_v151 main_v153 main_arg1 main_v154 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v154 main_v155 (broadcastInDim S800000x1 ![0] bcast_S800000_S800000x1_0 : (⟨S800000, .i32⟩ : BufTy).Contents (Elt F) → (⟨S800000x1, .i32⟩ : BufTy).Contents (Elt F)),
    StableHlo.binary main_v149 main_v155 main_v156 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_29 (constant S_ .f32 0x00000000#32),
    StableHlo.unary main_cst_29 main_v157 (broadcastInDim S50000x128 ![] bcast_S_S50000x128 : (⟨S_, .f32⟩ : BufTy).Contents (Elt F) → (⟨S50000x128, .f32⟩ : BufTy).Contents (Elt F)),
    StableHlo.unary main_arg2 main_v158 (broadcastInDim S800000x1 ![0] bcast_S800000_S800000x1_0 : (⟨S800000, .i32⟩ : BufTy).Contents (Elt F) → (⟨S800000x1, .i32⟩ : BufTy).Contents (Elt F)),
    StableHlo.ternary main_v157 main_v158 main_v156 main_v159 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v11 main_v160 (broadcastInDim S50000x128 ![0, 1] bcast_S50000x1_S50000x128_0_1 : (⟨S50000x1, .f32⟩ : BufTy).Contents (Elt F) → (⟨S50000x128, .f32⟩ : BufTy).Contents (Elt F)),
    StableHlo.binary main_v159 main_v160 main_v161 (mulf : (⟨S50000x128, .f32⟩ : BufTy).Contents (Elt F) → (⟨S50000x128, .f32⟩ : BufTy).Contents (Elt F) → (⟨S50000x128, .f32⟩ : BufTy).Contents (Elt F)),
    StableHlo.unary main_v11 main_v162 (broadcastInDim S50000x128 ![0, 1] bcast_S50000x1_S50000x128_0_1 : (⟨S50000x1, .f32⟩ : BufTy).Contents (Elt F) → (⟨S50000x128, .f32⟩ : BufTy).Contents (Elt F)),
    StableHlo.binary main_v161 main_v162 main_v163 (mulf : (⟨S50000x128, .f32⟩ : BufTy).Contents (Elt F) → (⟨S50000x128, .f32⟩ : BufTy).Contents (Elt F) → (⟨S50000x128, .f32⟩ : BufTy).Contents (Elt F)),
    StableHlo.nullary main_c_30 (constantI S_ 32 0#32),
    StableHlo.unary main_c_30 main_v164 (broadcastInDim S800000 ![] bcast_S_S800000 : (⟨S_, .i32⟩ : BufTy).Contents (Elt F) → (⟨S800000, .i32⟩ : BufTy).Contents (Elt F)),
    StableHlo.binary main_arg1 main_v164 main_v165 (cmpi .slt : (⟨S800000, .i32⟩ : BufTy).Contents (Elt F) → (⟨S800000, .i32⟩ : BufTy).Contents (Elt F) → (⟨S800000, .i1⟩ : BufTy).Contents (Elt F)),
    StableHlo.nullary main_c_31 (constantI S_ 32 50000#32),
    StableHlo.unary main_c_31 main_v166 (broadcastInDim S800000 ![] bcast_S_S800000 : (⟨S_, .i32⟩ : BufTy).Contents (Elt F) → (⟨S800000, .i32⟩ : BufTy).Contents (Elt F)),
    StableHlo.binary main_arg1 main_v166 main_v167 (addi : (⟨S800000, .i32⟩ : BufTy).Contents (Elt F) → (⟨S800000, .i32⟩ : BufTy).Contents (Elt F) → (⟨S800000, .i32⟩ : BufTy).Contents (Elt F)),
    StableHlo.ternary main_v165 main_v167 main_arg1 main_v168 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v168 main_v169 (broadcastInDim S800000x1 ![0] bcast_S800000_S800000x1_0 : (⟨S800000, .i32⟩ : BufTy).Contents (Elt F) → (⟨S800000x1, .i32⟩ : BufTy).Contents (Elt F)),
    StableHlo.binary main_v163 main_v169 main_v170 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_32 (constant S_ .f32 0x00000000#32),
    StableHlo.unary main_cst_32 main_v171 (broadcastInDim S50000x128 ![] bcast_S_S50000x128 : (⟨S_, .f32⟩ : BufTy).Contents (Elt F) → (⟨S50000x128, .f32⟩ : BufTy).Contents (Elt F)),
    StableHlo.unary main_arg2 main_v172 (broadcastInDim S800000x1 ![0] bcast_S800000_S800000x1_0 : (⟨S800000, .i32⟩ : BufTy).Contents (Elt F) → (⟨S800000x1, .i32⟩ : BufTy).Contents (Elt F)),
    StableHlo.ternary main_v171 main_v172 main_v170 main_v173 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v11 main_v174 (broadcastInDim S50000x128 ![0, 1] bcast_S50000x1_S50000x128_0_1 : (⟨S50000x1, .f32⟩ : BufTy).Contents (Elt F) → (⟨S50000x128, .f32⟩ : BufTy).Contents (Elt F)),
    StableHlo.binary main_v173 main_v174 main_v175 (mulf : (⟨S50000x128, .f32⟩ : BufTy).Contents (Elt F) → (⟨S50000x128, .f32⟩ : BufTy).Contents (Elt F) → (⟨S50000x128, .f32⟩ : BufTy).Contents (Elt F)),
    StableHlo.nary ![main_v147, main_v161, main_v175] main_v176 (fun u => concatenate S50000x384 1 [⟨S50000x128, u 0⟩, ⟨S50000x128, u 1⟩, ⟨S50000x128, u 2⟩] concatenates_S50000x128_S50000x128_S50000x128_S50000x384_d1),
    StableHlo.binary main_v176 main_arg11 main_v177 ((fun l r => Host.dotGeneral dot_S50000x384_S384x128_S50000x128_1_0_0_1_n_n none l r) : (⟨S50000x384, .f32⟩ : BufTy).Contents (Elt F) → (⟨S384x128, .f32⟩ : BufTy).Contents (Elt F) → (⟨S50000x128, .f32⟩ : BufTy).Contents (Elt F)),
    StableHlo.unary main_arg12 main_v178 (broadcastInDim S1x128 ![1] bcast_S128_S1x128_1 : (⟨S128, .f32⟩ : BufTy).Contents (Elt F) → (⟨S1x128, .f32⟩ : BufTy).Contents (Elt F)),
    StableHlo.unary main_v178 main_v179 (broadcastInDim S50000x128 ![0, 1] bcast_S1x128_S50000x128_0_1 : (⟨S1x128, .f32⟩ : BufTy).Contents (Elt F) → (⟨S50000x128, .f32⟩ : BufTy).Contents (Elt F)),
    StableHlo.binary main_v177 main_v179 main_v180 (addf : (⟨S50000x128, .f32⟩ : BufTy).Contents (Elt F) → (⟨S50000x128, .f32⟩ : BufTy).Contents (Elt F) → (⟨S50000x128, .f32⟩ : BufTy).Contents (Elt F)),
    StableHlo.nullary main_call6_cst (constant S_ .f32 0x00000000#32),
    StableHlo.unary main_call6_cst main_call6_v0 (broadcastInDim S50000x128 ![] bcast_S_S50000x128 : (⟨S_, .f32⟩ : BufTy).Contents (Elt F) → (⟨S50000x128, .f32⟩ : BufTy).Contents (Elt F)),
    StableHlo.binary main_v180 main_call6_v0 main_v181 (maximumf : (⟨S50000x128, .f32⟩ : BufTy).Contents (Elt F) → (⟨S50000x128, .f32⟩ : BufTy).Contents (Elt F) → (⟨S50000x128, .f32⟩ : BufTy).Contents (Elt F)) ]
/-- The buffers those operations write, in order. -/
abbrev pL5b_W : List (Ref sig .tc) := [main_v150, main_v151, main_c_28, main_v152, main_v153, main_v154, main_v155, main_v156, main_cst_29, main_v157, main_v158, main_v159, main_v160, main_v161, main_v162, main_v163, main_c_30, main_v164, main_v165, main_c_31, main_v166, main_v167, main_v168, main_v169, main_v170, main_cst_32, main_v171, main_v172, main_v173, main_v174, main_v175, main_v176, main_v177, main_v178, main_v179, main_v180, main_call6_cst, main_call6_v0, main_v181]
theorem pL5b_sub : (pL5b : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., nary_bufs_sub .., binary_bufs_sub .., unary_bufs_sub .., unary_bufs_sub .., binary_bufs_sub .., nullary_bufs_sub .., unary_bufs_sub .., binary_bufs_sub ..⟩

/-- @main's statements 218 … 226 of 227, calls written out: 9 operations. -/
abbrev pT : List (HloOp τ sig (Elt F)) :=
  [ StableHlo.nullary main_cst_33 (constant S_ .f32 0x00000000#32),
    StableHlo.binary main_v181 main_cst_33 main_v182 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_v182 main_v183 (broadcastInDim S1x128 ![1] bcast_S128_S1x128_1 : (⟨S128, .f32⟩ : BufTy).Contents (Elt F) → (⟨S1x128, .f32⟩ : BufTy).Contents (Elt F)),
    StableHlo.nullary main_cst_34 (constant S_ .f32 0x47435000#32),
    StableHlo.unary main_cst_34 main_v184 (broadcastInDim S1x128 ![] bcast_S_S1x128 : (⟨S_, .f32⟩ : BufTy).Contents (Elt F) → (⟨S1x128, .f32⟩ : BufTy).Contents (Elt F)),
    StableHlo.binary main_v183 main_v184 main_v185 (Host.divf : (⟨S1x128, .f32⟩ : BufTy).Contents (Elt F) → (⟨S1x128, .f32⟩ : BufTy).Contents (Elt F) → (⟨S1x128, .f32⟩ : BufTy).Contents (Elt F)),
    StableHlo.binary main_v185 main_arg13 main_v186 ((fun l r => Host.dotGeneral dot_S1x128_S128x1_S1x1_1_0_0_1_n_n none l r) : (⟨S1x128, .f32⟩ : BufTy).Contents (Elt F) → (⟨S128x1, .f32⟩ : BufTy).Contents (Elt F) → (⟨S1x1, .f32⟩ : BufTy).Contents (Elt F)),
    StableHlo.unary main_arg14 main_v187 (broadcastInDim S1x1 ![1] bcast_S1_S1x1_1 : (⟨S1, .f32⟩ : BufTy).Contents (Elt F) → (⟨S1x1, .f32⟩ : BufTy).Contents (Elt F)),
    StableHlo.binary main_v186 main_v187 main_v188 (addf : (⟨S1x1, .f32⟩ : BufTy).Contents (Elt F) → (⟨S1x1, .f32⟩ : BufTy).Contents (Elt F) → (⟨S1x1, .f32⟩ : BufTy).Contents (Elt F)) ]
/-- The buffers those operations write, in order. -/
abbrev pT_W : List (Ref sig .tc) := [main_cst_33, main_v182, main_v183, main_cst_34, main_v184, main_v185, main_v186, main_v187, main_v188]
theorem pT_sub : (pT : List (HloOp τ sig (Elt F))).Forall fun op => op.bufs ⊆ tcRefs τ sig :=
  ⟨nullary_bufs_sub .., binary_bufs_sub .., unary_bufs_sub .., nullary_bufs_sub .., unary_bufs_sub .., binary_bufs_sub .., binary_bufs_sub .., unary_bufs_sub .., binary_bufs_sub ..⟩

end Cert.ReferenceIdeal.Hand

end
-- ==== Proof.Ref.Lists.lean ====
/-
  The reference program's operations grouped twice: by what they compute (the cleaning of the features together
  with the normalising column; each of the five layers, ending at its rectification; the readout) and by the four
  windows the program is printed in. Both groupings concatenate the same pieces in the same order, so they are one
  list, by associativity of concatenation alone.
-/
import proofs.«151709_j57303453663856_1_alg».proof.Proof.Ref.Ops

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- The cleaned features and the normalising column. -/
abbrev opsA : List (HloOp τ sig (Elt F)) := pA
/-- The first layer, from the column's spreading over the features to the rectified output. -/
abbrev opsL1 : List (HloOp τ sig (Elt F)) := pL1
/-- The second layer. -/
abbrev opsL2 : List (HloOp τ sig (Elt F)) := pL2a ++ pL2b
/-- The third layer. -/
abbrev opsL3 : List (HloOp τ sig (Elt F)) := pL3a ++ pL3b
/-- The fourth layer. -/
abbrev opsL4 : List (HloOp τ sig (Elt F)) := pL4
/-- The fifth layer. -/
abbrev opsL5 : List (HloOp τ sig (Elt F)) := pL5a ++ pL5b
/-- The readout: the mean over the nodes, the projection and its bias. -/
abbrev opsT : List (HloOp τ sig (Elt F)) := pT

/-- All of @main's operations, stage by stage. -/
abbrev ops : List (HloOp τ sig (Elt F)) := opsA ++ (opsL1 ++ (opsL2 ++ (opsL3 ++ (opsL4 ++ (opsL5 ++ opsT)))))

/-- The operations of the four printed windows. -/
abbrev win0 : List (HloOp τ sig (Elt F)) := pA ++ (pL1 ++ pL2a)
abbrev win1 : List (HloOp τ sig (Elt F)) := pL2b ++ pL3a
abbrev win2 : List (HloOp τ sig (Elt F)) := pL3b ++ (pL4 ++ pL5a)
abbrev win3 : List (HloOp τ sig (Elt F)) := pL5b ++ pT

/-- The stages in order are the windows in order. -/
theorem ops_windows : (ops : List (HloOp τ sig (Elt F))) = win0 ++ (win1 ++ (win2 ++ win3)) := by
  simp only [ops, opsA, opsL1, opsL2, opsL3, opsL4, opsL5, opsT, win0, win1, win2, win3, List.append_assoc]

/-- The buffers each stage writes. -/
abbrev WA : List (Ref sig .tc) := pA_W
abbrev WL1 : List (Ref sig .tc) := pL1_W
abbrev WL2 : List (Ref sig .tc) := pL2a_W ++ pL2b_W
abbrev WL3 : List (Ref sig .tc) := pL3a_W ++ pL3b_W
abbrev WL4 : List (Ref sig .tc) := pL4_W
abbrev WL5 : List (Ref sig .tc) := pL5a_W ++ pL5b_W
abbrev WT : List (Ref sig .tc) := pT_W
/-- Every buffer @main writes. -/
abbrev Wall : List (Ref sig .tc) := WA ++ (WL1 ++ (WL2 ++ (WL3 ++ (WL4 ++ (WL5 ++ WT)))))

end Cert.ReferenceIdeal.Hand

end
-- ==== Proof.Ref.Win0.lean ====
/-
  The first printed window of @main is its operations run in order: each call is its callee's body at the
  call's own buffers, and a typed reference at a literal buffer moves contents by the identity.
-/
import proofs.«151709_j57303453663856_1_alg».proof.Proof.Ref.Lists

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

set_option maxRecDepth 8192 in
set_option maxHeartbeats 4000000 in
theorem main_part0_eq (c : Dev nD) : main_part0 (F := F) c = seq win0 := rfl

end Cert.ReferenceIdeal.Hand

end
-- ==== Proof.Ref.Win1.lean ====
/-
  The second printed window of @main is its operations run in order: each call is its callee's body at the
  call's own buffers, and a typed reference at a literal buffer moves contents by the identity.
-/
import proofs.«151709_j57303453663856_1_alg».proof.Proof.Ref.Lists

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

set_option maxRecDepth 8192 in
set_option maxHeartbeats 4000000 in
theorem main_part1_eq (c : Dev nD) : main_part1 (F := F) c = seq win1 := rfl

end Cert.ReferenceIdeal.Hand

end
-- ==== Proof.Ref.Win2.lean ====
/-
  The third printed window of @main is its operations run in order: each call is its callee's body at the
  call's own buffers, and a typed reference at a literal buffer moves contents by the identity.
-/
import proofs.«151709_j57303453663856_1_alg».proof.Proof.Ref.Lists

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

set_option maxRecDepth 8192 in
set_option maxHeartbeats 4000000 in
theorem main_part2_eq (c : Dev nD) : main_part2 (F := F) c = seq win2 := rfl

end Cert.ReferenceIdeal.Hand

end
-- ==== Proof.Ref.Win3.lean ====
/-
  The fourth printed window of @main is its operations run in order: each call is its callee's body at the
  call's own buffers, and a typed reference at a literal buffer moves contents by the identity.
-/
import proofs.«151709_j57303453663856_1_alg».proof.Proof.Ref.Lists

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

set_option maxRecDepth 8192 in
set_option maxHeartbeats 4000000 in
theorem main_part3_eq (c : Dev nD) : main_part3 (F := F) c = seq win3 := rfl

end Cert.ReferenceIdeal.Hand

end
-- ==== Proof.Ref.Side.lean ====
/-
  The side conditions of the run: the program has no scoped buffer or semaphore; every operation reads and writes
  TensorCore buffers only; none allocates a buffer whose contents are not determined; and each stage writes only the
  buffers listed for it, so a buffer outside the list — every argument of @main among them — keeps its contents.
-/
import proofs.«151709_j57303453663856_1_alg».proof.Proof.Ref.Lists

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

theorem scopedRefs_eq : (Finset.univ.filter fun b : Ref sig .tc => b.isScoped) = ∅ := by decide
theorem scopedSems_eq : (Finset.univ.filter fun sm : SemLoc sig => sm.isScoped .tc) = ∅ := by decide

section General

variable {l₁ l₂ : List (HloOp τ sig (Elt F))} {W₁ W₂ : List (Ref sig .tc)}

/-- Operations writing inside `W₁` followed by operations writing inside `W₂` write inside `W₁ ++ W₂`. -/
theorem writes_append
    (h₁ : l₁.Forall fun op => op.writes ⊆ (W₁.map (Proc.devRef (τ := τ) .tc)).toFinset)
    (h₂ : l₂.Forall fun op => op.writes ⊆ (W₂.map (Proc.devRef (τ := τ) .tc)).toFinset) :
    (l₁ ++ l₂).Forall fun op => op.writes ⊆ ((W₁ ++ W₂).map (Proc.devRef (τ := τ) .tc)).toFinset :=
  List.forall_iff_forall_mem.mpr fun op h => by
    intro x hx
    simp only [List.map_append, List.toFinset_append, Finset.mem_union]
    rcases List.mem_append.mp h with h | h
    · exact Or.inl (List.forall_iff_forall_mem.mp h₁ op h hx)
    · exact Or.inr (List.forall_iff_forall_mem.mp h₂ op h hx)

theorem sub_append
    (h₁ : l₁.Forall fun op => op.bufs ⊆ tcRefs τ sig) (h₂ : l₂.Forall fun op => op.bufs ⊆ tcRefs τ sig) :
    (l₁ ++ l₂).Forall fun op => op.bufs ⊆ tcRefs τ sig :=
  List.forall_iff_forall_mem.mpr fun op h => by
    rcases List.mem_append.mp h with h | h
    · exact List.forall_iff_forall_mem.mp h₁ op h
    · exact List.forall_iff_forall_mem.mp h₂ op h

theorem fresh_append (h₁ : ∀ op ∈ l₁, op.fresh = ∅) (h₂ : ∀ op ∈ l₂, op.fresh = ∅) : ∀ op ∈ l₁ ++ l₂, op.fresh = ∅ :=
  fun op h => (List.mem_append.mp h).elim (h₁ op) (h₂ op)

end General

theorem pA_writes : (pA : List (HloOp τ sig (Elt F))).Forall fun op =>
    op.writes ⊆ ((pA_W).map (Proc.devRef (τ := τ) .tc)).toFinset := by
  simp only [pA, List.Forall, nullary_writes, unary_writes, binary_writes, ternary_writes, nary_writes,
    Finset.singleton_subset_iff, List.mem_toFinset]
  repeat' apply And.intro
  all_goals exact List.mem_map_of_mem (by decide)

theorem pL1_writes : (pL1 : List (HloOp τ sig (Elt F))).Forall fun op =>
    op.writes ⊆ ((pL1_W).map (Proc.devRef (τ := τ) .tc)).toFinset := by
  simp only [pL1, List.Forall, nullary_writes, unary_writes, binary_writes, ternary_writes, nary_writes,
    Finset.singleton_subset_iff, List.mem_toFinset]
  repeat' apply And.intro
  all_goals exact List.mem_map_of_mem (by decide)

theorem pL2a_writes : (pL2a : List (HloOp τ sig (Elt F))).Forall fun op =>
    op.writes ⊆ ((pL2a_W).map (Proc.devRef (τ := τ) .tc)).toFinset := by
  simp only [pL2a, List.Forall, nullary_writes, unary_writes, binary_writes, ternary_writes, nary_writes,
    Finset.singleton_subset_iff, List.mem_toFinset]
  repeat' apply And.intro
  all_goals exact List.mem_map_of_mem (by decide)

theorem pL2b_writes : (pL2b : List (HloOp τ sig (Elt F))).Forall fun op =>
    op.writes ⊆ ((pL2b_W).map (Proc.devRef (τ := τ) .tc)).toFinset := by
  simp only [pL2b, List.Forall, nullary_writes, unary_writes, binary_writes, ternary_writes, nary_writes,
    Finset.singleton_subset_iff, List.mem_toFinset]
  repeat' apply And.intro
  all_goals exact List.mem_map_of_mem (by decide)

theorem pL3a_writes : (pL3a : List (HloOp τ sig (Elt F))).Forall fun op =>
    op.writes ⊆ ((pL3a_W).map (Proc.devRef (τ := τ) .tc)).toFinset := by
  simp only [pL3a, List.Forall, nullary_writes, unary_writes, binary_writes, ternary_writes, nary_writes,
    Finset.singleton_subset_iff, List.mem_toFinset]
  repeat' apply And.intro
  all_goals exact List.mem_map_of_mem (by decide)

theorem pL3b_writes : (pL3b : List (HloOp τ sig (Elt F))).Forall fun op =>
    op.writes ⊆ ((pL3b_W).map (Proc.devRef (τ := τ) .tc)).toFinset := by
  simp only [pL3b, List.Forall, nullary_writes, unary_writes, binary_writes, ternary_writes, nary_writes,
    Finset.singleton_subset_iff, List.mem_toFinset]
  repeat' apply And.intro
  all_goals exact List.mem_map_of_mem (by decide)

theorem pL4_writes : (pL4 : List (HloOp τ sig (Elt F))).Forall fun op =>
    op.writes ⊆ ((pL4_W).map (Proc.devRef (τ := τ) .tc)).toFinset := by
  simp only [pL4, List.Forall, nullary_writes, unary_writes, binary_writes, ternary_writes, nary_writes,
    Finset.singleton_subset_iff, List.mem_toFinset]
  repeat' apply And.intro
  all_goals exact List.mem_map_of_mem (by decide)

theorem pL5a_writes : (pL5a : List (HloOp τ sig (Elt F))).Forall fun op =>
    op.writes ⊆ ((pL5a_W).map (Proc.devRef (τ := τ) .tc)).toFinset := by
  simp only [pL5a, List.Forall, nullary_writes, unary_writes, binary_writes, ternary_writes, nary_writes,
    Finset.singleton_subset_iff, List.mem_toFinset]
  repeat' apply And.intro
  all_goals exact List.mem_map_of_mem (by decide)

theorem pL5b_writes : (pL5b : List (HloOp τ sig (Elt F))).Forall fun op =>
    op.writes ⊆ ((pL5b_W).map (Proc.devRef (τ := τ) .tc)).toFinset := by
  simp only [pL5b, List.Forall, nullary_writes, unary_writes, binary_writes, ternary_writes, nary_writes,
    Finset.singleton_subset_iff, List.mem_toFinset]
  repeat' apply And.intro
  all_goals exact List.mem_map_of_mem (by decide)

theorem pT_writes : (pT : List (HloOp τ sig (Elt F))).Forall fun op =>
    op.writes ⊆ ((pT_W).map (Proc.devRef (τ := τ) .tc)).toFinset := by
  simp only [pT, List.Forall, nullary_writes, unary_writes, binary_writes, ternary_writes, nary_writes,
    Finset.singleton_subset_iff, List.mem_toFinset]
  repeat' apply And.intro
  all_goals exact List.mem_map_of_mem (by decide)

theorem pA_fresh : ∀ op ∈ (pA : List (HloOp τ sig (Elt F))), op.fresh = ∅ := by
  intro _ h
  repeat (cases h with | head => rfl | tail _ h => ?_)
  exact nomatch h

theorem pL1_fresh : ∀ op ∈ (pL1 : List (HloOp τ sig (Elt F))), op.fresh = ∅ := by
  intro _ h
  repeat (cases h with | head => rfl | tail _ h => ?_)
  exact nomatch h

theorem pL2a_fresh : ∀ op ∈ (pL2a : List (HloOp τ sig (Elt F))), op.fresh = ∅ := by
  intro _ h
  repeat (cases h with | head => rfl | tail _ h => ?_)
  exact nomatch h

theorem pL2b_fresh : ∀ op ∈ (pL2b : List (HloOp τ sig (Elt F))), op.fresh = ∅ := by
  intro _ h
  repeat (cases h with | head => rfl | tail _ h => ?_)
  exact nomatch h

theorem pL3a_fresh : ∀ op ∈ (pL3a : List (HloOp τ sig (Elt F))), op.fresh = ∅ := by
  intro _ h
  repeat (cases h with | head => rfl | tail _ h => ?_)
  exact nomatch h

theorem pL3b_fresh : ∀ op ∈ (pL3b : List (HloOp τ sig (Elt F))), op.fresh = ∅ := by
  intro _ h
  repeat (cases h with | head => rfl | tail _ h => ?_)
  exact nomatch h

theorem pL4_fresh : ∀ op ∈ (pL4 : List (HloOp τ sig (Elt F))), op.fresh = ∅ := by
  intro _ h
  repeat (cases h with | head => rfl | tail _ h => ?_)
  exact nomatch h

theorem pL5a_fresh : ∀ op ∈ (pL5a : List (HloOp τ sig (Elt F))), op.fresh = ∅ := by
  intro _ h
  repeat (cases h with | head => rfl | tail _ h => ?_)
  exact nomatch h

theorem pL5b_fresh : ∀ op ∈ (pL5b : List (HloOp τ sig (Elt F))), op.fresh = ∅ := by
  intro _ h
  repeat (cases h with | head => rfl | tail _ h => ?_)
  exact nomatch h

theorem pT_fresh : ∀ op ∈ (pT : List (HloOp τ sig (Elt F))), op.fresh = ∅ := by
  intro _ h
  repeat (cases h with | head => rfl | tail _ h => ?_)
  exact nomatch h

/-! The stages. -/

theorem opsA_writes : (opsA : List (HloOp τ sig (Elt F))).Forall fun op => op.writes ⊆ (WA.map (Proc.devRef (τ := τ) .tc)).toFinset := pA_writes
theorem opsL1_writes : (opsL1 : List (HloOp τ sig (Elt F))).Forall fun op => op.writes ⊆ (WL1.map (Proc.devRef (τ := τ) .tc)).toFinset := pL1_writes
theorem opsL2_writes : (opsL2 : List (HloOp τ sig (Elt F))).Forall fun op => op.writes ⊆ (WL2.map (Proc.devRef (τ := τ) .tc)).toFinset := writes_append pL2a_writes pL2b_writes
theorem opsL3_writes : (opsL3 : List (HloOp τ sig (Elt F))).Forall fun op => op.writes ⊆ (WL3.map (Proc.devRef (τ := τ) .tc)).toFinset := writes_append pL3a_writes pL3b_writes
theorem opsL4_writes : (opsL4 : List (HloOp τ sig (Elt F))).Forall fun op => op.writes ⊆ (WL4.map (Proc.devRef (τ := τ) .tc)).toFinset := pL4_writes
theorem opsL5_writes : (opsL5 : List (HloOp τ sig (Elt F))).Forall fun op => op.writes ⊆ (WL5.map (Proc.devRef (τ := τ) .tc)).toFinset := writes_append pL5a_writes pL5b_writes
theorem opsT_writes : (opsT : List (HloOp τ sig (Elt F))).Forall fun op => op.writes ⊆ (WT.map (Proc.devRef (τ := τ) .tc)).toFinset := pT_writes

/-- The whole program writes inside `Wall`. -/
theorem ops_writes : (ops : List (HloOp τ sig (Elt F))).Forall fun op => op.writes ⊆ (Wall.map (Proc.devRef (τ := τ) .tc)).toFinset :=
  writes_append opsA_writes (writes_append opsL1_writes (writes_append opsL2_writes (writes_append opsL3_writes
    (writes_append opsL4_writes (writes_append opsL5_writes opsT_writes)))))

theorem ops_sub : (ops : List (HloOp τ sig (Elt F))).Forall fun op => op.bufs ⊆ tcRefs τ sig :=
  sub_append pA_sub (sub_append pL1_sub (sub_append (sub_append pL2a_sub pL2b_sub) (sub_append (sub_append pL3a_sub pL3b_sub)
    (sub_append pL4_sub (sub_append (sub_append pL5a_sub pL5b_sub) pT_sub)))))

theorem ops_fresh : ∀ op ∈ (ops : List (HloOp τ sig (Elt F))), op.fresh = ∅ :=
  fresh_append pA_fresh (fresh_append pL1_fresh (fresh_append (fresh_append pL2a_fresh pL2b_fresh) (fresh_append (fresh_append pL3a_fresh pL3b_fresh)
    (fresh_append pL4_fresh (fresh_append (fresh_append pL5a_fresh pL5b_fresh) pT_fresh)))))

/-! A buffer a stage does not write keeps its contents through it. -/

section Keep
variable (V : Valuation τ sig (Elt F)) (r : Ref sig .tc)

theorem keepA (h : r ∉ WA) : after opsA V (Proc.devRef .tc r) = V (Proc.devRef .tc r) := after_of_writes_sub opsA V opsA_writes h
theorem keepL1 (h : r ∉ WL1) : after opsL1 V (Proc.devRef .tc r) = V (Proc.devRef .tc r) := after_of_writes_sub opsL1 V opsL1_writes h
theorem keepL2 (h : r ∉ WL2) : after opsL2 V (Proc.devRef .tc r) = V (Proc.devRef .tc r) := after_of_writes_sub opsL2 V opsL2_writes h
theorem keepL3 (h : r ∉ WL3) : after opsL3 V (Proc.devRef .tc r) = V (Proc.devRef .tc r) := after_of_writes_sub opsL3 V opsL3_writes h
theorem keepL4 (h : r ∉ WL4) : after opsL4 V (Proc.devRef .tc r) = V (Proc.devRef .tc r) := after_of_writes_sub opsL4 V opsL4_writes h
theorem keepL5 (h : r ∉ WL5) : after opsL5 V (Proc.devRef .tc r) = V (Proc.devRef .tc r) := after_of_writes_sub opsL5 V opsL5_writes h
theorem keepT (h : r ∉ WT) : after opsT V (Proc.devRef .tc r) = V (Proc.devRef .tc r) := after_of_writes_sub opsT V opsT_writes h
/-- A buffer @main never writes ends as it started. -/
theorem keep_ops (h : r ∉ Wall) : after ops V (Proc.devRef .tc r) = V (Proc.devRef .tc r) := after_of_writes_sub ops V ops_writes h

end Keep

end Cert.ReferenceIdeal.Hand

end
-- ==== Proof.Ref.Run.lean ====
/-
  The run of the reference program. @main is its four windows in order, each window is its operations in order, so
  @main is the whole list run in order; a straight line of host operations terminates without fault from any memory
  with zero counters, and leaves every TensorCore buffer at the fold of the operations' results over the launch
  contents. The result buffer is read at that fold; an argument is written by no operation and ends as it started.
-/
import proofs.«151709_j57303453663856_1_alg».proof.Proof.Ref.Win0
import proofs.«151709_j57303453663856_1_alg».proof.Proof.Ref.Win1
import proofs.«151709_j57303453663856_1_alg».proof.Proof.Ref.Win2
import proofs.«151709_j57303453663856_1_alg».proof.Proof.Ref.Win3
import proofs.«151709_j57303453663856_1_alg».proof.Proof.Ref.Side

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- @main is its operations run in order. -/
theorem main_eq (c : Dev nD) : main (F := F) c = seq ops := by
  rw [ops_windows]
  simp only [seq_append, ← main_part0_eq c, ← main_part1_eq c, ← main_part2_eq c, ← main_part3_eq c]
  rfl

/-- On every device, for any float values, from any memory with zero counters: every weakly fair execution of @main
    terminates, and every final state has each TensorCore buffer at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

/-- The same at the result and the arguments: the result at the fold, every argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v188) = after ops (fun b => m (c, b)) (Proc.devRef .tc main_v188)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨h c main_v188,
      (h c main_arg0).trans (keep_ops _ main_arg0 (by decide)),
      (h c main_arg1).trans (keep_ops _ main_arg1 (by decide)),
      (h c main_arg2).trans (keep_ops _ main_arg2 (by decide)),
      (h c main_arg3).trans (keep_ops _ main_arg3 (by decide)),
      (h c main_arg4).trans (keep_ops _ main_arg4 (by decide)),
      (h c main_arg5).trans (keep_ops _ main_arg5 (by decide)),
      (h c main_arg6).trans (keep_ops _ main_arg6 (by decide)),
      (h c main_arg7).trans (keep_ops _ main_arg7 (by decide)),
      (h c main_arg8).trans (keep_ops _ main_arg8 (by decide)),
      (h c main_arg9).trans (keep_ops _ main_arg9 (by decide)),
      (h c main_arg10).trans (keep_ops _ main_arg10 (by decide)),
      (h c main_arg11).trans (keep_ops _ main_arg11 (by decide)),
      (h c main_arg12).trans (keep_ops _ main_arg12 (by decide)),
      (h c main_arg13).trans (keep_ops _ main_arg13 (by decide)),
      (h c main_arg14).trans (keep_ops _ main_arg14 (by decide))⟩)
    (run_all m ρ)

end Cert.ReferenceIdeal.Hand

end
-- ==== Proof.Ref.Frame.lean ====
/-
  The frame conjunct for the reference program: it runs to the end without fault and its arguments end unchanged —
  the run's statement without what it says of the result.
-/
import proofs.«151709_j57303453663856_1_alg».proof.Defs
import proofs.«151709_j57303453663856_1_alg».proof.Proof.Ref.Run

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

theorem frame [Cert.Pre_finite_inputs.Facts] : Cert.frame_ReferenceIdeal :=
  fun m ρ _ => (θ_run Cert.ReferenceIdeal.defs _ _).mono (fun _ h c => (h c).2) (run (F := Ideal) m ρ)

end Cert.ReferenceIdeal.Hand

end
-- ==== Proof.Ref.ReadA.lean ====
/-
  The first stage read back: from any contents, the operations up to the normalising column leave the cleaned
  features (NaN replaced by 0, the infinities by the largest and smallest finite values) in one buffer and the
  column — the reciprocal square root of the in-degree where it is positive, 0 elsewhere — in another, each the
  specification's function of the arguments' contents, operation for operation.
-/
import proofs.«151709_j57303453663856_1_alg».proof.Proof.Ref.Lists
import proofs.«151709_j57303453663856_1_alg».proof.Proof.Spec

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

set_option maxRecDepth 8192 in
set_option maxHeartbeats 2000000 in
theorem readA_h (V : Valuation τ sig (Elt F)) :
    after opsA V (Proc.devRef .tc main_v0) = Cert.Spec.clean (V (Proc.devRef .tc main_arg0)) := by
  simp only [opsA, pA]
  after_results_simp
  rfl

set_option maxRecDepth 8192 in
set_option maxHeartbeats 2000000 in
theorem readA_n (V : Valuation τ sig (Elt F)) :
    after opsA V (Proc.devRef .tc main_v11) = Cert.Spec.nrm (V (Proc.devRef .tc main_arg2)) := by
  simp only [opsA, pA]
  after_results_simp
  rfl

end Cert.ReferenceIdeal.Hand

end
-- ==== Proof.Ref.ReadL1.lean ====
/-
  The first layer read back: from any contents, its operations leave in the layer's output buffer the
  specification's layer — the rectified affine image of the features beside their one- and two-step normalised
  propagations — of the contents of the input features' buffer, the column's, the edge endpoints' and the layer's
  weights' and bias's, operation for operation.
-/
import proofs.«151709_j57303453663856_1_alg».proof.Proof.Ref.Lists
import proofs.«151709_j57303453663856_1_alg».proof.Proof.Spec

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

set_option maxRecDepth 8192 in
set_option maxHeartbeats 4000000 in
theorem readL1 (V : Valuation τ sig (Elt F)) :
    after opsL1 V (Proc.devRef .tc main_v45) =
      Cert.Spec.layer (V (Proc.devRef .tc main_v0)) (V (Proc.devRef .tc main_v11)) (V (Proc.devRef .tc main_arg1)) (V (Proc.devRef .tc main_arg2))
        (V (Proc.devRef .tc main_arg3)) (V (Proc.devRef .tc main_arg4)) := by
  simp only [opsL1, pL1]
  after_results_simp
  try dsimp only [Matrix.cons_val]
  try after_results_simp
  rfl

end Cert.ReferenceIdeal.Hand

end
-- ==== Proof.Ref.ReadL2.lean ====
/-
  The second layer read back: from any contents, its operations leave in the layer's output buffer the
  specification's layer — the rectified affine image of the features beside their one- and two-step normalised
  propagations — of the contents of the input features' buffer, the column's, the edge endpoints' and the layer's
  weights' and bias's, operation for operation.
-/
import proofs.«151709_j57303453663856_1_alg».proof.Proof.Ref.Lists
import proofs.«151709_j57303453663856_1_alg».proof.Proof.Spec

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

set_option maxRecDepth 8192 in
set_option maxHeartbeats 4000000 in
theorem readL2 (V : Valuation τ sig (Elt F)) :
    after opsL2 V (Proc.devRef .tc main_v79) =
      Cert.Spec.layer (V (Proc.devRef .tc main_v45)) (V (Proc.devRef .tc main_v11)) (V (Proc.devRef .tc main_arg1)) (V (Proc.devRef .tc main_arg2))
        (V (Proc.devRef .tc main_arg5)) (V (Proc.devRef .tc main_arg6)) := by
  simp only [opsL2, pL2a, pL2b, List.cons_append, List.nil_append]
  after_results_simp
  try dsimp only [Matrix.cons_val]
  try after_results_simp
  rfl

end Cert.ReferenceIdeal.Hand

end
-- ==== Proof.Ref.ReadL3.lean ====
/-
  The third layer read back: from any contents, its operations leave in the layer's output buffer the
  specification's layer — the rectified affine image of the features beside their one- and two-step normalised
  propagations — of the contents of the input features' buffer, the column's, the edge endpoints' and the layer's
  weights' and bias's, operation for operation.
-/
import proofs.«151709_j57303453663856_1_alg».proof.Proof.Ref.Lists
import proofs.«151709_j57303453663856_1_alg».proof.Proof.Spec

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

set_option maxRecDepth 8192 in
set_option maxHeartbeats 4000000 in
theorem readL3 (V : Valuation τ sig (Elt F)) :
    after opsL3 V (Proc.devRef .tc main_v113) =
      Cert.Spec.layer (V (Proc.devRef .tc main_v79)) (V (Proc.devRef .tc main_v11)) (V (Proc.devRef .tc main_arg1)) (V (Proc.devRef .tc main_arg2))
        (V (Proc.devRef .tc main_arg7)) (V (Proc.devRef .tc main_arg8)) := by
  simp only [opsL3, pL3a, pL3b, List.cons_append, List.nil_append]
  after_results_simp
  try dsimp only [Matrix.cons_val]
  try after_results_simp
  rfl

end Cert.ReferenceIdeal.Hand

end
-- ==== Proof.Ref.ReadL4.lean ====
/-
  The fourth layer read back: from any contents, its operations leave in the layer's output buffer the
  specification's layer — the rectified affine image of the features beside their one- and two-step normalised
  propagations — of the contents of the input features' buffer, the column's, the edge endpoints' and the layer's
  weights' and bias's, operation for operation.
-/
import proofs.«151709_j57303453663856_1_alg».proof.Proof.Ref.Lists
import proofs.«151709_j57303453663856_1_alg».proof.Proof.Spec

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

set_option maxRecDepth 8192 in
set_option maxHeartbeats 4000000 in
theorem readL4 (V : Valuation τ sig (Elt F)) :
    after opsL4 V (Proc.devRef .tc main_v147) =
      Cert.Spec.layer (V (Proc.devRef .tc main_v113)) (V (Proc.devRef .tc main_v11)) (V (Proc.devRef .tc main_arg1)) (V (Proc.devRef .tc main_arg2))
        (V (Proc.devRef .tc main_arg9)) (V (Proc.devRef .tc main_arg10)) := by
  simp only [opsL4, pL4]
  after_results_simp
  try dsimp only [Matrix.cons_val]
  try after_results_simp
  rfl

end Cert.ReferenceIdeal.Hand

end
-- ==== Proof.Ref.ReadL5.lean ====
/-
  The fifth layer read back: from any contents, its operations leave in the layer's output buffer the
  specification's layer — the rectified affine image of the features beside their one- and two-step normalised
  propagations — of the contents of the input features' buffer, the column's, the edge endpoints' and the layer's
  weights' and bias's, operation for operation.
-/
import proofs.«151709_j57303453663856_1_alg».proof.Proof.Ref.Lists
import proofs.«151709_j57303453663856_1_alg».proof.Proof.Spec

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

set_option maxRecDepth 8192 in
set_option maxHeartbeats 4000000 in
theorem readL5 (V : Valuation τ sig (Elt F)) :
    after opsL5 V (Proc.devRef .tc main_v181) =
      Cert.Spec.layer (V (Proc.devRef .tc main_v147)) (V (Proc.devRef .tc main_v11)) (V (Proc.devRef .tc main_arg1)) (V (Proc.devRef .tc main_arg2))
        (V (Proc.devRef .tc main_arg11)) (V (Proc.devRef .tc main_arg12)) := by
  simp only [opsL5, pL5a, pL5b, List.cons_append, List.nil_append]
  after_results_simp
  try dsimp only [Matrix.cons_val]
  try after_results_simp
  rfl

end Cert.ReferenceIdeal.Hand

end
-- ==== Proof.Ref.ReadT.lean ====
/-
  The readout read back: from any contents, the last operations leave in the result buffer the specification's
  readout — the mean of the features over the nodes, times the projection, plus its bias — of the contents of the
  last layer's output buffer and of the projection's and the bias's.
-/
import proofs.«151709_j57303453663856_1_alg».proof.Proof.Ref.Lists
import proofs.«151709_j57303453663856_1_alg».proof.Proof.Spec

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

set_option maxRecDepth 8192 in
set_option maxHeartbeats 2000000 in
theorem readT (V : Valuation τ sig (Elt F)) :
    after opsT V (Proc.devRef .tc main_v188) =
      Cert.Spec.tail (V (Proc.devRef .tc main_v181)) (V (Proc.devRef .tc main_arg13)) (V (Proc.devRef .tc main_arg14)) := by
  simp only [opsT, pT]
  after_results_simp
  rfl

end Cert.ReferenceIdeal.Hand

end
-- ==== Proof.Ref.Model.lean ====
/-
  The reference program computes the specification's network. The operations' fold is read stage by stage: after
  the first stage one buffer holds the cleaned features and another the normalising column; each layer's stage
  turns the previous features into the next, reading the column, the edge endpoints and its own weights, none of
  which an earlier stage writes; the readout's stage turns the last features into the result. Each stage's output
  is named before the next stage is read, so the layers are composed as five applications of one function and are
  never opened here.
-/
import Idealize.ShloMosaic.Lib.Pipeline.Frame
import proofs.«151709_j57303453663856_1_alg».proof.Proof.Ref.Run
import proofs.«151709_j57303453663856_1_alg».proof.Proof.Ref.ReadA
import proofs.«151709_j57303453663856_1_alg».proof.Proof.Ref.ReadL1
import proofs.«151709_j57303453663856_1_alg».proof.Proof.Ref.ReadL2
import proofs.«151709_j57303453663856_1_alg».proof.Proof.Ref.ReadL3
import proofs.«151709_j57303453663856_1_alg».proof.Proof.Ref.ReadL4
import proofs.«151709_j57303453663856_1_alg».proof.Proof.Ref.ReadL5
import proofs.«151709_j57303453663856_1_alg».proof.Proof.Ref.ReadT

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- The fold over the whole program is the stages' folds, one after the other. -/
theorem after_ops (V : Valuation τ sig (Elt F)) :
    after ops V = after opsT (after opsL5 (after opsL4 (after opsL3 (after opsL2 (after opsL1 (after opsA V)))))) := by
  show after (opsA ++ (opsL1 ++ (opsL2 ++ (opsL3 ++ (opsL4 ++ (opsL5 ++ opsT)))))) V = _
  rw [after_append opsA, after_append opsL1, after_append opsL2, after_append opsL3, after_append opsL4, after_append opsL5]

/-- Contents that agree with `V` off `W`, after operations writing inside `W'`, agree with `V` off `W ++ W'`. -/
theorem keep_step {l : List (HloOp τ sig (Elt F))} {W W' : List (Ref sig .tc)} {V V' : Valuation τ sig (Elt F)}
    (hl : l.Forall fun op => op.writes ⊆ (W'.map (Proc.devRef (τ := τ) .tc)).toFinset)
    (k : ∀ r : Ref sig .tc, r ∉ W → V' (Proc.devRef .tc r) = V (Proc.devRef .tc r)) :
    ∀ r : Ref sig .tc, r ∉ W ++ W' → after l V' (Proc.devRef .tc r) = V (Proc.devRef .tc r) :=
  fun r h => (after_of_writes_sub l V' hl fun h' => h (List.mem_append_right _ h')).trans
    (k r fun h' => h (List.mem_append_left _ h'))

/-- From any contents, the fold leaves in the result buffer the specification's network of the arguments' contents. -/
theorem out_eq (V : Valuation τ sig (Elt F)) :
    after ops V (Proc.devRef .tc main_v188) =
      Cert.Spec.model (V (Proc.devRef .tc main_arg0))
        (V (Proc.devRef .tc main_arg1))
        (V (Proc.devRef .tc main_arg2))
        (V (Proc.devRef .tc main_arg3))
        (V (Proc.devRef .tc main_arg4))
        (V (Proc.devRef .tc main_arg5))
        (V (Proc.devRef .tc main_arg6))
        (V (Proc.devRef .tc main_arg7))
        (V (Proc.devRef .tc main_arg8))
        (V (Proc.devRef .tc main_arg9))
        (V (Proc.devRef .tc main_arg10))
        (V (Proc.devRef .tc main_arg11))
        (V (Proc.devRef .tc main_arg12))
        (V (Proc.devRef .tc main_arg13))
        (V (Proc.devRef .tc main_arg14)) := by
  rw [after_ops]
  -- the first stage: the cleaned features and the column
  have h0 := readA_h V
  have n0 := readA_n V
  have k0 : ∀ r : Ref sig .tc, r ∉ WA → after opsA V (Proc.devRef .tc r) = V (Proc.devRef .tc r) := fun r h => keepA V r h
  generalize after opsA V = V0 at h0 n0 k0 ⊢
  -- the first layer
  have h1 := readL1 V0
  rw [h0, n0, k0 main_arg1 (by decide), k0 main_arg2 (by decide), k0 main_arg3 (by decide), k0 main_arg4 (by decide)] at h1
  have n1 : after opsL1 V0 (Proc.devRef .tc main_v11) = _ := (keepL1 V0 main_v11 (by decide)).trans n0
  have k1 := keep_step opsL1_writes k0
  generalize after opsL1 V0 = V1 at h1 n1 k1 ⊢
  -- the second layer
  have h2 := readL2 V1
  rw [h1, n1, k1 main_arg1 (by decide), k1 main_arg2 (by decide), k1 main_arg5 (by decide), k1 main_arg6 (by decide)] at h2
  have n2 : after opsL2 V1 (Proc.devRef .tc main_v11) = _ := (keepL2 V1 main_v11 (by decide)).trans n1
  have k2 := keep_step opsL2_writes k1
  generalize after opsL2 V1 = V2 at h2 n2 k2 ⊢
  -- the third layer
  have h3 := readL3 V2
  rw [h2, n2, k2 main_arg1 (by decide), k2 main_arg2 (by decide), k2 main_arg7 (by decide), k2 main_arg8 (by decide)] at h3
  have n3 : after opsL3 V2 (Proc.devRef .tc main_v11) = _ := (keepL3 V2 main_v11 (by decide)).trans n2
  have k3 := keep_step opsL3_writes k2
  generalize after opsL3 V2 = V3 at h3 n3 k3 ⊢
  -- the fourth layer
  have h4 := readL4 V3
  rw [h3, n3, k3 main_arg1 (by decide), k3 main_arg2 (by decide), k3 main_arg9 (by decide), k3 main_arg10 (by decide)] at h4
  have n4 : after opsL4 V3 (Proc.devRef .tc main_v11) = _ := (keepL4 V3 main_v11 (by decide)).trans n3
  have k4 := keep_step opsL4_writes k3
  generalize after opsL4 V3 = V4 at h4 n4 k4 ⊢
  -- the fifth layer
  have h5 := readL5 V4
  rw [h4, n4, k4 main_arg1 (by decide), k4 main_arg2 (by decide), k4 main_arg11 (by decide), k4 main_arg12 (by decide)] at h5
  have n5 : after opsL5 V4 (Proc.devRef .tc main_v11) = _ := (keepL5 V4 main_v11 (by decide)).trans n4
  have k5 := keep_step opsL5_writes k4
  generalize after opsL5 V4 = V5 at h5 n5 k5 ⊢
  -- the readout
  rw [readT, h5, k5 main_arg13 (by decide), k5 main_arg14 (by decide)]
  rfl

/-- On every device, from any memory with zero counters: every weakly fair execution of @main terminates without
    fault, with the result buffer at the specification's network of the arguments' launch contents and every
    argument unchanged. -/
theorem run_model (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v188) =
        Cert.Spec.model (F := F) (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(h c).1.trans (out_eq _), (h c).2⟩) (run (F := F) m ρ)

end Cert.ReferenceIdeal.Hand

end
-- ==== Proof.lean ====
/-
  The certificate: the dense-layer kernel program against its reference.

  Both programs clean the node features, form the normalising column n from the in-degrees, and apply five times
      h ↦ relu ([ h | n·A(n·h) | n·A(n·(n·A(n·h))) ] · W + b)        (A: gather the rows at the edges' sources, add them at the targets),
  then read out the column mean times a projection plus a bias. The kernel program does the propagation on the host and
  the affine-plus-relu step in a pipelined region, 25 blocks of 2000 rows, the operands rounded to bfloat16 on the way
  into the matrix unit; the reference does everything on the host. Over the extended reals a change of float format is
  the identity, a matrix product into a zero accumulator is the sum over the contracted axis, and tiling the rows changes
  nothing, so each region's result array is the reference's dense layer of the same three arrays; every other
  operation is the same on both sides. Hence both result buffers end at one function of the arguments
  (`Cert.Spec.model`), and the two runs agree wherever the arguments do. No step uses that the inputs are finite.

  The three frames: each program runs to the end, faults nowhere and leaves its arguments as launched — for the two
  kernel programs from the run of @main's fourteen segments (no segment writes an argument), for the reference from
  the run of its line of host operations. Nothing was rewritten by the idealization, so there is nothing to preserve.
-/
import proofs.«151709_j57303453663856_1_alg».proof.Defs
import proofs.«151709_j57303453663856_1_alg».proof.Proof.Gen.Kernel
import proofs.«151709_j57303453663856_1_alg».proof.Proof.Gen.KernelIdeal
import proofs.«151709_j57303453663856_1_alg».proof.Proof.Gen.ReferenceIdeal
import proofs.«151709_j57303453663856_1_alg».proof.Proof.Gen.Pre_finite_inputs
import proofs.«151709_j57303453663856_1_alg».proof.Proof.KB.Frame
import proofs.«151709_j57303453663856_1_alg».proof.Proof.KI.Value
import proofs.«151709_j57303453663856_1_alg».proof.Proof.Ref.Frame
import proofs.«151709_j57303453663856_1_alg».proof.Proof.Ref.Model

noncomputable section

namespace Cert.Proof

open Idealize.ShloMosaic Idealize.SL.Sem

/-- The word-level kernel program runs and keeps its arguments. -/
theorem frame_kernel : Cert.frame_Kernel := fun m ρ _ => Cert.Kernel.Hand.frame m ρ

/-- The idealized kernel program runs and keeps its arguments. -/
theorem frame_kernel_ideal : Cert.frame_KernelIdeal := fun m ρ _ => Cert.KernelIdeal.Hand.frame m ρ

/-- The reference runs and keeps its arguments. -/
theorem frame_reference : Cert.frame_ReferenceIdeal := Cert.ReferenceIdeal.Hand.frame

/-- The idealization rewrote no operation. -/
theorem preserves : Cert.preserves_Kernel_KernelIdeal := trivial

/-- From memories agreeing on the arguments both idealized programs run, and both result buffers end at the
    specification's model of those arguments. -/
theorem algebraic : Cert.algebraic_KernelIdeal_ReferenceIdeal := by
  intro m ρ m' ρ' _ hagree
  refine ⟨_, Cert.KernelIdeal.Hand.run_model m ρ, ?_⟩
  refine (θ_run Cert.ReferenceIdeal.defs _ _).mono (fun r h c => ⟨(h c).1.trans ?_, (h c).2⟩)
    (Cert.ReferenceIdeal.Hand.run_model (F := Ideal) m' ρ')
  obtain ⟨h0, h1, h2, h3, h4, h5, h6, h7, h8, h9, h10, h11, h12, h13, h14⟩ := hagree c
  rw [h0, h1, h2, h3, h4, h5, h6, h7, h8, h9, h10, h11, h12, h13, h14]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
